-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S2x1024 : Shape := ⟨2, ![2, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn_part1 {F : FTy → Type} [FloatOps F] (main_arg4 : FVec F S1024x512 .f32) (main_arg5 : FVec F S1024x512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  main_v28

def fn {F : FTy → Type} [FloatOps F] (main_arg0 : FVec F S1024x512 .f32) (main_arg1 : FVec F S1024x512 .f32) (main_arg2 : FVec F S1024x512 .f32) (main_arg3 : FVec F S1024x512 .f32) (main_arg4 : FVec F S1024x512 .f32) (main_arg5 : FVec F S1024x512 .f32) (main_arg6 : IVec S2x1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_v13 main_v16
-- ==== Kernel.lean ====
abbrev S1024x512 : Shape := ⟨2, ![1024, 512]⟩
abbrev S2x1024 : Shape := ⟨2, ![2, 1024]⟩
abbrev S2048x512 : Shape := ⟨2, ![2048, 512]⟩
abbrev S1x1024 : Shape := ⟨2, ![1, 1024]⟩
abbrev S1024 : Shape := ⟨1, ![1024]⟩
abbrev S2048 : Shape := ⟨1, ![2048]⟩
abbrev S1x2048 : Shape := ⟨2, ![1, 2048]⟩
abbrev S1x1 : Shape := ⟨2, ![1, 1]⟩
abbrev S256x512 : Shape := ⟨2, ![256, 512]⟩
abbrev S1x256 : Shape := ⟨2, ![1, 256]⟩
abbrev S128x512 : Shape := ⟨2, ![128, 512]⟩
abbrev S256x2048 : Shape := ⟨2, ![256, 2048]⟩
abbrev S2048x1 : Shape := ⟨2, ![2048, 1]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S1x128x512 : Shape := ⟨3, ![1, 128, 512]⟩
abbrev S_ : Shape := ⟨0, ![]⟩

abbrev nBuf : Space → Nat
  | .hbm => 32
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S2x1024, .i32⟩
  | .hbm, ⟨7, _⟩ => ⟨S2048x512, .f32⟩
  | .hbm, ⟨8, _⟩ => ⟨S1x1024, .i32⟩
  | .hbm, ⟨9, _⟩ => ⟨S1024, .i32⟩
  | .hbm, ⟨10, _⟩ => ⟨S1x1024, .i32⟩
  | .hbm, ⟨11, _⟩ => ⟨S1024, .i32⟩
  | .hbm, ⟨12, _⟩ => ⟨S2048, .i32⟩
  | .hbm, ⟨13, _⟩ => ⟨S1x2048, .i32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S1x2048, .i32⟩
  | .local _ .vmem, ⟨4, _⟩ => ⟨S1x256, .i32⟩
  | .local _ .vmem, ⟨5, _⟩ => ⟨S1x256, .i32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_6 : Index := 0#32
  let arg0 : BitVec 32 := BitVec.ofNat 32 (i 0).val
  let c256_i32 : BitVec 32 := 256#32
  let v9 : BitVec 32 := Scalar.muli arg0 c256_i32
  let v10 : Index := Scalar.indexCast v9
  ![0, v10.toNat]
def k0_cond2 (i : grid0.Coords) : BitVec 1 :=
  let arg0 : BitVec 32 := BitVec.ofNat 32 (i 0).val
  let c0_i32_26 : BitVec 32 := 0#32
  let v56 : BitVec 1 := Scalar.cmpi .eq arg0 c0_i32_26
  let v57 : BitVec 32 := Scalar.extui v56
  let c0_i32_27 : BitVec 32 := 0#32
  let v58 : BitVec 1 := Scalar.cmpi .ne v57 c0_i32_27
  v58

def k0_cond3 (i : grid0.Coords) : BitVec 1 :=
  let arg0 : BitVec 32 := BitVec.ofNat 32 (i 0).val
  let c0_i32_28 : BitVec 32 := 0#32
  let v59 : BitVec 1 := Scalar.cmpi .ne arg0 c0_i32_28
  let v60 : BitVec 32 := Scalar.extui v59
  let c0_i32_29 : BitVec 32 := 0#32
  let v61 : BitVec 1 := Scalar.cmpi .ne v60 c0_i32_29
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  concatenates_S1024x512_S1024x512_S2048x512_d0 : Shape.Concatenates [S1024x512, S1024x512] S2048x512 0
  slices_S2x1024_S1x1024_0_0 : S2x1024.Slices ![0, 0] S1x1024
  shapeCasts_S1x1024_S1024 : S1x1024.ShapeCasts S1024
  slices_S2x1024_S1x1024_1_0 : S2x1024.Slices ![1, 0] S1x1024
  concatenates_S1024_S1024_S2048_d0 : Shape.Concatenates [S1024, S1024] S2048 0
  bcast_S2048_S1x2048_1 : S2048.BroadcastsInDim S1x2048 (![1] : Fin 1 → Fin S1x2048.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S1x256 : 0 < S1x256.numel
  transposes_S1x256_p1_0_S256x1 : S1x256.Transposes [1, 0] S256x1
  broadcasts_S256x1_S256x2048 : S256x1.Broadcasts S256x2048
  broadcasts_S1x2048_S256x2048 : S1x2048.Broadcasts S256x2048
  inb_S1x256_S1x256_0_0 : ∀ a, (![0, 0] : Fin 2 → Nat) a + S1x256.size a ≤ S1x256.size a
  shapeCasts_S1x256_S1x256 : S1x256.ShapeCasts S1x256
  shapeCasts_S256x2048_S1x256x2048 : S256x2048.ShapeCasts S1x256x2048
  reduces_S1x256x2048_S1 : S1x256x2048.Reduces [1, 2] S1
  shapeCasts_S1_S1x1x1 : S1.ShapeCasts S1x1x1
  inpos_S1x1x1_p0_0_0 : ∀ a, (![0, 0, 0] : Fin 3 → Nat) a < S1x1x1.size a
  inb_S128x512_S128x512_0_0 : ∀ a, (![0, 0] : Fin 2 → Nat) a + S128x512.size a ≤ S128x512.size a
  h_S128x512 : 0 < S128x512.numel
  shapeCasts_S128x512_S1x128x512 : S128x512.ShapeCasts S1x128x512
  reduces_S1x128x512_S1 : S1x128x512.Reduces [1, 2] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S256x512_S2048x512_S256x2048_1_1_0_0_n_n_wf : DotDims.WF S256x512 S2048x512 S256x2048 [1] [1] [0] [0] [] []
  hrank0 : 0 < grid0.rank
  k0_off1_inb : ∀ i : grid0.Coords, ∀ a, (k0_off1 i) a + S1x256.size a ≤ S1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .i32 = 32 ∨ (Rect.block (s := S1x2048) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .i32 = 32 ∨ (Rect.block (s := S1x2048) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S1024x512.size a
  hwx0_4 : ∀ i : grid0.Coords, EltTy.bits .f32 = 32 ∨ (Rect.block (s := S1024x512) S128x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S1024x512.size a
  hwx0_5 : ∀ i : grid0.Coords, EltTy.bits .f32 = 32 ∨ (Rect.block (s := S1024x512) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S1024x512.size a
  hwx0_6 : ∀ i : grid0.Coords, EltTy.bits .f32 = 32 ∨ (Rect.block (s := S1024x512) S128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S1024x512.size a
  hwx0_7 : ∀ i : grid0.Coords, EltTy.bits .f32 = 32 ∨ (Rect.block (s := S1024x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S1x1.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S1x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_2) S1x1.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) && !(k0_cond3 i == 1#1) | 9 => fun i => !(k0_cond2 i == 1#1) && !(k0_cond3 i == 1#1) | 10 => fun i => !(k0_cond2 i == 1#1) && !(k0_cond3 i == 1#1) | ⟨_ + 11, h⟩ => absurd h (Nat.not_lt.2 (Nat.le_add_left _ _))

class Facts : Prop extends Facts₀ where

variable [Facts]
-- ==== ReferenceIdeal.lean ====
abbrev S1024x512 : Shape := ⟨2, ![1024, 512]⟩
abbrev S2x1024 : Shape := ⟨2, ![2, 1024]⟩
abbrev S_ : Shape := ⟨0, ![]⟩
abbrev S2048x512 : Shape := ⟨2, ![2048, 512]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S512x2048 : Shape := ⟨2, ![512, 2048]⟩

abbrev nBuf : Space → Nat
  | .hbm => 100
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S2x1024, .i32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048x512, .f32⟩
  | .hbm, ⟨20, _⟩ => ⟨S1x1024, .i32⟩
  | .hbm, ⟨21, _⟩ => ⟨S1024, .i32⟩
  | .hbm, ⟨22, _⟩ => ⟨S1x1024, .i32⟩
  | .hbm, ⟨23, _⟩ => ⟨S1024, .i32⟩
  | .hbm, ⟨24, _⟩ => ⟨S2048, .i32⟩
  | .hbm, ⟨25, _⟩ => ⟨S2048x512, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S512x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .i1⟩
  | .hbm, ⟨43, _⟩ => ⟨S2048x2048, .i1⟩
  | .hbm, ⟨44, _⟩ => ⟨S2048x2048, .i32⟩
  | .hbm, ⟨45, _⟩ => ⟨S_, .i32⟩
  | .hbm, ⟨46, _⟩ => ⟨S2048x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S_, .i1⟩
  | .hbm, ⟨51, _⟩ => ⟨S2048x2048, .i1⟩
  | .hbm, ⟨52, _⟩ => ⟨S2048x2048, .i1⟩
  | .hbm, ⟨53, _⟩ => ⟨S2048x1, .i32⟩
  | .hbm, ⟨54, _⟩ => ⟨S1x2048, .i32⟩
  | .hbm, ⟨55, _⟩ => ⟨S2048x2048, .i32⟩
  | .hbm, ⟨56, _⟩ => ⟨S2048x2048, .i32⟩
  | .hbm, ⟨57, _⟩ => ⟨S2048x2048, .i1⟩
  | .hbm, ⟨58, _⟩ => ⟨S2048x2048, .i1⟩
  | .hbm, ⟨59, _⟩ => ⟨S2048x2048, .i1⟩
  | .hbm, ⟨60, _⟩ => ⟨S2048x2048, .i1⟩
  | .hbm, ⟨61, _⟩ => ⟨S_, .f32⟩
  | .hbm, ⟨62, _⟩ => ⟨S_, .f32⟩
  | .hbm, ⟨63, _⟩ => ⟨S2048x2048, .f32⟩
  | .hbm, ⟨64, _⟩ => ⟨S2048x2048, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S_, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S_, .f32⟩
  | .hbm, ⟨85, _⟩ => ⟨S2048x2048, .i32⟩
  | .hbm, ⟨86, _⟩ => ⟨S_, .i32⟩
  | .hbm, ⟨87, _⟩ => ⟨S_, .i32⟩
  | .hbm, ⟨88, _⟩ => ⟨S_, .f32⟩
  | .hbm, ⟨89, _⟩ => ⟨S2048x2048, .i32⟩
  | .hbm, ⟨90, _⟩ => ⟨S_, .i32⟩
  | .hbm, ⟨91, _⟩ => ⟨S_, .i32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_call1_v0 : Ref sig .tc := ⟨.hbm, 62, rfl⟩
abbrev main_call1_v1 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_cst_8 : Ref sig .tc := ⟨.hbm, 67, rfl⟩
abbrev main_call2_v0 : Ref sig .tc := ⟨.hbm, 68, rfl⟩
abbrev main_call2_v1 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_call3_v0 : Ref sig .tc := ⟨.hbm, 80, rfl⟩
abbrev main_call3_v1 : Ref sig .tc := ⟨.hbm, 81, rfl⟩
abbrev main_v47 : Ref sig .tc := ⟨.hbm, 82, rfl⟩
abbrev main_cst_12 : Ref sig .tc := ⟨.hbm, 83, rfl⟩
abbrev main_v48 : Ref sig .tc := ⟨.hbm, 84, rfl⟩
abbrev main_v49 : Ref sig .tc := ⟨.hbm, 85, rfl⟩
abbrev main_c_13 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_14 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  reducesTo_S1024x512_S_d0_1 : S1024x512.ReducesTo [0, 1] S_
  h_S_ : 0 < S_.numel
  concatenates_S1024x512_S1024x512_S2048x512_d0 : Shape.Concatenates [S1024x512, S1024x512] S2048x512 0
  slices_S2x1024_S1x1024_0_0 : S2x1024.Slices ![0, 0] S1x1024
  shapeCasts_S1x1024_S1024 : S1x1024.ShapeCasts S1024
  slices_S2x1024_S1x1024_1_0 : S2x1024.Slices ![1, 0] S1x1024
  concatenates_S1024_S1024_S2048_d0 : Shape.Concatenates [S1024, S1024] S2048 0
  reducesTo_S2048x512_S2048_d1 : S2048x512.ReducesTo [1] S2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x512_S512x2048_1_0 : S2048x512.Transposes [1, 0] S512x2048
  bcast_S_S2048x2048 : S_.BroadcastsInDim S2048x2048 (![] : Fin 0 → Fin S2048x2048.rank)
  reducesTo_S2048x2048_S_d0_1 : S2048x2048.ReducesTo [0, 1] S_
  natLt_1_32 : 1 < 32
  dot_S2048x512_S512x2048_S2048x2048_1_0_0_1_n_n_wf : DotDims.WF S2048x512 S512x2048 S2048x2048 [1] [0] [0] [1] [] []

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

class Facts : Prop extends Facts₀ where

variable [Facts]
-- ==== Proof.BRunA.lean ====
/-
  The kernel body run at the first grid point, where the row norms are computed into the scratch row and the three
  scalar accumulators are initialised; and the three branch conditions of the body decided over the grid.
-/
import proofs.«122987_g56341380989036_cont_9to1_m_1285_19_alg».proof.Proof.Gen.Kernel.Launch
import proofs.«122987_g56341380989036_cont_9to1_m_1285_19_alg».proof.Proof.Gen.Kernel.Skeleton
import proofs.«122987_g56341380989036_cont_9to1_m_1285_19_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (the row norms are computed and kept) is taken exactly when the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The accumulators are initialised at the first grid point, -/
abbrev cond0_1 (i : grid0.Coords) : Prop := k0_cond2 i = 1#1
theorem hcond0_1 : ∀ t : Fin cfg0.N, cond0_1 (grid0.coords t) ↔ t.val % 8 = 0 :=
  (by decide +kernel : ∀ t : Fin grid0.N, cond0_1 (grid0.coords t) ↔ t.val % 8 = 0)
/-- and added to at every later one. -/
abbrev cond0_2 (i : grid0.Coords) : Prop := k0_cond3 i = 1#1
theorem hcond0_2 : ∀ t : Fin cfg0.N, cond0_2 (grid0.coords t) ↔ ¬ t.val % 8 = 0 :=
  (by decide +kernel : ∀ t : Fin grid0.N, cond0_2 (grid0.coords t) ↔ ¬ t.val % 8 = 0)

set_option maxHeartbeats 4000000 in
/-- The body at the first grid point: the inputs' staging buffers are read and left as they were; the row norms of the
    whole embedding matrix are stored into the scratch row; each of the three scalar accumulators is overwritten with
    this point's partial sum. The pieces written are found by running the body. -/
noncomputable def kernelRun0_A (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i)
    (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) :
    Σ' (L9 : List (View.Piece (Elt F) S1x1 .f32)) (L10 : List (View.Piece (Elt F) S1x1 .f32)) (L11 : List (View.Piece (Elt F) S1x1 .f32)), { LS : List (View.Piece (Elt F) S1x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.Kernel.Hand

end
-- ==== Proof.BRunB.lean ====
/-
  The kernel body run at a grid point after the first, where the kept row norms are read back and the three scalar
  accumulators are added to.
-/
import proofs.«122987_g56341380989036_cont_9to1_m_1285_19_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point: the inputs' staging buffers and the scratch row (the row norms, kept from the first
    point) are read and left as they were; each of the three scalar accumulators, found at what the point before left,
    is overwritten with that plus this point's partial sum. The pieces written are found by running the body. -/
noncomputable def kernelRun0_B (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i)
    (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) :
    Σ' (L9 : List (View.Piece (Elt F) S1x1 .f32)) (L10 : List (View.Piece (Elt F) S1x1 .f32)), { L11 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare y9 ∗ owns (c : Thread nD τ) arg10 fullShare y10 ∗ owns (c : Thread nD τ) arg11 fullShare y11 ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ owns (c : Thread nD τ) arg12 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; isplitr; · ipureintro; exact harg12.read_unread _
    iexact H12

end Cert.Kernel.Hand

end
-- ==== Proof.BShared.lean ====
/-
  What the two runs of the kernel body share when they are placed on the grid: the buffer contents at the region's
  entry, the blocks the windows stage, the staging memrefs at a grid point, the scratch row.
-/
import proofs.«122987_g56341380989036_cont_9to1_m_1285_19_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents when the region is entered: the host lines before it have run. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Where the output windows are live, and the staging memrefs -/

theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
/-- The scratch row: a whole scoped buffer of the kernel's own. -/
abbrev scM0_0 : Memref sig .tc .vmem S1x2048 .f32 := Memref.whole cc0_scratch0
abbrev VS0_0 : View sig .tc .vmem S1x2048 .f32 := scM0_0.view
abbrev VO0_8 : View sig .tc .vmem S1x1 .f32 := (Memref.whole cc0_stg8_0 : Memref sig .tc .vmem S1x1 .f32).view
abbrev VO0_9 : View sig .tc .vmem S1x1 .f32 := (Memref.whole cc0_stg9_0 : Memref sig .tc .vmem S1x1 .f32).view
abbrev VO0_10 : View sig .tc .vmem S1x1 .f32 := (Memref.whole cc0_stg10_0 : Memref sig .tc .vmem S1x1 .f32).view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.BDat.lean ====
/-
  The kernel's proof data on the grid: what the three scalar accumulators and the scratch row of row norms hold after
  each grid point, and the body's obligation at every point from the two runs of the body.
-/
import proofs.«122987_g56341380989036_cont_9to1_m_1285_19_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators and in the scratch row -/

theorem cover0_A_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).1 S1x1.size (by sl_kernel_rfl) y
def out0_A_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).1)

theorem cover0_A_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.1 S1x1.size (by sl_kernel_rfl) y
def out0_A_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.1)

theorem cover0_A_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.1 S1x1.size (by sl_kernel_rfl) y
def out0_A_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x1 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.1)

theorem scover0_A (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.2.1 S1x2048.size (by sl_kernel_rfl) y
def sout0_A (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x2048 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.2.1)

theorem cover0_B_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).1 S1x1.size (by sl_kernel_rfl) y
def out0_B_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).1)

theorem cover0_B_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.1 S1x1.size (by sl_kernel_rfl) y
def out0_B_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.1)

theorem cover0_B_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.2.1 S1x1.size (by sl_kernel_rfl) y
def out0_B_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) : Vec F S1x1 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.2.1)

theorem liveAll0_8 : ∀ i : grid0.Coords, cfg0.idle 8 i = false := by decide +kernel
theorem liveAll0_9 : ∀ i : grid0.Coords, cfg0.idle 9 i = false := by decide +kernel
theorem liveAll0_10 : ∀ i : grid0.Coords, cfg0.idle 10 i = false := by decide +kernel

theorem succ_mod_ne (n : ℕ) (hn : n + 1 < cfg0.N) : ¬ (n + 1) % 8 = 0 := by
  have : n + 1 < 8 := lt_of_lt_of_eq hn (show cfg0.N = 8 from N_0); omega

/-- THE ACCUMULATION: what the three accumulators' staging buffers and the scratch row hold after the body at
    position `n` — at the first point what the initialising case leaves, at a later point what the adding case leaves
    over what the point before left; the scratch row keeps the row norms of the first point. -/
def outsAt0 (c : Dev nD) : (n : ℕ) → n < cfg0.N → Vec F S1x1 .f32 × Vec F S1x1 .f32 × Vec F S1x1 .f32 × Vec F S1x2048 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn => (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h' => (succ_mod_ne n hn) ((hcond0_0 ⟨n + 1, hn⟩).mp h')) (fun h' => (succ_mod_ne n hn) ((hcond0_1 ⟨n + 1, hn⟩).mp h')) ((hcond0_2 ⟨n + 1, hn⟩).mpr (succ_mod_ne n hn)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1 (outsAt0 c n (Nat.lt_of_succ_lt hn)).2.1 (outsAt0 c n (Nat.lt_of_succ_lt hn)).2.2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h' => (succ_mod_ne n hn) ((hcond0_0 ⟨n + 1, hn⟩).mp h')) (fun h' => (succ_mod_ne n hn) ((hcond0_1 ⟨n + 1, hn⟩).mp h')) ((hcond0_2 ⟨n + 1, hn⟩).mpr (succ_mod_ne n hn)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1 (outsAt0 c n (Nat.lt_of_succ_lt hn)).2.1 (outsAt0 c n (Nat.lt_of_succ_lt hn)).2.2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h' => (succ_mod_ne n hn) ((hcond0_0 ⟨n + 1, hn⟩).mp h')) (fun h' => (succ_mod_ne n hn) ((hcond0_1 ⟨n + 1, hn⟩).mp h')) ((hcond0_2 ⟨n + 1, hn⟩).mpr (succ_mod_ne n hn)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1 (outsAt0 c n (Nat.lt_of_succ_lt hn)).2.1 (outsAt0 c n (Nat.lt_of_succ_lt hn)).2.2.1, (outsAt0 c n (Nat.lt_of_succ_lt hn)).2.2.2)

theorem outsAt0_A (c : Dev nD) (t : Fin cfg0.N) (h0 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact absurd h0 (succ_mod_ne n hn)

theorem outsAt0_B (c : Dev nD) (t : Fin cfg0.N) (h0 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact absurd (Nat.zero_mod _) h0
  | succ n => exact rfl

/-- The region invariant before position `n`: before the first point the scratch row at anything; afterwards at the row
    norms the first point stored; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block, the
    accumulators' at the accumulation; the embedding matrix and the label row are each handed to two windows, which hold
    half of them each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8_B (c : Dev nD) (t : Fin cfg0.N) (h0 : ¬t.val % 8 = 0) (d) :
    (dats m 0 c).before 8 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    liveAll0_8 (fun _ _ => rfl)]
  dsimp only [dats]
theorem before0_9_B (c : Dev nD) (t : Fin cfg0.N) (h0 : ¬t.val % 8 = 0) (d) :
    (dats m 0 c).before 9 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    liveAll0_9 (fun _ _ => rfl)]
  dsimp only [dats]
theorem before0_10_B (c : Dev nD) (t : Fin cfg0.N) (h0 : ¬t.val % 8 = 0) (d) :
    (dats m 0 c).before 10 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    liveAll0_10 (fun _ _ => rfl)]
  dsimp only [dats]
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any grid point: the inputs' memrefs hold their blocks; at the first point the initialising run applies, the
    scratch row handed over at anything and taken back at the row norms; at a later point the adding run applies, the
    accumulators found at what the point before left and the scratch row at the first point's row norms. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  have hN : t.val < 8 := lt_of_lt_of_eq t.isLt (show cfg0.N = 8 from N_0)
  by_cases h0 : t.val % 8 = 0
  · have hz : t.val = 0 := by omega
    rw [outsAt0_A m c t h0]
    unfold out0_A_8 out0_A_9 out0_A_10 sout0_A; (try dsimp only)
    rw [PhiS_castSucc m c t, PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, ⟨%es, HS⟩⟩
    isplitl [HS Hg]
    · isplitl [HS]
      · unfold owns; iexists _; isplitr
        swap; · iexact HS
        ipureintro; exact View.read_writes_of_cover _ _ _ _ _ (scover0_A c _ _ _ _ _ _ _ _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ )
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ )
  · have hz : t.val ≠ 0 := fun h => h0 (by rw [h])
    simp only [before0_8_B m c t h0, before0_9_B m c t h0, before0_10_B m c t h0]
    rw [outsAt0_B m c t h0]
    unfold out0_B_8 out0_B_9 out0_B_10; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) _ _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ )
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨HS0, Hg⟩
  isplitl [HS0]
  · iexists _; iexact HS0
  iexact Hg

end Cert.Kernel.Hand

end
-- ==== Proof.BArrays.lean ====
/-
  The embedding matrix and the label row are each handed to the kernel through two windows. The whole buffers behind the
  windows' arrays are the proof data's arrays, a shared buffer split in two halves; and back.
-/
import proofs.«122987_g56341380989036_cont_9to1_m_1285_19_alg».proof.Proof.BDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nine distinct buffers behind the eleven windows, each whole at `Wb`. -/
theorem arrBufs0_eq (c : Dev nD) (Wb : (b : Ref sig .tc) → Buf (Elt F) ((c : Thread nD τ).loc b)) :
    (Pipeline.arrBufs spec0 c Wb : sProp 𝕄)
      = iprop((((c : Thread nD τ).loc main_v0) ↦{fullShare} Wb main_v0) ∗ (((c : Thread nD τ).loc main_v6) ↦{fullShare} Wb main_v6)
        ∗ (((c : Thread nD τ).loc main_arg2) ↦{fullShare} Wb main_arg2) ∗ (((c : Thread nD τ).loc main_arg4) ↦{fullShare} Wb main_arg4)
        ∗ (((c : Thread nD τ).loc main_arg3) ↦{fullShare} Wb main_arg3) ∗ (((c : Thread nD τ).loc main_arg5) ↦{fullShare} Wb main_arg5)
        ∗ (((c : Thread nD τ).loc main_v7_0) ↦{fullShare} Wb main_v7_0) ∗ (((c : Thread nD τ).loc main_v7_1) ↦{fullShare} Wb main_v7_1)
        ∗ (((c : Thread nD τ).loc main_v7_2) ↦{fullShare} Wb main_v7_2)) := by
  unfold Pipeline.arrBufs
  exact bigSep_eq_bigSepL_of_eq [main_v0, main_v6, main_arg2, main_arg4, main_arg3, main_arg5, main_v7_0, main_v7_1, main_v7_2] (by decide) (by decide) _

/-! The share each window holds of its array: the embedding matrix and the label row in two halves. -/
theorem share_0 (c : Dev nD) : (dats m 0 c).share 0 = fullShare.left := by
  unfold Dat.share; dsimp only [dats]; rfl
theorem share_1 (c : Dev nD) : (dats m 0 c).share 1 = fullShare.right := by
  unfold Dat.share; dsimp only [dats]; rfl
theorem share_2 (c : Dev nD) : (dats m 0 c).share 2 = fullShare.left := by
  unfold Dat.share; dsimp only [dats]; rfl
theorem share_3 (c : Dev nD) : (dats m 0 c).share 3 = fullShare.right := by
  unfold Dat.share; dsimp only [dats]; rfl
theorem share_4 (c : Dev nD) : (dats m 0 c).share 4 = fullShare := by
  unfold Dat.share; dsimp only [dats]; rfl
theorem share_5 (c : Dev nD) : (dats m 0 c).share 5 = fullShare := by
  unfold Dat.share; dsimp only [dats]; rfl
theorem share_6 (c : Dev nD) : (dats m 0 c).share 6 = fullShare := by
  unfold Dat.share; dsimp only [dats]; rfl
theorem share_7 (c : Dev nD) : (dats m 0 c).share 7 = fullShare := by
  unfold Dat.share; dsimp only [dats]; rfl
theorem share_8 (c : Dev nD) : (dats m 0 c).share 8 = fullShare := by
  unfold Dat.share; dsimp only [dats]; rfl
theorem share_9 (c : Dev nD) : (dats m 0 c).share 9 = fullShare := by
  unfold Dat.share; dsimp only [dats]; rfl
theorem share_10 (c : Dev nD) : (dats m 0 c).share 10 = fullShare := by
  unfold Dat.share; dsimp only [dats]; rfl

/-- The proof data's arrays, each a whole buffer at its window's share. -/
theorem arrays_whole (c : Dev nD) (Fa : (w : Fin cfg0.W) → Buf (Elt F) ((cfg0.win w).arr.view.loc (c : Thread nD τ))) :
    ((dats m 0 c).arrays Fa : sProp 𝕄)
      = bigSep Finset.univ fun w : Fin cfg0.W => (((c : Thread nD τ).loc (Pipeline.arrRef spec0 w)) ↦{(dats m 0 c).share w} Fa w : sProp 𝕄) := by
  unfold Dat.arrays
  exact bigSep_congr fun w _ => by rw [(arr_whole0 w).set_eq_univ]

/-- The buffers behind the arrays, whole, are the proof data's arrays: a buffer two windows stage is split in halves. -/
theorem arrays_iff (c : Dev nD) (Wb : (b : Ref sig .tc) → Buf (Elt F) ((c : Thread nD τ).loc b)) :
    (Pipeline.arrBufs spec0 c Wb : sProp 𝕄) ⊣⊢ (dats m 0 c).arrays (fun w => Wb (Pipeline.arrRef spec0 w)) := by
  rw [arrBufs0_eq, arrays_whole, bigSep_W0]
  rw [share_0, share_1, share_2, share_3, share_4, share_5, share_6, share_7, share_8, share_9, share_10]
  constructor
  · iintro ⟨H0, H6, H2, H4, H3, H5, H70, H71, H72⟩
    ihave H0 := (pointsTo_share (PosShare.mem_left_op_right fullShare)).1 $$ H0
    icases H0 with ⟨H0a, H0b⟩
    ihave H6 := (pointsTo_share (PosShare.mem_left_op_right fullShare)).1 $$ H6
    icases H6 with ⟨H6a, H6b⟩
    isplitl [H0a]; · iexact H0a
    isplitl [H0b]; · iexact H0b
    isplitl [H6a]; · iexact H6a
    isplitl [H6b]; · iexact H6b
    isplitl [H2]; · iexact H2
    isplitl [H4]; · iexact H4
    isplitl [H3]; · iexact H3
    isplitl [H5]; · iexact H5
    isplitl [H70]; · iexact H70
    isplitl [H71]; · iexact H71
    iexact H72
  · iintro ⟨H0a, H0b, H6a, H6b, H2, H4, H3, H5, H70, H71, H72⟩
    isplitl [H0a H0b]
    · iapply (pointsTo_share (PosShare.mem_left_op_right fullShare)).2
      isplitl [H0a] <;> iassumption
    isplitl [H6a H6b]
    · iapply (pointsTo_share (PosShare.mem_left_op_right fullShare)).2
      isplitl [H6a] <;> iassumption
    isplitl [H2]; · iexact H2
    isplitl [H4]; · iexact H4
    isplitl [H3]; · iexact H3
    isplitl [H5]; · iexact H5
    isplitl [H70]; · iexact H70
    isplitl [H71]; · iexact H71
    iexact H72

end Cert.Kernel.Hand

end
-- ==== Proof.BExit.lean ====
/-
  What the buffers hold when the region is left and at the end of the program.
-/
import proofs.«122987_g56341380989036_cont_9to1_m_1285_19_alg».proof.Proof.BArrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The buffer contents at the region's exit and at the end -/

/-- The buffer contents when the region is left: the three results at what the last grid point wrote back, every
    other buffer as the region found it. -/
def Wmid (c : Dev nD) : Valuation τ sig (Elt F) :=
  Function.update (Function.update (Function.update (V0 m c) (Proc.devRef .tc main_v7_0) ((dats m 0 c).arrAt 8 cfg0.N))
    (Proc.devRef .tc main_v7_1) ((dats m 0 c).arrAt 9 cfg0.N)) (Proc.devRef .tc main_v7_2) ((dats m 0 c).arrAt 10 cfg0.N)

/-- The buffer contents at the end: the host lines after the region have run. -/
def Wfin (c : Dev nD) : Valuation τ sig (Elt F) := StableHlo.after (List.flatten [hostOps1]) (Wmid m c)

theorem Wmid_of_ne (c : Dev nD) (b : Ref sig .tc) (h0 : b ≠ main_v7_0) (h1 : b ≠ main_v7_1) (h2 : b ≠ main_v7_2) :
    Wmid m c (Proc.devRef .tc b) = V m c b := by
  unfold Wmid
  rw [Function.update_of_ne (fun e => h2 (Proc.devRef_injective _ e)), Function.update_of_ne (fun e => h1 (Proc.devRef_injective _ e)),
    Function.update_of_ne (fun e => h0 (Proc.devRef_injective _ e))]

theorem Wmid_8 (c : Dev nD) : Wmid m c (Proc.devRef .tc main_v7_0) = (dats m 0 c).arrAt 8 cfg0.N := by
  unfold Wmid
  rw [Function.update_of_ne (by decide), Function.update_of_ne (by decide), Function.update_self]
theorem Wmid_9 (c : Dev nD) : Wmid m c (Proc.devRef .tc main_v7_1) = (dats m 0 c).arrAt 9 cfg0.N := by
  unfold Wmid
  rw [Function.update_of_ne (by decide), Function.update_self]
theorem Wmid_10 (c : Dev nD) : Wmid m c (Proc.devRef .tc main_v7_2) = (dats m 0 c).arrAt 10 cfg0.N := by
  unfold Wmid
  rw [Function.update_self]

/-- Every array at the region's exit is the exit contents of the buffer behind it: an input array is unchanged. -/
theorem arrAt_Wmid (c : Dev nD) (w : Fin cfg0.W) :
    (dats m 0 c).arrAt w cfg0.N = Wmid m c (Proc.devRef .tc (Pipeline.arrRef spec0 w)) := by
  fin_cases w
  · exact ((dats m 0 c).arrAt_in 0 rfl _).trans ((A_eq m c 0).trans (Wmid_of_ne m c _ (by decide) (by decide) (by decide)).symm)
  · exact ((dats m 0 c).arrAt_in 1 rfl _).trans ((A_eq m c 1).trans (Wmid_of_ne m c _ (by decide) (by decide) (by decide)).symm)
  · exact ((dats m 0 c).arrAt_in 2 rfl _).trans ((A_eq m c 2).trans (Wmid_of_ne m c _ (by decide) (by decide) (by decide)).symm)
  · exact ((dats m 0 c).arrAt_in 3 rfl _).trans ((A_eq m c 3).trans (Wmid_of_ne m c _ (by decide) (by decide) (by decide)).symm)
  · exact ((dats m 0 c).arrAt_in 4 rfl _).trans ((A_eq m c 4).trans (Wmid_of_ne m c _ (by decide) (by decide) (by decide)).symm)
  · exact ((dats m 0 c).arrAt_in 5 rfl _).trans ((A_eq m c 5).trans (Wmid_of_ne m c _ (by decide) (by decide) (by decide)).symm)
  · exact ((dats m 0 c).arrAt_in 6 rfl _).trans ((A_eq m c 6).trans (Wmid_of_ne m c _ (by decide) (by decide) (by decide)).symm)
  · exact ((dats m 0 c).arrAt_in 7 rfl _).trans ((A_eq m c 7).trans (Wmid_of_ne m c _ (by decide) (by decide) (by decide)).symm)
  · exact (Wmid_8 m c).symm
  · exact (Wmid_9 m c).symm
  · exact (Wmid_10 m c).symm

/-- The host lines after the region write none of the arrays. -/
theorem hostOps1_keeps (w : Fin cfg0.W) : ∀ op ∈ (List.flatten [hostOps1] : List (HloOp τ sig (Elt F))),
    Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals fin_cases w <;> simp only [StableHlo.nullary_writes, StableHlo.unary_writes, StableHlo.binary_writes, StableHlo.reshape_writes, Finset.mem_singleton] <;> exact StableHlo.devRef_ne_of_ne (by decide)

theorem arrAt_Wfin (c : Dev nD) (w : Fin cfg0.W) :
    (dats m 0 c).arrAt w cfg0.N = Wfin m c (Proc.devRef .tc (Pipeline.arrRef spec0 w)) := by
  unfold Wfin
  rw [StableHlo.after_of_forall_not_mem _ _ (hostOps1_keeps w)]
  exact arrAt_Wmid m c w

end Cert.Kernel.Hand

end
-- ==== Proof.BRun.lean ====
/-
  The launch: the program is host lines, one kernel region whose windows share two arrays, host lines. The run of the
  whole program from the body's obligation, the arrays split among the windows at entry and joined again at exit.
-/
import proofs.«122987_g56341380989036_cont_9to1_m_1285_19_alg».proof.Proof.BExit
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-- The buffers no window stages, at the end of the program. -/
abbrev Wrest (c : Dev nD) (b : Ref sig .tc) : Buf (Elt F) ((c : Thread nD τ).loc b) := Wfin m c (Proc.devRef .tc b)
/-- The same at the region's exit. -/
abbrev Wexit (c : Dev nD) (b : Ref sig .tc) : Buf (Elt F) ((c : Thread nD τ).loc b) := Wmid m c (Proc.devRef .tc b)

theorem ops1_sub : ∀ ops ∈ ([hostOps1] : List (List (HloOp τ sig (Elt F)))), ∀ op ∈ ops, op.bufs ⊆ ucRefs τ sig := by
  intro ops hops op hop
  simp only [List.mem_cons, List.mem_nil_iff, or_false] at hops
  rcases hops with rfl
  exact Pipeline.sub_ucRefs op ((List.forall_iff_forall_mem.mp hostOps1_sub) op hop)
theorem ops1_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The arrays at any contents that are the buffers' contents behind them. -/
theorem arrays_iff' (c : Dev nD) (Wb : (b : Ref sig .tc) → Buf (Elt F) ((c : Thread nD τ).loc b))
    (Fa : (w : Fin cfg0.W) → Buf (Elt F) ((cfg0.win w).arr.view.loc (c : Thread nD τ))) (hF : ∀ w, Fa w = Wb (Pipeline.arrRef spec0 w)) :
    (Pipeline.arrBufs spec0 c Wb : sProp 𝕄) ⊣⊢ (dats m 0 c).arrays Fa := by
  have h : Fa = fun w => Wb (Pipeline.arrRef spec0 w) := funext hF
  subst h
  exact arrays_iff m c Wb

/-- The unscoped buffers at a valuation: the buffers behind the arrays and the rest. -/
theorem held_split (c : Dev nD) (Wv : Valuation τ sig (Elt F)) :
    (StableHlo.held (c : Thread nD τ) (ucRefs τ sig) Wv : sProp 𝕄)
      = iprop((Pipeline.arrBufs spec0 c (fun b => Wv (Proc.devRef .tc b)) : sProp 𝕄) ∗ Pipeline.unscopedRest spec0 c (fun b => Wv (Proc.devRef .tc b))) := by
  rw [← unscopedBufs_held (Ix := Unit) (Name := ℕ) (U := UR sig nD τ) (Lvl := ℕ) c Wv]
  exact Pipeline.unscopedBufs_split₀ cfgs 0 winFacts₀0.arr_unscoped c _

theorem rest_exit (c : Dev nD) :
    (Pipeline.unscopedRest spec0 c (V m c) : sProp 𝕄) = Pipeline.unscopedRest spec0 c (Wexit m c) := by
  unfold Pipeline.unscopedRest
  exact bigSep_congr fun b hb => by
    have hb' := (Finset.mem_sdiff.mp hb).2
    have e : Wexit m c b = V m c b :=
      Wmid_of_ne m c b (fun e => hb' (Finset.mem_image.mpr ⟨8, Finset.mem_univ _, e ▸ rfl⟩))
        (fun e => hb' (Finset.mem_image.mpr ⟨9, Finset.mem_univ _, e ▸ rfl⟩))
        (fun e => hb' (Finset.mem_image.mpr ⟨10, Finset.mem_univ _, e ▸ rfl⟩))
    rw [e]

/-- At the region's exit: the arrays at their exit contents and the other buffers as the region found them are all the
    unscoped buffers at the exit valuation. -/
theorem held_exit (c : Dev nD) :
    (StableHlo.held (c : Thread nD τ) (ucRefs τ sig) (Wmid m c) : sProp 𝕄)
      ⊣⊢ iprop((dats m 0 c).arrays ((dats m 0 c).arrAt · cfg0.N) ∗ Pipeline.unscopedRest spec0 c (V m c)) := by
  rw [held_split, rest_exit]
  exact ⟨sep_mono (arrays_iff' m c (Wexit m c) _ (arrAt_Wmid m c)).1 .rfl, sep_mono (arrays_iff' m c (Wexit m c) _ (arrAt_Wmid m c)).2 .rfl⟩

/-- At the end: all the unscoped buffers at the end valuation give back the arrays at their exit contents. -/
theorem held_end (c : Dev nD) :
    (StableHlo.held (c : Thread nD τ) (ucRefs τ sig) (Wfin m c) : sProp 𝕄)
      ⊢ iprop((dats m 0 c).arrays ((dats m 0 c).arrAt · cfg0.N) ∗ Pipeline.unscopedRest spec0 c (Wrest m c)) := by
  rw [held_split]
  exact sep_mono (arrays_iff' m c (Wrest m c) _ (arrAt_Wfin m c)).1 .rfl

set_option maxHeartbeats 1600000 in
/-- The lines after the region: from the arrays at their exit contents and the other buffers as the region found them,
    the lines run and hand back the arrays unchanged and the other buffers at the end contents. -/
theorem tail (c : Dev nD) (Q' : PUnit → sProp 𝕄) :
    iprop((iprop((dats m 0 c).arrays ((dats m 0 c).arrAt · cfg0.N) ∗ Pipeline.unscopedRest spec0 c (Wrest m c)) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q : Fin 1 => (cfgs q).toPCfg (Val := Elt F)) defs₀) (Variants.lift Variants.none) (c : Thread nD τ) none) Set.univ (Pipeline.chain [StableHlo.seq hostOps1]) Q' := by
  have hW := held_exit m c
  have hW' := held_end m c
  have hseq := wp_seqs_then (Ix := Unit) (Name := ℕ) (U := UR sig nD τ) (Lvl := ℕ) (fun q : Fin 1 => (cfgs q).toPCfg (Val := Elt F)) defs₀ Variants.none c (ucRefs τ sig) [] (K := Q') [hostOps1] ops1_sub ops1_fresh (Wmid m c)
  rw [List.map_cons, List.map_nil, List.append_nil] at hseq
  iintro ⟨Hk, Hb, Ha, Hr⟩
  ihave Hh := hW.2 $$ [Ha Hr]
  · isplitl [Ha] <;> iassumption
  iapply hseq $$ [Hb Hh]
  · isplitl [Hb] <;> iassumption
  iintro Hb
  rw [chain_nil, wp_pure]
  imodintro
  iapply Hk
  icases Hb with ⟨-, H⟩
  iapply hW'
  iexact H

set_option maxHeartbeats 1600000 in
set_option backward.isDefEq.respectTransparency.types false in
/-- THE RUN. At any float values, from any memory with zero counters: every weakly fair execution of the program
    terminates, nothing faulting, and every final state has each windowed array at what the write-backs leave in it and
    every other unscoped buffer at what the host lines after the region leave. -/
theorem run_main : θ_run defs (onTc (τ := τ) (main (F := F))) (s₀ m ρ) (fun r => ∀ c : Dev nD,
    (∀ w, r.2.mem ((cfg0.win w).arr.view.loc (c : Thread nD τ)) = (dats m 0 c).arrAt w cfg0.N)
      ∧ ∀ b ∈ restRefsP sig Prefetch.none spec0, r.2.mem ((c : Thread nD τ).loc b) = Wrest m c b) :=
  Pipeline.θ_run_region_pf_tail (fun q : Fin 1 => (cfgs q).toPCfg (Val := Elt F)) (fun q => (cfgs q).toPCfg_adm) (dats m) () cellOf_inj 0 winFacts₀0 (OwnSemFacts.none spec0) (PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c)).1)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Wrest m c))
    (hX := fun c => by
      rw [unscopedRestP_none]
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := fun c Q' => tail m c Q')
    (QY := fun c s => ∀ b ∈ restRefsP sig Prefetch.none spec0, s.mem ((c : Thread nD τ).loc b) = Wrest m c b)
    (hY := fun c s' => by
      rw [← unscopedRestP_none]
      unfold unscopedRestP
      iintro ⟨-, HU, HSI⟩
      imodintro
      iapply (pointsTo_read_all (restRefsP sig Prefetch.none spec0) (fun b => (c : Thread nD τ).loc b) (Wrest m c) s')
      isplitl [HU] <;> iassumption)
    (hQ := fun s h c => ⟨(h c).1, (h c).2.2⟩)

end Cert.Kernel.Hand

end
-- ==== Proof.BFrame.lean ====
/-
  The frame claim from the run: no host line writes an argument, and the pipeline writes no input window's array.
-/
import proofs.«122987_g56341380989036_cont_9to1_m_1285_19_alg».proof.Proof.BRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## No host line writes an argument -/
theorem pre_keeps_arg0 : ∀ op ∈ (List.flatten [hostOps0] : List (HloOp τ sig (Elt F))), Proc.devRef .tc main_arg0 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg0 : ∀ op ∈ (List.flatten [hostOps1] : List (HloOp τ sig (Elt F))), Proc.devRef .tc main_arg0 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg0 (c : Dev nD) : V m c main_arg0 = m ((c : Thread nD τ).loc main_arg0) :=
  StableHlo.after_of_forall_not_mem (b := Proc.devRef .tc main_arg0) _ _ pre_keeps_arg0
theorem Wfin_arg0 (c : Dev nD) : Wfin m c (Proc.devRef .tc main_arg0) = m ((c : Thread nD τ).loc main_arg0) := by
  unfold Wfin
  rw [StableHlo.after_of_forall_not_mem _ _ post_keeps_arg0, Wmid_of_ne m c main_arg0 (by decide) (by decide) (by decide)]
  exact V_arg0 m c
theorem pre_keeps_arg1 : ∀ op ∈ (List.flatten [hostOps0] : List (HloOp τ sig (Elt F))), Proc.devRef .tc main_arg1 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg1 : ∀ op ∈ (List.flatten [hostOps1] : List (HloOp τ sig (Elt F))), Proc.devRef .tc main_arg1 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg1 (c : Dev nD) : V m c main_arg1 = m ((c : Thread nD τ).loc main_arg1) :=
  StableHlo.after_of_forall_not_mem (b := Proc.devRef .tc main_arg1) _ _ pre_keeps_arg1
theorem Wfin_arg1 (c : Dev nD) : Wfin m c (Proc.devRef .tc main_arg1) = m ((c : Thread nD τ).loc main_arg1) := by
  unfold Wfin
  rw [StableHlo.after_of_forall_not_mem _ _ post_keeps_arg1, Wmid_of_ne m c main_arg1 (by decide) (by decide) (by decide)]
  exact V_arg1 m c
theorem pre_keeps_arg2 : ∀ op ∈ (List.flatten [hostOps0] : List (HloOp τ sig (Elt F))), Proc.devRef .tc main_arg2 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg2 : ∀ op ∈ (List.flatten [hostOps1] : List (HloOp τ sig (Elt F))), Proc.devRef .tc main_arg2 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg2 (c : Dev nD) : V m c main_arg2 = m ((c : Thread nD τ).loc main_arg2) :=
  StableHlo.after_of_forall_not_mem (b := Proc.devRef .tc main_arg2) _ _ pre_keeps_arg2
theorem Wfin_arg2 (c : Dev nD) : Wfin m c (Proc.devRef .tc main_arg2) = m ((c : Thread nD τ).loc main_arg2) := by
  unfold Wfin
  rw [StableHlo.after_of_forall_not_mem _ _ post_keeps_arg2, Wmid_of_ne m c main_arg2 (by decide) (by decide) (by decide)]
  exact V_arg2 m c
theorem pre_keeps_arg3 : ∀ op ∈ (List.flatten [hostOps0] : List (HloOp τ sig (Elt F))), Proc.devRef .tc main_arg3 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg3 : ∀ op ∈ (List.flatten [hostOps1] : List (HloOp τ sig (Elt F))), Proc.devRef .tc main_arg3 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg3 (c : Dev nD) : V m c main_arg3 = m ((c : Thread nD τ).loc main_arg3) :=
  StableHlo.after_of_forall_not_mem (b := Proc.devRef .tc main_arg3) _ _ pre_keeps_arg3
theorem Wfin_arg3 (c : Dev nD) : Wfin m c (Proc.devRef .tc main_arg3) = m ((c : Thread nD τ).loc main_arg3) := by
  unfold Wfin
  rw [StableHlo.after_of_forall_not_mem _ _ post_keeps_arg3, Wmid_of_ne m c main_arg3 (by decide) (by decide) (by decide)]
  exact V_arg3 m c
theorem pre_keeps_arg4 : ∀ op ∈ (List.flatten [hostOps0] : List (HloOp τ sig (Elt F))), Proc.devRef .tc main_arg4 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg4 : ∀ op ∈ (List.flatten [hostOps1] : List (HloOp τ sig (Elt F))), Proc.devRef .tc main_arg4 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg4 (c : Dev nD) : V m c main_arg4 = m ((c : Thread nD τ).loc main_arg4) :=
  StableHlo.after_of_forall_not_mem (b := Proc.devRef .tc main_arg4) _ _ pre_keeps_arg4
theorem Wfin_arg4 (c : Dev nD) : Wfin m c (Proc.devRef .tc main_arg4) = m ((c : Thread nD τ).loc main_arg4) := by
  unfold Wfin
  rw [StableHlo.after_of_forall_not_mem _ _ post_keeps_arg4, Wmid_of_ne m c main_arg4 (by decide) (by decide) (by decide)]
  exact V_arg4 m c
theorem pre_keeps_arg5 : ∀ op ∈ (List.flatten [hostOps0] : List (HloOp τ sig (Elt F))), Proc.devRef .tc main_arg5 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg5 : ∀ op ∈ (List.flatten [hostOps1] : List (HloOp τ sig (Elt F))), Proc.devRef .tc main_arg5 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg5 (c : Dev nD) : V m c main_arg5 = m ((c : Thread nD τ).loc main_arg5) :=
  StableHlo.after_of_forall_not_mem (b := Proc.devRef .tc main_arg5) _ _ pre_keeps_arg5
theorem Wfin_arg5 (c : Dev nD) : Wfin m c (Proc.devRef .tc main_arg5) = m ((c : Thread nD τ).loc main_arg5) := by
  unfold Wfin
  rw [StableHlo.after_of_forall_not_mem _ _ post_keeps_arg5, Wmid_of_ne m c main_arg5 (by decide) (by decide) (by decide)]
  exact V_arg5 m c
theorem pre_keeps_arg6 : ∀ op ∈ (List.flatten [hostOps0] : List (HloOp τ sig (Elt F))), Proc.devRef .tc main_arg6 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg6 : ∀ op ∈ (List.flatten [hostOps1] : List (HloOp τ sig (Elt F))), Proc.devRef .tc main_arg6 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg6 (c : Dev nD) : V m c main_arg6 = m ((c : Thread nD τ).loc main_arg6) :=
  StableHlo.after_of_forall_not_mem (b := Proc.devRef .tc main_arg6) _ _ pre_keeps_arg6
theorem Wfin_arg6 (c : Dev nD) : Wfin m c (Proc.devRef .tc main_arg6) = m ((c : Thread nD τ).loc main_arg6) := by
  unfold Wfin
  rw [StableHlo.after_of_forall_not_mem _ _ post_keeps_arg6, Wmid_of_ne m c main_arg6 (by decide) (by decide) (by decide)]
  exact V_arg6 m c

theorem mem_rest_arg0 : main_arg0 ∈ restRefsP sig Prefetch.none spec0 := by decide
theorem mem_rest_arg1 : main_arg1 ∈ restRefsP sig Prefetch.none spec0 := by decide
theorem mem_rest_arg6 : main_arg6 ∈ restRefsP sig Prefetch.none spec0 := by decide

/-- THE FRAME: the program runs, and its seven argument arrays end as they were — three of them no window's array, read
    off the buffers the region bypasses; four of them input windows' arrays, which the pipeline never writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 mem_rest_arg0).trans (Wfin_arg0 m c),
     ((h c).2 main_arg1 mem_rest_arg1).trans (Wfin_arg1 m c),
     ((h c).1 4).trans (((dats m 0 c).arrAt_in 4 rfl _).trans ((A_eq m c 4).trans (V_arg2 m c))),
     ((h c).1 6).trans (((dats m 0 c).arrAt_in 6 rfl _).trans ((A_eq m c 6).trans (V_arg3 m c))),
     ((h c).1 5).trans (((dats m 0 c).arrAt_in 5 rfl _).trans ((A_eq m c 5).trans (V_arg4 m c))),
     ((h c).1 7).trans (((dats m 0 c).arrAt_in 7 rfl _).trans ((A_eq m c 7).trans (V_arg5 m c))),
     ((h c).2 main_arg6 mem_rest_arg6).trans (Wfin_arg6 m c)⟩) (run_main m ρ)

end Cert.Kernel.Hand

end
-- ==== Proof.KRunA.lean ====
/-
  The kernel body run at the first grid point, where the row norms are computed into the scratch row and the three
  scalar accumulators are initialised; and the three branch conditions of the body decided over the grid.
-/
import proofs.«122987_g56341380989036_cont_9to1_m_1285_19_alg».proof.Proof.Gen.KernelIdeal.Launch
import proofs.«122987_g56341380989036_cont_9to1_m_1285_19_alg».proof.Proof.Gen.KernelIdeal.Skeleton
import proofs.«122987_g56341380989036_cont_9to1_m_1285_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (the row norms are computed and kept) is taken exactly when the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The accumulators are initialised at the first grid point, -/
abbrev cond0_1 (i : grid0.Coords) : Prop := k0_cond2 i = 1#1
theorem hcond0_1 : ∀ t : Fin cfg0.N, cond0_1 (grid0.coords t) ↔ t.val % 8 = 0 :=
  (by decide +kernel : ∀ t : Fin grid0.N, cond0_1 (grid0.coords t) ↔ t.val % 8 = 0)
/-- and added to at every later one. -/
abbrev cond0_2 (i : grid0.Coords) : Prop := k0_cond3 i = 1#1
theorem hcond0_2 : ∀ t : Fin cfg0.N, cond0_2 (grid0.coords t) ↔ ¬ t.val % 8 = 0 :=
  (by decide +kernel : ∀ t : Fin grid0.N, cond0_2 (grid0.coords t) ↔ ¬ t.val % 8 = 0)

set_option maxHeartbeats 4000000 in
/-- The body at the first grid point: the inputs' staging buffers are read and left as they were; the row norms of the
    whole embedding matrix are stored into the scratch row; each of the three scalar accumulators is overwritten with
    this point's partial sum. The pieces written are found by running the body. -/
noncomputable def kernelRun0_A (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i)
    (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) :
    Σ' (L9 : List (View.Piece (Elt F) S1x1 .f32)) (L10 : List (View.Piece (Elt F) S1x1 .f32)) (L11 : List (View.Piece (Elt F) S1x1 .f32)), { LS : List (View.Piece (Elt F) S1x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.KernelIdeal.Hand

end
-- ==== Proof.KRunB.lean ====
/-
  The kernel body run at a grid point after the first, where the kept row norms are read back and the three scalar
  accumulators are added to.
-/
import proofs.«122987_g56341380989036_cont_9to1_m_1285_19_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point: the inputs' staging buffers and the scratch row (the row norms, kept from the first
    point) are read and left as they were; each of the three scalar accumulators, found at what the point before left,
    is overwritten with that plus this point's partial sum. The pieces written are found by running the body. -/
noncomputable def kernelRun0_B (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i)
    (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) :
    Σ' (L9 : List (View.Piece (Elt F) S1x1 .f32)) (L10 : List (View.Piece (Elt F) S1x1 .f32)), { L11 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare y9 ∗ owns (c : Thread nD τ) arg10 fullShare y10 ∗ owns (c : Thread nD τ) arg11 fullShare y11 ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ owns (c : Thread nD τ) arg12 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; isplitr; · ipureintro; exact harg12.read_unread _
    iexact H12

end Cert.KernelIdeal.Hand

end
-- ==== Proof.KShared.lean ====
/-
  What the two runs of the kernel body share when they are placed on the grid: the buffer contents at the region's
  entry, the blocks the windows stage, the staging memrefs at a grid point, the scratch row.
-/
import proofs.«122987_g56341380989036_cont_9to1_m_1285_19_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents when the region is entered: the host lines before it have run. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Where the output windows are live, and the staging memrefs -/

theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
/-- The scratch row: a whole scoped buffer of the kernel's own. -/
abbrev scM0_0 : Memref sig .tc .vmem S1x2048 .f32 := Memref.whole cc0_scratch0
abbrev VS0_0 : View sig .tc .vmem S1x2048 .f32 := scM0_0.view
abbrev VO0_8 : View sig .tc .vmem S1x1 .f32 := (Memref.whole cc0_stg8_0 : Memref sig .tc .vmem S1x1 .f32).view
abbrev VO0_9 : View sig .tc .vmem S1x1 .f32 := (Memref.whole cc0_stg9_0 : Memref sig .tc .vmem S1x1 .f32).view
abbrev VO0_10 : View sig .tc .vmem S1x1 .f32 := (Memref.whole cc0_stg10_0 : Memref sig .tc .vmem S1x1 .f32).view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KDat.lean ====
/-
  The kernel's proof data on the grid: what the three scalar accumulators and the scratch row of row norms hold after
  each grid point, and the body's obligation at every point from the two runs of the body.
-/
import proofs.«122987_g56341380989036_cont_9to1_m_1285_19_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators and in the scratch row -/

theorem cover0_A_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).1 S1x1.size (by sl_kernel_rfl) y
def out0_A_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).1)

theorem cover0_A_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.1 S1x1.size (by sl_kernel_rfl) y
def out0_A_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.1)

theorem cover0_A_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.1 S1x1.size (by sl_kernel_rfl) y
def out0_A_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x1 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.1)

theorem scover0_A (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (y : S1x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.2.1 S1x2048.size (by sl_kernel_rfl) y
def sout0_A (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) : Vec F S1x2048 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8).2.2.2.1)

theorem cover0_B_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).1 S1x1.size (by sl_kernel_rfl) y
def out0_B_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).1)

theorem cover0_B_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.1 S1x1.size (by sl_kernel_rfl) y
def out0_B_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.1)

theorem cover0_B_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.2.1 S1x1.size (by sl_kernel_rfl) y
def out0_B_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) : Vec F S1x1 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11).2.2.1)

theorem liveAll0_8 : ∀ i : grid0.Coords, cfg0.idle 8 i = false := by decide +kernel
theorem liveAll0_9 : ∀ i : grid0.Coords, cfg0.idle 9 i = false := by decide +kernel
theorem liveAll0_10 : ∀ i : grid0.Coords, cfg0.idle 10 i = false := by decide +kernel

theorem succ_mod_ne (n : ℕ) (hn : n + 1 < cfg0.N) : ¬ (n + 1) % 8 = 0 := by
  have : n + 1 < 8 := lt_of_lt_of_eq hn (show cfg0.N = 8 from N_0); omega

/-- THE ACCUMULATION: what the three accumulators' staging buffers and the scratch row hold after the body at
    position `n` — at the first point what the initialising case leaves, at a later point what the adding case leaves
    over what the point before left; the scratch row keeps the row norms of the first point. -/
def outsAt0 (c : Dev nD) : (n : ℕ) → n < cfg0.N → Vec F S1x1 .f32 × Vec F S1x1 .f32 × Vec F S1x1 .f32 × Vec F S1x2048 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (Nat.zero_mod _)) (fun h' => ((hcond0_2 ⟨0, hn⟩).mp h') (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn => (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h' => (succ_mod_ne n hn) ((hcond0_0 ⟨n + 1, hn⟩).mp h')) (fun h' => (succ_mod_ne n hn) ((hcond0_1 ⟨n + 1, hn⟩).mp h')) ((hcond0_2 ⟨n + 1, hn⟩).mpr (succ_mod_ne n hn)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1 (outsAt0 c n (Nat.lt_of_succ_lt hn)).2.1 (outsAt0 c n (Nat.lt_of_succ_lt hn)).2.2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h' => (succ_mod_ne n hn) ((hcond0_0 ⟨n + 1, hn⟩).mp h')) (fun h' => (succ_mod_ne n hn) ((hcond0_1 ⟨n + 1, hn⟩).mp h')) ((hcond0_2 ⟨n + 1, hn⟩).mpr (succ_mod_ne n hn)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1 (outsAt0 c n (Nat.lt_of_succ_lt hn)).2.1 (outsAt0 c n (Nat.lt_of_succ_lt hn)).2.2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h' => (succ_mod_ne n hn) ((hcond0_0 ⟨n + 1, hn⟩).mp h')) (fun h' => (succ_mod_ne n hn) ((hcond0_1 ⟨n + 1, hn⟩).mp h')) ((hcond0_2 ⟨n + 1, hn⟩).mpr (succ_mod_ne n hn)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2 (outsAt0 c n (Nat.lt_of_succ_lt hn)).1 (outsAt0 c n (Nat.lt_of_succ_lt hn)).2.1 (outsAt0 c n (Nat.lt_of_succ_lt hn)).2.2.1, (outsAt0 c n (Nat.lt_of_succ_lt hn)).2.2.2)

theorem outsAt0_A (c : Dev nD) (t : Fin cfg0.N) (h0 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact absurd h0 (succ_mod_ne n hn)

theorem outsAt0_B (c : Dev nD) (t : Fin cfg0.N) (h0 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact absurd (Nat.zero_mod _) h0
  | succ n => exact rfl

/-- The region invariant before position `n`: before the first point the scratch row at anything; afterwards at the row
    norms the first point stored; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block, the
    accumulators' at the accumulation; the embedding matrix and the label row are each handed to two windows, which hold
    half of them each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8_B (c : Dev nD) (t : Fin cfg0.N) (h0 : ¬t.val % 8 = 0) (d) :
    (dats m 0 c).before 8 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    liveAll0_8 (fun _ _ => rfl)]
  dsimp only [dats]
theorem before0_9_B (c : Dev nD) (t : Fin cfg0.N) (h0 : ¬t.val % 8 = 0) (d) :
    (dats m 0 c).before 9 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    liveAll0_9 (fun _ _ => rfl)]
  dsimp only [dats]
theorem before0_10_B (c : Dev nD) (t : Fin cfg0.N) (h0 : ¬t.val % 8 = 0) (d) :
    (dats m 0 c).before 10 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    liveAll0_10 (fun _ _ => rfl)]
  dsimp only [dats]
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any grid point: the inputs' memrefs hold their blocks; at the first point the initialising run applies, the
    scratch row handed over at anything and taken back at the row norms; at a later point the adding run applies, the
    accumulators found at what the point before left and the scratch row at the first point's row norms. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  have hN : t.val < 8 := lt_of_lt_of_eq t.isLt (show cfg0.N = 8 from N_0)
  by_cases h0 : t.val % 8 = 0
  · have hz : t.val = 0 := by omega
    rw [outsAt0_A m c t h0]
    unfold out0_A_8 out0_A_9 out0_A_10 sout0_A; (try dsimp only)
    rw [PhiS_castSucc m c t, PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ ((hcond0_0 t).mpr h0) ((hcond0_1 t).mpr h0) (fun h' => ((hcond0_2 t).mp h') h0) (iblk m c 0 t) (iblk m c 1 t) (iblk m c 2 t) (iblk m c 3 t) (iblk m c 4 t) (iblk m c 5 t) (iblk m c 6 t) (iblk m c 7 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, ⟨%es, HS⟩⟩
    isplitl [HS Hg]
    · isplitl [HS]
      · unfold owns; iexists _; isplitr
        swap; · iexact HS
        ipureintro; exact View.read_writes_of_cover _ _ _ _ _ (scover0_A c _ _ _ _ _ _ _ _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ )
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ )
  · have hz : t.val ≠ 0 := fun h => h0 (by rw [h])
    simp only [before0_8_B m c t h0, before0_9_B m c t h0, before0_10_B m c t h0]
    rw [outsAt0_B m c t h0]
    unfold out0_B_8 out0_B_9 out0_B_10; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ (fun h' => h0 ((hcond0_0 t).mp h')) (fun h' => h0 ((hcond0_1 t).mp h')) ((hcond0_2 t).mpr h0) (iblk m c 0 t) (iblk m c 1 t) (iblk m c 2 t) (iblk m c 3 t) (iblk m c 4 t) (iblk m c 5 t) (iblk m c 6 t) (iblk m c 7 t) _ _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ )
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨HS0, Hg⟩
  isplitl [HS0]
  · iexists _; iexact HS0
  iexact Hg

end Cert.KernelIdeal.Hand

end
-- ==== Proof.KPieces.lean ====
/-
  What the two runs of the body leave, as values: the found pieces read back are the body's named arithmetic of the
  buffers' contents.
-/
import proofs.«122987_g56341380989036_cont_9to1_m_1285_19_alg».proof.Proof.KDat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The part of the scratch row of row norms that belongs to the grid point's own rows. -/
def ownRows (i : grid0.Coords) (xs : Vec F S1x2048 .f32) : Vec F S1x256 .f32 :=
  View.ld xs (Rect.unit (s := S1x2048) (k0_off1 i) S1x256.size (k0_off1_inb i))

/-! ## What the adding case leaves -/

theorem out_B_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) :
    out0_B_8 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11 = k0_pay7 (k0_pay12 x1 x2 xs (ownRows i xs) x3 x4) y9 := by
  unfold out0_B_8 ownRows
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11)]
  unfold kernelRun0_B
  dsimp only
  sl_unfold_words
  rw [View.canon_unit_zero hz]
  simp only [View.readAt_eq_ld, harg1.read_unread, harg2.read_unread, harg3.read_unread, harg4.read_unread, harg9.read_unread, harg12.read_unread, View.ld_unit_zero (S := S256x512) hz, View.ld_unit_zero (S := S2048x512) hz, View.ld_unit_zero (S := S1x2048) hz, View.ld_unit_zero (S := S1x256) hz, View.ld_unit_zero (S := S1x1) hz, View.ld_unit_zero (S := S128x512) hz]

theorem out_B_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) :
    out0_B_9 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11 = k0_pay8 x5 x6 y10 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11)]
  unfold kernelRun0_B
  dsimp only
  rw [View.canon_unit_zero hz]
  simp only [View.readAt_eq_ld, harg5.read_unread, harg6.read_unread, harg10.read_unread, View.ld_unit_zero (S := S256x512) hz, View.ld_unit_zero (S := S2048x512) hz, View.ld_unit_zero (S := S1x2048) hz, View.ld_unit_zero (S := S1x256) hz, View.ld_unit_zero (S := S1x1) hz, View.ld_unit_zero (S := S128x512) hz]

theorem out_B_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : ¬cond0_0 i) (hc1 : ¬cond0_1 i) (hc2 : cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) (xs : Vec F S1x2048 .f32) (y9 y10 y11 : Vec F S1x1 .f32) :
    out0_B_10 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11 = k0_pay9 x7 x8 y11 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 xs y9 y10 y11)]
  unfold kernelRun0_B
  dsimp only
  rw [View.canon_unit_zero hz]
  simp only [View.readAt_eq_ld, harg7.read_unread, harg8.read_unread, harg11.read_unread, View.ld_unit_zero (S := S256x512) hz, View.ld_unit_zero (S := S2048x512) hz, View.ld_unit_zero (S := S1x2048) hz, View.ld_unit_zero (S := S1x256) hz, View.ld_unit_zero (S := S1x1) hz, View.ld_unit_zero (S := S128x512) hz]

/-! ## What the initialising case leaves -/

theorem sout_A (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) :
    sout0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 = k0_pay11 x2 := by
  unfold sout0_A
  rw [View.read_writes_eq_canon _ _ _ (scover0_A c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8)]
  unfold kernelRun0_A
  dsimp only
  sl_unfold_words
  rw [View.canon_unit_zero hz]
  simp only [View.readAt_eq_ld, harg2.read_unread, View.ld_unit_zero (S := S256x512) hz, View.ld_unit_zero (S := S2048x512) hz, View.ld_unit_zero (S := S1x2048) hz, View.ld_unit_zero (S := S1x256) hz, View.ld_unit_zero (S := S1x1) hz, View.ld_unit_zero (S := S128x512) hz]

theorem out_A_8 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) :
    out0_A_8 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 = k0_pay4 (k0_pay12 x1 x2 (k0_pay11 x2) (ownRows i (k0_pay11 x2)) x3 x4) := by
  unfold out0_A_8 ownRows
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, View.ld_unit_zero (S := S256x512) hz, View.ld_unit_zero (S := S2048x512) hz, View.ld_unit_zero (S := S1x2048) hz, View.ld_unit_zero (S := S1x256) hz, View.ld_unit_zero (S := S1x1) hz, View.ld_unit_zero (S := S128x512) hz]
  rw [View.readCov_unit_zero (S := S1x2048) _ hz,
    View.read_writes_eq_canon _ _ _ (fun y => ⟨_, List.mem_singleton_self _, View.mem_set_unit_zero hz inb_S1x2048_S1x2048_0_0 y⟩), View.canon_unit_zero hz]

theorem out_A_9 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) :
    out0_A_9 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 = k0_pay5 x5 x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8)]
  unfold kernelRun0_A
  dsimp only
  rw [View.canon_unit_zero hz]
  simp only [View.readAt_eq_ld, harg5.read_unread, harg6.read_unread, View.ld_unit_zero (S := S256x512) hz, View.ld_unit_zero (S := S2048x512) hz, View.ld_unit_zero (S := S1x2048) hz, View.ld_unit_zero (S := S1x256) hz, View.ld_unit_zero (S := S1x1) hz, View.ld_unit_zero (S := S128x512) hz]

theorem out_A_10 (c : Dev nD) (i : grid0.Coords) (arg1 : Memref sig .tc .vmem S256x512 .f32) (harg1 : arg1.IsWhole) (arg2 : Memref sig .tc .vmem S2048x512 .f32) (harg2 : arg2.IsWhole) (arg3 : Memref sig .tc .vmem S1x2048 .i32) (harg3 : arg3.IsWhole) (arg4 : Memref sig .tc .vmem S1x256 .i32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x2048 .f32) (harg12 : arg12.IsWhole) (hc0 : cond0_0 i) (hc1 : cond0_1 i) (hc2 : ¬cond0_2 i) (x1 : Vec F S256x512 .f32) (x2 : Vec F S2048x512 .f32) (x3 : Vec F S1x2048 .i32) (x4 : Vec F S1x256 .i32) (x5 : Vec F S128x512 .f32) (x6 : Vec F S128x512 .f32) (x7 : Vec F S128x512 .f32) (x8 : Vec F S128x512 .f32) :
    out0_A_10 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8 = k0_pay6 x7 x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 hc1 hc2 x1 x2 x3 x4 x5 x6 x7 x8)]
  unfold kernelRun0_A
  dsimp only
  rw [View.canon_unit_zero hz]
  simp only [View.readAt_eq_ld, harg7.read_unread, harg8.read_unread, View.ld_unit_zero (S := S256x512) hz, View.ld_unit_zero (S := S2048x512) hz, View.ld_unit_zero (S := S1x2048) hz, View.ld_unit_zero (S := S1x256) hz, View.ld_unit_zero (S := S1x1) hz, View.ld_unit_zero (S := S128x512) hz]

end Cert.KernelIdeal.Hand

end
-- ==== Proof.KAccum.lean ====
/-
  The accumulation as values: after each grid point the three accumulators hold the body's arithmetic of the point's
  blocks added to what the point before left, and the scratch row the row norms of the embedding matrix.
-/
import proofs.«122987_g56341380989036_cont_9to1_m_1285_19_alg».proof.Proof.KPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The row norms of the whole embedding matrix: what the first grid point stores in the scratch row. -/
def rowNorms (c : Dev nD) : Vec F S1x2048 .f32 := k0_pay11 (iblk m c 1 t0_0)

/-- A grid point's partial pair sum: the body's arithmetic of the point's blocks and the kept row norms. -/
def part8 (c : Dev nD) (t : Fin cfg0.N) : FVec F S1 .f32 :=
  k0_pay12 (iblk m c 0 t) (iblk m c 1 t) (rowNorms m c) (ownRows (grid0.coords t) (rowNorms m c)) (iblk m c 2 t) (iblk m c 3 t)

/-- The scratch row holds the row norms after every grid point. -/
theorem scratch_eq (c : Dev nD) : ∀ (n : ℕ) (hn : n < cfg0.N), (outsAt0 m c n hn).2.2.2 = rowNorms m c
  | 0, hn => by
    refine (congrArg (fun p => p.2.2.2) (outsAt0_A m c ⟨0, hn⟩ (Nat.zero_mod 8))).trans ?_
    dsimp only
    rw [sout_A]
    rfl
  | n + 1, hn => by
    refine (congrArg (fun p => p.2.2.2) (outsAt0_B m c ⟨n + 1, hn⟩ (succ_mod_ne n hn))).trans ?_
    dsimp only
    exact scratch_eq c n (Nat.lt_of_succ_lt hn)

theorem acc8_zero (c : Dev nD) (hn : 0 < cfg0.N) : (outsAt0 m c 0 hn).1 = k0_pay4 (part8 m c ⟨0, hn⟩) := by
  refine (congrArg (fun p => p.1) (outsAt0_A m c ⟨0, hn⟩ (Nat.zero_mod 8))).trans ?_
  dsimp only
  rw [out_A_8]
  rfl
theorem acc9_zero (c : Dev nD) (hn : 0 < cfg0.N) : (outsAt0 m c 0 hn).2.1 = k0_pay5 (iblk m c 4 ⟨0, hn⟩) (iblk m c 5 ⟨0, hn⟩) := by
  refine (congrArg (fun p => p.2.1) (outsAt0_A m c ⟨0, hn⟩ (Nat.zero_mod 8))).trans ?_
  dsimp only
  rw [out_A_9]
theorem acc10_zero (c : Dev nD) (hn : 0 < cfg0.N) : (outsAt0 m c 0 hn).2.2.1 = k0_pay6 (iblk m c 6 ⟨0, hn⟩) (iblk m c 7 ⟨0, hn⟩) := by
  refine (congrArg (fun p => p.2.2.1) (outsAt0_A m c ⟨0, hn⟩ (Nat.zero_mod 8))).trans ?_
  dsimp only
  rw [out_A_10]

theorem acc8_succ (c : Dev nD) (n : ℕ) (hn : n + 1 < cfg0.N) :
    (outsAt0 m c (n + 1) hn).1 = k0_pay7 (part8 m c ⟨n + 1, hn⟩) (outsAt0 m c n (Nat.lt_of_succ_lt hn)).1 := by
  refine (congrArg (fun p => p.1) (outsAt0_B m c ⟨n + 1, hn⟩ (succ_mod_ne n hn))).trans ?_
  dsimp only
  rw [out_B_8, scratch_eq m c]
  rfl
theorem acc9_succ (c : Dev nD) (n : ℕ) (hn : n + 1 < cfg0.N) :
    (outsAt0 m c (n + 1) hn).2.1 = k0_pay8 (iblk m c 4 ⟨n + 1, hn⟩) (iblk m c 5 ⟨n + 1, hn⟩) (outsAt0 m c n (Nat.lt_of_succ_lt hn)).2.1 := by
  refine (congrArg (fun p => p.2.1) (outsAt0_B m c ⟨n + 1, hn⟩ (succ_mod_ne n hn))).trans ?_
  dsimp only
  rw [out_B_9]
  rfl
theorem acc10_succ (c : Dev nD) (n : ℕ) (hn : n + 1 < cfg0.N) :
    (outsAt0 m c (n + 1) hn).2.2.1 = k0_pay9 (iblk m c 6 ⟨n + 1, hn⟩) (iblk m c 7 ⟨n + 1, hn⟩) (outsAt0 m c n (Nat.lt_of_succ_lt hn)).2.2.1 := by
  refine (congrArg (fun p => p.2.2.1) (outsAt0_B m c ⟨n + 1, hn⟩ (succ_mod_ne n hn))).trans ?_
  dsimp only
  rw [out_B_10]
  rfl

end Cert.KernelIdeal.Hand

end
-- ==== Proof.KFinalArr.lean ====
/-
  What the three `[1, 1]` result arrays end holding.

  Each of the three accumulator windows is written back once, after the last of the eight grid points, and its block
  is the whole `[1, 1]` array; so each array ends holding what its staging buffer holds after grid point 7.
-/
import proofs.«122987_g56341380989036_cont_9to1_m_1285_19_alg».proof.Proof.KDat
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Grid point 7 is the last of the eight. -/
theorem h7 : 7 < cfg0.N := by rw [show cfg0.N = 8 from N_0]; decide

/-- What result array main_v7_0 is shown to end holding: the first accumulator's staging contents after the last grid point. -/
abbrev result8 (c : Dev nD) : Buf (Elt F) ((c : Thread nD τ).loc main_v7_0) := (outsAt0 m c 7 h7).1

/-- The one write-back of window 8, at the last grid point, writes it: block (0, 0) of the `[1, 1]` array read through
zero offsets is the array. -/
theorem flushed_eq8 (c : Dev nD) (t : Fin cfg0.N) (hf : (cfg0.win 8).flush t = true) :
    (dats m 0 c).flushed 8 t = ((cfg0.win 8).blk t).view.read (Elt F) (result8 m c) := by
  have hN : cfg0.N = 8 := N_0
  have h : t.val = 7 := by have := (flush0_8 t).mp hf; have := t.isLt; omega
  obtain rfl : t = t0_7 := Fin.ext h
  show (cfg0.win 8).cut (grid0.coords t0_7) ((dats m 0 c).after 8 t0_7) = _
  rw [after0_8]
  have hz' : (fun a => win0_8.index t0_7 a * main_v7_0.ty.shape.size a) = fun _ => 0 :=
    funext fun a => by fin_cases a <;> decide
  exact (Memref.read_access_unit_zero (Elt F) main_v7_0 hz' (fun a => by rw [congrFun hz' a]; simp) (result8 m c)).symm

/-- So result array main_v7_0 ends holding it: the last grid point's block is the whole array. -/
theorem final8 (c : Dev nD) : (dats m 0 c).arrAt 8 cfg0.N = result8 m c :=
  (dats m 0 c).arrAt_eq_of_cover 8 (result8 m c) (flushed_eq8 m c) fun i =>
    ⟨t0_7, (flush0_8 t0_7).mpr rfl, by
      show i ∈ ((View.whole main_v7_0).slice (win0_8.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_8.index t0_7 0 * win0_8.size 0 ≤ (i 0 : Nat)
          ∧ (i 0 : Nat) < win0_8.index t0_7 0 * win0_8.size 0 + win0_8.xsize (grid0.coords t0_7) 0
        rw [show win0_8.index t0_7 0 * win0_8.size 0 = 0 from by decide +kernel,
          show win0_8.xsize (grid0.coords t0_7) 0 = 1 from by decide +kernel]
        omega
      | ⟨1, _⟩ =>
        show win0_8.index t0_7 1 * win0_8.size 1 ≤ (i 1 : Nat)
          ∧ (i 1 : Nat) < win0_8.index t0_7 1 * win0_8.size 1 + win0_8.xsize (grid0.coords t0_7) 1
        rw [show win0_8.index t0_7 1 * win0_8.size 1 = 0 from by decide +kernel,
          show win0_8.xsize (grid0.coords t0_7) 1 = 1 from by decide +kernel]
        omega⟩

/-- What result array main_v7_1 is shown to end holding: the second accumulator's staging contents after the last grid point. -/
abbrev result9 (c : Dev nD) : Buf (Elt F) ((c : Thread nD τ).loc main_v7_1) := (outsAt0 m c 7 h7).2.1

/-- The one write-back of window 9, at the last grid point, writes it: block (0, 0) of the `[1, 1]` array read through
zero offsets is the array. -/
theorem flushed_eq9 (c : Dev nD) (t : Fin cfg0.N) (hf : (cfg0.win 9).flush t = true) :
    (dats m 0 c).flushed 9 t = ((cfg0.win 9).blk t).view.read (Elt F) (result9 m c) := by
  have hN : cfg0.N = 8 := N_0
  have h : t.val = 7 := by have := (flush0_9 t).mp hf; have := t.isLt; omega
  obtain rfl : t = t0_7 := Fin.ext h
  show (cfg0.win 9).cut (grid0.coords t0_7) ((dats m 0 c).after 9 t0_7) = _
  rw [after0_9]
  have hz' : (fun a => win0_9.index t0_7 a * main_v7_1.ty.shape.size a) = fun _ => 0 :=
    funext fun a => by fin_cases a <;> decide
  exact (Memref.read_access_unit_zero (Elt F) main_v7_1 hz' (fun a => by rw [congrFun hz' a]; simp) (result9 m c)).symm

/-- So result array main_v7_1 ends holding it: the last grid point's block is the whole array. -/
theorem final9 (c : Dev nD) : (dats m 0 c).arrAt 9 cfg0.N = result9 m c :=
  (dats m 0 c).arrAt_eq_of_cover 9 (result9 m c) (flushed_eq9 m c) fun i =>
    ⟨t0_7, (flush0_9 t0_7).mpr rfl, by
      show i ∈ ((View.whole main_v7_1).slice (win0_9.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_9.index t0_7 0 * win0_9.size 0 ≤ (i 0 : Nat)
          ∧ (i 0 : Nat) < win0_9.index t0_7 0 * win0_9.size 0 + win0_9.xsize (grid0.coords t0_7) 0
        rw [show win0_9.index t0_7 0 * win0_9.size 0 = 0 from by decide +kernel,
          show win0_9.xsize (grid0.coords t0_7) 0 = 1 from by decide +kernel]
        omega
      | ⟨1, _⟩ =>
        show win0_9.index t0_7 1 * win0_9.size 1 ≤ (i 1 : Nat)
          ∧ (i 1 : Nat) < win0_9.index t0_7 1 * win0_9.size 1 + win0_9.xsize (grid0.coords t0_7) 1
        rw [show win0_9.index t0_7 1 * win0_9.size 1 = 0 from by decide +kernel,
          show win0_9.xsize (grid0.coords t0_7) 1 = 1 from by decide +kernel]
        omega⟩

/-- What result array main_v7_2 is shown to end holding: the third accumulator's staging contents after the last grid point. -/
abbrev result10 (c : Dev nD) : Buf (Elt F) ((c : Thread nD τ).loc main_v7_2) := (outsAt0 m c 7 h7).2.2.1

/-- The one write-back of window 10, at the last grid point, writes it: block (0, 0) of the `[1, 1]` array read through
zero offsets is the array. -/
theorem flushed_eq10 (c : Dev nD) (t : Fin cfg0.N) (hf : (cfg0.win 10).flush t = true) :
    (dats m 0 c).flushed 10 t = ((cfg0.win 10).blk t).view.read (Elt F) (result10 m c) := by
  have hN : cfg0.N = 8 := N_0
  have h : t.val = 7 := by have := (flush0_10 t).mp hf; have := t.isLt; omega
  obtain rfl : t = t0_7 := Fin.ext h
  show (cfg0.win 10).cut (grid0.coords t0_7) ((dats m 0 c).after 10 t0_7) = _
  rw [after0_10]
  have hz' : (fun a => win0_10.index t0_7 a * main_v7_2.ty.shape.size a) = fun _ => 0 :=
    funext fun a => by fin_cases a <;> decide
  exact (Memref.read_access_unit_zero (Elt F) main_v7_2 hz' (fun a => by rw [congrFun hz' a]; simp) (result10 m c)).symm

/-- So result array main_v7_2 ends holding it: the last grid point's block is the whole array. -/
theorem final10 (c : Dev nD) : (dats m 0 c).arrAt 10 cfg0.N = result10 m c :=
  (dats m 0 c).arrAt_eq_of_cover 10 (result10 m c) (flushed_eq10 m c) fun i =>
    ⟨t0_7, (flush0_10 t0_7).mpr rfl, by
      show i ∈ ((View.whole main_v7_2).slice (win0_10.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_10.index t0_7 0 * win0_10.size 0 ≤ (i 0 : Nat)
          ∧ (i 0 : Nat) < win0_10.index t0_7 0 * win0_10.size 0 + win0_10.xsize (grid0.coords t0_7) 0
        rw [show win0_10.index t0_7 0 * win0_10.size 0 = 0 from by decide +kernel,
          show win0_10.xsize (grid0.coords t0_7) 0 = 1 from by decide +kernel]
        omega
      | ⟨1, _⟩ =>
        show win0_10.index t0_7 1 * win0_10.size 1 ≤ (i 1 : Nat)
          ∧ (i 1 : Nat) < win0_10.index t0_7 1 * win0_10.size 1 + win0_10.xsize (grid0.coords t0_7) 1
        rw [show win0_10.index t0_7 1 * win0_10.size 1 = 0 from by decide +kernel,
          show win0_10.xsize (grid0.coords t0_7) 1 = 1 from by decide +kernel]
        omega⟩

end Cert.KernelIdeal.Hand

end
-- ==== Proof.KOwnRows.lean ====
/-
  The grid point's own rows of the row of squared norms, read at an index.

  Grid point `t` of the eight loads the 256 entries of the `[1, 2048]` row that start at column `256 t`: a unit-stride
  window, whose entry `(0, p)` is the row's entry `(0, 256 t + p)`.
-/
import proofs.«122987_g56341380989036_cont_9to1_m_1285_19_alg».proof.Proof.KPieces
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]

/-- The grid has eight points. -/
theorem lt8 (t : Fin cfg0.N) : t.val < 8 := t.isLt

/-- Row `p` of block `t` is one of the 2048 rows. -/
theorem row_lt (t : Fin cfg0.N) (p : Fin 256) : 256 * t.val + p.val < 2048 := by
  have h1 := lt8 t
  have h2 := p.isLt
  omega

/-- The offsets at which grid point `t` reads its own rows' entries of the row of squared norms: column `256 t`
(the 32-bit product of the step number and 256 never wraps on a grid of eight points). -/
theorem off_at : ∀ t : Fin grid0.N, k0_off1 (grid0.coords t) = ![0, 256 * t.val] := by decide +kernel

/-- The part of the row of squared norms that belongs to grid point `t`'s own rows reads, at `(0, p)`, the row's entry
`256 t + p`. -/
theorem ownRows_apply (t : Fin cfg0.N) (xs : Vec F S1x2048 .f32) (p : Fin 256) :
    ownRows (grid0.coords t) xs (ix2 (0 : Fin 1) p)
      = xs (ix2 (0 : Fin 1) (⟨256 * t.val + p.val, row_lt t p⟩ : Fin 2048)) := by
  unfold ownRows
  show xs ((Rect.unit (s := S1x2048) (k0_off1 (grid0.coords t)) S1x256.size
    (k0_off1_inb (grid0.coords t))).idx (ix2 (0 : Fin 1) p)) = _
  refine congrArg xs (funext fun a => Fin.ext ?_)
  have hoff := off_at t
  match a with
  | ⟨0, _⟩ =>
    show k0_off1 (grid0.coords t) 0 + 1 * 0 = 0
    rw [hoff]; rfl
  | ⟨1, _⟩ =>
    show k0_off1 (grid0.coords t) 1 + 1 * p.val = 256 * t.val + p.val
    rw [hoff]
    show 256 * t.val + 1 * p.val = 256 * t.val + p.val
    omega

end Cert.KernelIdeal.Hand

end
-- ==== Proof.KPayloads.lean ====
/-
  The kernel body's arithmetic read at an index, at the exact (extended-real) instance.

  Each payload of the body is a chain of pointwise operations, layout operations (identity casts, a cast that adds a
  unit axis, a transpose of a row to a column, broadcasts of a row or a column over a matrix), sums over one axis or
  over a whole block, and one matrix product.  Read at an index, the pointwise operations are the extended reals' own,
  each layout operation reads its operand at one index, a sum over an axis is a `Fin`-indexed sum and the matrix
  product is the sum over the contracted axis of the products.
-/
import proofs.«122987_g56341380989036_cont_9to1_m_1285_19_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Affine

noncomputable section

namespace Cert.KernelIdeal.Payloads

open Cert.KernelIdeal Cert.KernelIdeal.Gen Idealize.ShloMosaic Idealize.ShloMosaic.TcCoe Idealize.SL.Sem
  Idealize.ShloMosaic.ValueIdx

/-! ## Index sets with unit axes -/

/-- The one-element shape `[1]` has exactly one index. -/
theorem idx_S1_eq (k k' : S1.Idx) : k = k' := funext fun a => match a with
  | ⟨0, h0⟩ => Fin.ext (by
      have h1 : (k ⟨0, h0⟩).val < 1 := (k ⟨0, h0⟩).isLt
      have h2 : (k' ⟨0, h0⟩).val < 1 := (k' ⟨0, h0⟩).isLt
      omega)

/-- The index set of a `[1, a, b]` array is that of the `[a, b]` array of its last two coordinates. -/
def idxEquiv1ab {a b : ℕ} : (⟨3, ![1, a, b]⟩ : Shape).Idx ≃ (⟨2, ![a, b]⟩ : Shape).Idx where
  toFun i := ix2 (i 1) (i 2)
  invFun j := ix3 (0 : Fin 1) (j 0) (j 1)
  left_inv i := funext fun c => match c with
    | ⟨0, h0⟩ => Fin.ext (by
        have h1 : (i ⟨0, h0⟩).val < 1 := (i ⟨0, h0⟩).isLt
        show 0 = (i ⟨0, h0⟩).val
        omega)
    | ⟨1, _⟩ => rfl
    | ⟨2, _⟩ => rfl
  right_inv j := (eq_ix2 j).symm

/-- A sum over the indices of a `[1, a, b]` array is the sum over the indices of the `[a, b]` array. -/
theorem sum_idx_1ab {M : Type*} [AddCommMonoid M] {a b : ℕ} (f : (⟨3, ![1, a, b]⟩ : Shape).Idx → M) :
    ∑ i, f i = ∑ j : (⟨2, ![a, b]⟩ : Shape).Idx, f (ix3 (0 : Fin 1) (j 0) (j 1)) :=
  (Equiv.sum_comp (idxEquiv1ab (a := a) (b := b)).symm f).symm

/-- The element of a `[1]` vector viewed as `[1, 1, 1]` and extracted at `(0, 0, 0)` is the vector's one entry. -/
theorem extract_cast_S1 {α : Type} (v : S1.Idx → α) (h : S1.ShapeCasts S1x1x1)
    (hp : ∀ a, (![0, 0, 0] : Fin 3 → Nat) a < S1x1x1.size a) :
    extractAt ![0, 0, 0] (shapeCast S1x1x1 v h) hp = v (ix1 0) := by
  unfold extractAt shapeCast
  exact congrArg v (idx_S1_eq _ _)

/-! ## The sums of squared differences -/

/-- The sum over a whole `[128, 512]` block of the squared differences of two blocks. -/
theorem pay2_eq (x5 x6 : Vec Ideal S128x512 .f32) :
    k0_pay2 (F := Ideal) x5 x6 = ∑ j : S128x512.Idx, (x5 j - x6 j) * (x5 j - x6 j) := by
  unfold k0_pay2
  refine (extract_cast_S1 _ _ _).trans ?_
  refine (Ideal.multiReduction_add_total _ _ _ (fun b => match b with | ⟨0, _⟩ => rfl) _ _ _).trans ?_
  refine (sum_idx_1ab _).trans ?_
  refine Finset.sum_congr rfl fun j _ => ?_
  refine (shapeCast_ab_1ab_apply _ _ (0 : Fin 1) (j 0) (j 1)).trans ?_
  rw [← eq_ix2 j]
  rfl

theorem pay3_eq (x7 x8 : Vec Ideal S128x512 .f32) :
    k0_pay3 (F := Ideal) x7 x8 = ∑ j : S128x512.Idx, (x7 j - x8 j) * (x7 j - x8 j) := by
  unfold k0_pay3
  refine (extract_cast_S1 _ _ _).trans ?_
  refine (Ideal.multiReduction_add_total _ _ _ (fun b => match b with | ⟨0, _⟩ => rfl) _ _ _).trans ?_
  refine (sum_idx_1ab _).trans ?_
  refine Finset.sum_congr rfl fun j _ => ?_
  refine (shapeCast_ab_1ab_apply _ _ (0 : Fin 1) (j 0) (j 1)).trans ?_
  rw [← eq_ix2 j]
  rfl

/-- The stored `[1, 1]` value on the first grid step: the block's sum itself. -/
theorem pay5_eq (x5 x6 : Vec Ideal S128x512 .f32) (i : S1x1.Idx) :
    k0_pay5 (F := Ideal) x5 x6 i = k0_pay2 (F := Ideal) x5 x6 := rfl

theorem pay6_eq (x7 x8 : Vec Ideal S128x512 .f32) (i : S1x1.Idx) :
    k0_pay6 (F := Ideal) x7 x8 i = k0_pay3 (F := Ideal) x7 x8 := rfl

/-- The stored `[1, 1]` value on a later grid step: what was loaded plus the block's sum. -/
theorem pay8_eq (x5 x6 : Vec Ideal S128x512 .f32) (y : Vec Ideal S1x1 .f32) (i : S1x1.Idx) :
    k0_pay8 (F := Ideal) x5 x6 y i = y i + k0_pay2 (F := Ideal) x5 x6 := by
  unfold k0_pay8
  show shapeCast S1x1 y shapeCasts_S1x1_S1x1 i + k0_pay2 (F := Ideal) x5 x6 = _
  rw [shapeCast_self]

theorem pay9_eq (x7 x8 : Vec Ideal S128x512 .f32) (y : Vec Ideal S1x1 .f32) (i : S1x1.Idx) :
    k0_pay9 (F := Ideal) x7 x8 y i = y i + k0_pay3 (F := Ideal) x7 x8 := by
  unfold k0_pay9
  show shapeCast S1x1 y shapeCasts_S1x1_S1x1 i + k0_pay3 (F := Ideal) x7 x8 = _
  rw [shapeCast_self]

/-! ## The carried pair sum read out -/

theorem pay1_eq (v37 : FVec Ideal S1 .f32) : k0_pay1 (F := Ideal) v37 = v37 (ix1 0) := by
  unfold k0_pay1
  exact extract_cast_S1 _ _ _

theorem pay4_eq (v37 : FVec Ideal S1 .f32) (i : S1x1.Idx) : k0_pay4 (F := Ideal) v37 i = v37 (ix1 0) := by
  show k0_pay1 (F := Ideal) v37 = _
  exact pay1_eq v37

theorem pay7_eq (v37 : FVec Ideal S1 .f32) (y : Vec Ideal S1x1 .f32) (i : S1x1.Idx) :
    k0_pay7 (F := Ideal) v37 y i = y i + v37 (ix1 0) := by
  unfold k0_pay7
  show shapeCast S1x1 y shapeCasts_S1x1_S1x1 i + k0_pay1 (F := Ideal) v37 = _
  rw [shapeCast_self, pay1_eq]

/-! ## The row sums of squares, as a row -/

/-- A `[2048]` vector viewed as a `[2048, 1]` column reads, at `(r, 0)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum of squares of row `r` of a `[2048, 512]` matrix, laid out as entry `(0, r)` of a `[1, 2048]` row. -/
theorem pay11_eq (x2 : Vec Ideal S2048x512 .f32) (r : Fin 2048) :
    k0_pay11 (F := Ideal) x2 (ix2 (0 : Fin 1) r) = ∑ k : Fin 512, x2 (ix2 r k) * x2 (ix2 r k) := by
  unfold k0_pay11 k0_pay10
  rw [shapeCast_self, shapeCast_self]
  refine (transpose_ix2_apply _ _ (0 : Fin 1) r).trans ?_
  refine (shapeCast_a_a1_apply _ _ r (0 : Fin 1)).trans ?_
  refine (Ideal.multiReduction_add_single _ _ _ _ _ (ix1 r)).trans ?_
  refine Finset.sum_congr rfl fun k _ => ?_
  have e : reduces_S2048x512_S2048.lift (ix1 r) k = ix2 r k :=
    funext fun a => Fin.ext (by match a with | ⟨0, _⟩ => rfl | ⟨1, _⟩ => rfl)
  rw [e]
  rfl

/-! ## The pair sum of one block of 256 rows against all 2048 rows -/

/-- A `[1, a]` row turned into an `[a, 1]` column and broadcast over the columns of an `[a, b]` matrix reads, at
`(p, c)`, the row's entry `p`. -/
theorem col_bcast_apply {α : Type} {a b : ℕ} (v : (⟨2, ![1, a]⟩ : Shape).Idx → α)
    (ht : (⟨2, ![1, a]⟩ : Shape).Transposes [1, 0] ⟨2, ![a, 1]⟩)
    (hb : (⟨2, ![a, 1]⟩ : Shape).Broadcasts ⟨2, ![a, b]⟩) (p : Fin a) (c : Fin b) :
    broadcastTo ⟨2, ![a, b]⟩ (transpose ⟨2, ![a, 1]⟩ [1, 0] v ht) hb (ix2 p c) = v (ix2 (0 : Fin 1) p) := by
  refine (broadcastTo_apply _ hb (ix2 p c) (ix2 p (0 : Fin 1)) fun ax => ?_).trans ?_
  · match ax with
    | ⟨0, _⟩ =>
      show p.val = if a = 1 then 0 else p.val
      split
      · have := p.isLt; omega
      · rfl
    | ⟨1, _⟩ => rfl
  · exact transpose_ix2_apply v ht p (0 : Fin 1)

/-- The left operand's index of the matrix product keeps the output's row. -/
theorem mm_lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide),
    dif_pos (show (0 : Fin S256x512.rank) ∈ dot_S256x512_S2048x512_S256x2048_1_1_0_0_n_n.lhsNonContracting by decide)]
  rfl

/-- The right operand's index of the matrix product takes the output's column as its row. -/
theorem mm_rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide),
    dif_pos (show (0 : Fin S2048x512.rank) ∈ dot_S256x512_S2048x512_S256x2048_1_1_0_0_n_n.rhsNonContracting by decide)]
  rfl

/-- The matrix product of a `[256, 512]` block with the transpose of a `[2048, 512]` matrix, into zeros, read at
`(p, j)`: the inner product of row `p` of the first with row `j` of the second. -/
theorem matmul_rows_apply (x1 : FVec Ideal S256x512 .f32) (x2 : FVec Ideal S2048x512 .f32) (p : Fin 256) (j : Fin 2048) :
    matmul (F := Ideal) dot_S256x512_S2048x512_S256x2048_1_1_0_0_n_n none x1 x2 (constant (F := Ideal) S256x2048 .f32 0x00000000#32) (ix2 p j)
      = ∑ k : Fin 512, x1 (ix2 p k) * x2 (ix2 j k) := by
  simp only [matmul]
  rw [Ideal.matmul_constant_zero_apply,
    ← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 p j) ((contrEquiv1 dot_S256x512_S2048x512_S256x2048_1_1_0_0_n_n 512 rfl rfl).symm k) = ix2 p k :=
    funext fun a => Fin.ext (by
      match a with
      | ⟨0, _⟩ => exact mm_lhs_0 _ _
      | ⟨1, _⟩ => exact (dot_S256x512_S2048x512_S256x2048_1_1_0_0_n_n.lhsIdx_val_of_single rfl _ _).trans hk)
  have er : dot_S256x512_S2048x512_S256x2048_1_1_0_0_n_n.rhsIdx (ix2 p j) ((contrEquiv1 dot_S256x512_S2048x512_S256x2048_1_1_0_0_n_n 512 rfl rfl).symm k) = ix2 j k :=
    funext fun a => Fin.ext (by
      match a with
      | ⟨0, _⟩ => exact mm_rhs_0 _ _
      | ⟨1, _⟩ => exact (dot_S256x512_S2048x512_S256x2048_1_1_0_0_n_n.rhsIdx_val_of_single rfl _ _).trans hk)
  rw [el, er]

/-- The clamped squared distance of row `p` of the block and row `j` of the matrix, from the two rows' stored
squared norms and their inner product (the factor is the f32 word of 2). -/
def Dk (x1 : Vec Ideal S256x512 .f32) (x2 : Vec Ideal S2048x512 .f32) (v8 : Vec Ideal S1x2048 .f32)
    (v11 : Vec Ideal S1x256 .f32) (p : Fin 256) (j : Fin 2048) : EReal :=
  max (v11 (ix2 (0 : Fin 1) p) + v8 (ix2 (0 : Fin 1) j)
    - Ideal.ofBits .f32 0x40000000#32 * ∑ k : Fin 512, x1 (ix2 p k) * x2 (ix2 j k)) 0

/-- The margin term of the pair: one (the f32 word of 1) less the distance, clamped below at zero. -/
def Hk (x1 : Vec Ideal S256x512 .f32) (x2 : Vec Ideal S2048x512 .f32) (v8 : Vec Ideal S1x2048 .f32)
    (v11 : Vec Ideal S1x256 .f32) (p : Fin 256) (j : Fin 2048) : EReal :=
  max (Ideal.ofBits .f32 0x3F800000#32 - Ideal.sqrt (Dk x1 x2 v8 v11 p j)) 0

/-- A square root read at an index is the square root of the entry. -/
theorem sqrt_apply {s : Shape} {φ : FTy} (a : FVec Ideal s φ) (i : s.Idx) : sqrt a i = Ideal.sqrt (a i) := rfl

/-- An integer comparison read at an index compares the entries. -/
theorem cmpi_apply {s : Shape} {w : ℕ} (c : CmpIPredicate) (a b : IVec s w) (i : s.Idx) :
    cmpi c a b i = IntOp.cmpi c (a i) (b i) := rfl

/-- The block's pair sum: over the 256 rows `p` of the block and all 2048 rows `j`, the clamped squared distance where
the two labels agree and the squared margin term where they differ. -/
theorem pay12_eq (x1 : Vec Ideal S256x512 .f32) (x2 : Vec Ideal S2048x512 .f32) (v8 : Vec Ideal S1x2048 .f32)
    (v11 : Vec Ideal S1x256 .f32) (v21 : Vec Ideal S1x2048 .i32) (v23 : Vec Ideal S1x256 .i32) :
    k0_pay12 (F := Ideal) x1 x2 v8 v11 v21 v23 (ix1 0)
      = ∑ p : Fin 256, ∑ j : Fin 2048,
          if v23 (ix2 (0 : Fin 1) p) = v21 (ix2 (0 : Fin 1) j) then Dk x1 x2 v8 v11 p j
          else Hk x1 x2 v8 v11 p j * Hk x1 x2 v8 v11 p j := by
  unfold k0_pay12 k0_pay10
  refine (Ideal.multiReduction_add_total _ _ _ (fun b => match b with | ⟨0, _⟩ => rfl) _ _ _).trans ?_
  refine (sum_idx_1ab _).trans ?_
  refine (sum_idx2 _).trans ?_
  refine Finset.sum_congr rfl fun p _ => Finset.sum_congr rfl fun j _ => ?_
  refine (shapeCast_ab_1ab_apply _ _ (0 : Fin 1) p j).trans ?_
  simp only [select_apply, cmpi_apply, sqrt_apply, maximumf_apply, subf_apply, addf_apply, mulf_apply, broadcast_apply,
    shapeCast_self, broadcastTo_1b_ab_apply, matmul_rows_apply, Ideal.ofBits_def, Ideal.ofBits_zero_f32]
  have h13 : broadcastTo S256x2048 (transpose S256x1 [1, 0] v11 transposes_S1x256_p1_0_S256x1)
      broadcasts_S256x1_S256x2048 (ix2 p j) = v11 (ix2 (0 : Fin 1) p) := col_bcast_apply v11 _ _ p j
  have h26 : broadcastTo S256x2048 (transpose S256x1 [1, 0] v23 transposes_S1x256_p1_0_S256x1)
      broadcasts_S256x1_S256x2048 (ix2 p j) = v23 (ix2 (0 : Fin 1) p) := col_bcast_apply v23 _ _ p j
  rw [h13, h26]
  show Scalar.select _ (Dk x1 x2 v8 v11 p j) (Hk x1 x2 v8 v11 p j * Hk x1 x2 v8 v11 p j) = _
  by_cases h : v23 (ix2 (0 : Fin 1) p) = v21 (ix2 (0 : Fin 1) j)
  · rw [if_pos h, IntOp.cmpi_eq.2 h, select_one]
  · rw [if_neg h, eq_zero_of_ne_one (fun h1 => h (IntOp.cmpi_eq.1 h1)), select_zero]

end Cert.KernelIdeal.Payloads

end
-- ==== Proof.RefValue.lean ====
/-
  The reference program's results at the ideal instance, as closed-form extended-real expressions of its arguments.

  The program computes two mean-squared errors and an all-pairs contrastive loss over the 2048 rows obtained by
  stacking the two feature arrays: for every pair of rows r < s the squared distance
  d2 r s = max (|E r|^2 + |E s|^2 - 2 <E r, E s>) 0 enters the positive sum when the two rows carry the same label,
  and (max (1 - sqrt (d2 r s)) 0)^2 enters the negative sum otherwise.
-/
import proofs.«122987_g56341380989036_cont_9to1_m_1285_19_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.Affine

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The two mean-squared errors -/

/-- The sum of squared differences of two arrays, divided by the literal 524288 = 1024 * 512. -/
def mse (x y : S1024x512.Idx → EReal) : EReal :=
  Ideal.div (∑ j : S1024x512.Idx, (x j - y j) * (x j - y j)) (Ideal.ofBits .f32 0x49000000#32)

theorem loss1_apply (x2 x4 : (⟨S1024x512, .f32⟩ : BufTy).Contents (Elt Ideal)) (i : S_.Idx) :
    val_main_v3 (F := Ideal) x2 x4 i = mse x2 x4 := by
  rw [val_main_v3_apply, val_main_v2_apply, val_main_cst_apply, val_main_cst_0_apply]
  simp only [val_main_v1_apply, val_main_v0_apply, Ideal.hostDivf_def, Ideal.ofBits_def, Ideal.mulf_def,
    Ideal.subf_def, Ideal.ofBits_zero_f32, zero_add]
  rfl

theorem loss2_apply (x3 x5 : (⟨S1024x512, .f32⟩ : BufTy).Contents (Elt Ideal)) (i : S_.Idx) :
    val_main_v7 (F := Ideal) x3 x5 i = mse x3 x5 := by
  rw [val_main_v7_apply, val_main_v6_apply, val_main_cst_1_apply, val_main_cst_2_apply]
  simp only [val_main_v5_apply, val_main_v4_apply, Ideal.hostDivf_def, Ideal.ofBits_def, Ideal.mulf_def,
    Ideal.subf_def, Ideal.ofBits_zero_f32, zero_add]
  rfl

/-! ## The stacked rows and their labels -/

/-- Row `r` of the stacked embeddings: rows below 1024 come from the first array, the others from the second. -/
def E (x0 x1 : S1024x512.Idx → EReal) (r : Fin 2048) (k : Fin 512) : EReal :=
  if h : r.val < 1024 then x0 (ix2 (⟨r.val, h⟩ : Fin 1024) k)
  else x1 (ix2 (⟨r.val - 1024, by have := r.isLt; omega⟩ : Fin 1024) k)

/-- The label of stacked row `r`: the label array's row 0 for the first 1024 rows, its row 1 for the others. -/
def lab (x6 : S2x1024.Idx → BitVec 32) (r : Fin 2048) : BitVec 32 :=
  if h : r.val < 1024 then x6 (ix2 (⟨0, by decide⟩ : Fin 2) (⟨r.val, h⟩ : Fin 1024))
  else x6 (ix2 (⟨1, by decide⟩ : Fin 2) (⟨r.val - 1024, by have := r.isLt; omega⟩ : Fin 1024))

/-- The concatenation of the two feature arrays along the rows, read at an entry. -/
theorem v8_apply (x0 x1 : (⟨S1024x512, .f32⟩ : BufTy).Contents (Elt Ideal)) (r : Fin 2048) (k : Fin 512) :
    val_main_v8 (F := Ideal) x0 x1 (ix2 r k) = E x0 x1 r k := by
  unfold val_main_v8 E
  by_cases h : r.val < 1024
  · rw [dif_pos h]
    exact concatenate_pair_apply_left (0 : Fin S2048x512.rank) x0 x1 concatenates_S1024x512_S1024x512_S2048x512_d0
      (ix2 r k) rfl (ix2 (⟨r.val, h⟩ : Fin 1024) k) (fun b => match b with | ⟨0, _⟩ => rfl | ⟨1, _⟩ => rfl)
  · rw [dif_neg h]
    refine concatenate_pair_apply_right (0 : Fin S2048x512.rank) x0 x1 concatenates_S1024x512_S1024x512_S2048x512_d0
      (ix2 r k) rfl rfl (ix2 (⟨r.val - 1024, by have := r.isLt; omega⟩ : Fin 1024) k) ?_ ?_
    · intro b hb
      match b with
      | ⟨0, _⟩ => exact absurd rfl hb
      | ⟨1, _⟩ => rfl
    · show r.val - 1024 + 1024 = r.val
      omega

/-- The concatenation of the label array's two rows, read at an entry. -/
theorem v13_apply (x6 : (⟨S2x1024, .i32⟩ : BufTy).Contents (Elt Ideal)) (r : Fin 2048) :
    val_main_v13 (F := Ideal) x6 (ix1 r) = lab x6 r := by
  have e10 : ∀ q : Fin 1024, val_main_v10 (F := Ideal) x6 (ix1 q) = x6 (ix2 (⟨0, by decide⟩ : Fin 2) q) := by
    intro q
    rw [val_main_v10_apply, val_main_v9_apply]
    refine congrArg x6 (funext fun a => Fin.ext ?_)
    match a with
    | ⟨0, _⟩ => rfl
    | ⟨1, _⟩ => exact Nat.mod_eq_of_lt q.isLt
  have e12 : ∀ q : Fin 1024, val_main_v12 (F := Ideal) x6 (ix1 q) = x6 (ix2 (⟨1, by decide⟩ : Fin 2) q) := by
    intro q
    rw [val_main_v12_apply, val_main_v11_apply]
    refine congrArg x6 (funext fun a => Fin.ext ?_)
    match a with
    | ⟨0, _⟩ => rfl
    | ⟨1, _⟩ => exact Nat.mod_eq_of_lt q.isLt
  unfold val_main_v13 lab
  by_cases h : r.val < 1024
  · rw [dif_pos h, ← e10]
    exact concatenate_pair_apply_left (0 : Fin S2048.rank) _ _ concatenates_S1024_S1024_S2048_d0
      (ix1 r) rfl (ix1 (⟨r.val, h⟩ : Fin 1024)) (fun b => match b with | ⟨0, _⟩ => rfl)
  · rw [dif_neg h, ← e12]
    refine concatenate_pair_apply_right (0 : Fin S2048.rank) _ _ concatenates_S1024_S1024_S2048_d0
      (ix1 r) rfl rfl (ix1 (⟨r.val - 1024, by have := r.isLt; omega⟩ : Fin 1024)) ?_ ?_
    · intro b hb
      match b with
      | ⟨0, _⟩ => exact absurd rfl hb
    · show r.val - 1024 + 1024 = r.val
      omega

/-! ## Squared distances between stacked rows -/

/-- The squared norm of stacked row `r`. -/
def sq (x0 x1 : S1024x512.Idx → EReal) (r : Fin 2048) : EReal := ∑ k : Fin 512, E x0 x1 r k * E x0 x1 r k

/-- The inner product of stacked rows `r` and `s`. -/
def dot (x0 x1 : S1024x512.Idx → EReal) (r s : Fin 2048) : EReal := ∑ k : Fin 512, E x0 x1 r k * E x0 x1 s k

/-- The squared distance of rows `r` and `s` by the polarization identity, clamped below at zero. The factor is the
    f32 word of 2. -/
def d2 (x0 x1 : S1024x512.Idx → EReal) (r s : Fin 2048) : EReal :=
  max (sq x0 x1 r + sq x0 x1 s - Ideal.ofBits .f32 0x40000000#32 * dot x0 x1 r s) 0

/-- The row sums of squares, read at a row. -/
theorem v15_apply (x0 x1 : (⟨S1024x512, .f32⟩ : BufTy).Contents (Elt Ideal)) (r : Fin 2048) :
    val_main_v15 (F := Ideal) x0 x1 (ix1 r) = sq x0 x1 r := by
  rw [val_main_v15_apply, val_main_cst_3_apply]
  simp only [val_main_v14_apply, Ideal.ofBits_def, Ideal.mulf_def, Ideal.ofBits_zero_f32, zero_add]
  unfold sq
  refine Finset.sum_congr rfl fun k _ => ?_
  have e : idx_main_v15 (ix1 r) k = ix2 r k :=
    funext fun a => Fin.ext (by match a with | ⟨0, _⟩ => rfl | ⟨1, _⟩ => rfl)
  rw [e, v8_apply]

/-- The product of the stacked array with its transpose, read at an entry. -/
theorem v22_apply (x0 x1 : (⟨S1024x512, .f32⟩ : BufTy).Contents (Elt Ideal)) (r s : Fin 2048) :
    val_main_v22 (F := Ideal) x0 x1 (ix2 r s) = dot x0 x1 r s := by
  rw [val_main_v22_apply]
  unfold dot
  refine Finset.sum_congr rfl fun k _ => ?_
  have el : lidx_main_v22 (ix2 r s) k = ix2 r k :=
    funext fun a => Fin.ext (by match a with | ⟨0, _⟩ => rfl | ⟨1, _⟩ => rfl)
  have er : idx_main_v21 (ridx_main_v22 (ix2 r s) k) = ix2 s k :=
    funext fun a => Fin.ext (by match a with | ⟨0, _⟩ => rfl | ⟨1, _⟩ => rfl)
  rw [val_main_v21_apply, el, er, v8_apply, v8_apply]

/-- The clamped squared distances, read at an entry. -/
theorem v27_apply (x0 x1 : (⟨S1024x512, .f32⟩ : BufTy).Contents (Elt Ideal)) (r s : Fin 2048) :
    val_main_v27 (F := Ideal) x0 x1 (ix2 r s) = d2 x0 x1 r s := by
  have e18 : idx_main_v16 (idx_main_v18 (ix2 r s)) = ix1 r :=
    funext fun a => Fin.ext (by match a with | ⟨0, _⟩ => rfl)
  have e19 : idx_main_v17 (idx_main_v19 (ix2 r s)) = ix1 s :=
    funext fun a => Fin.ext (by match a with | ⟨0, _⟩ => rfl)
  rw [val_main_v27_apply, val_main_v25_apply, val_main_v20_apply, val_main_v18_apply, val_main_v16_apply,
    val_main_v19_apply, val_main_v17_apply, val_main_v24_apply, val_main_v23_apply, val_main_cst_4_apply,
    val_main_v26_apply, val_main_cst_5_apply, e18, e19, v15_apply, v15_apply, v22_apply]
  simp only [Ideal.maximumf_def, Ideal.subf_def, Ideal.addf_def, Ideal.mulf_def, Ideal.ofBits_def,
    Ideal.ofBits_zero_f32]
  rfl

/-! ## The masks -/

/-- A number below 2048, as a 32-bit word read signed, is itself. -/
theorem toInt_ofNat_small (n : Nat) (h : n < 2048) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

/-- The strict upper triangle: the entry is set exactly when the row index is below the column index. -/
theorem v29_apply (r s : Fin 2048) :
    val_main_v29 (F := Ideal) (ix2 r s) = if r < s then 1#1 else 0#1 := by
  rw [val_main_v29_apply, val_main_call0_v4_apply, val_main_call0_v2_apply, val_main_call0_v0_apply,
    val_main_call0_v1_apply, val_main_call0_c_apply, val_main_call0_v3_apply, val_main_call0_v5_apply,
    val_main_call0_c_0_apply, val_main_v28_apply, val_main_c_apply]
  show Scalar.select (IntOp.cmpi .sge (IntOp.addi (BitVec.ofNat 32 r.val) 0#32) (BitVec.ofNat 32 s.val)) 0#1 1#1 = _
  have hz : IntOp.addi (BitVec.ofNat 32 r.val) 0#32 = BitVec.ofNat 32 r.val := BitVec.add_zero _
  rw [hz]
  by_cases h : r < s
  · rw [if_pos h]
    have hc : IntOp.cmpi .sge (BitVec.ofNat 32 r.val) (BitVec.ofNat 32 s.val) = 0#1 := by
      refine eq_zero_of_ne_one fun h1 => ?_
      rw [IntOp.cmpi_sge, toInt_ofNat_small _ r.isLt, toInt_ofNat_small _ s.isLt] at h1
      have : r.val < s.val := h
      omega
    rw [hc, select_zero]
  · rw [if_neg h]
    have hc : IntOp.cmpi .sge (BitVec.ofNat 32 r.val) (BitVec.ofNat 32 s.val) = 1#1 := by
      rw [IntOp.cmpi_sge, toInt_ofNat_small _ r.isLt, toInt_ofNat_small _ s.isLt]
      have : ¬ r.val < s.val := h
      omega
    rw [hc, select_one]

/-- The label comparison: the entry is set exactly when the two rows carry the same label. -/
theorem v34_apply (x6 : (⟨S2x1024, .i32⟩ : BufTy).Contents (Elt Ideal)) (r s : Fin 2048) :
    val_main_v34 (F := Ideal) x6 (ix2 r s) = if lab x6 r = lab x6 s then 1#1 else 0#1 := by
  have e32 : idx_main_v30 (idx_main_v32 (ix2 r s)) = ix1 r :=
    funext fun a => Fin.ext (by match a with | ⟨0, _⟩ => rfl)
  have e33 : idx_main_v31 (idx_main_v33 (ix2 r s)) = ix1 s :=
    funext fun a => Fin.ext (by match a with | ⟨0, _⟩ => rfl)
  rw [val_main_v34_apply, val_main_v32_apply, val_main_v30_apply, val_main_v33_apply, val_main_v31_apply,
    e32, e33, v13_apply, v13_apply]
  by_cases h : lab x6 r = lab x6 s
  · rw [if_pos h]; exact IntOp.cmpi_eq.2 h
  · rw [if_neg h]; exact eq_zero_of_ne_one fun h1 => h (IntOp.cmpi_eq.1 h1)

/-- The positive-pair mask: row below column, equal labels. -/
theorem v35_apply (x6 : (⟨S2x1024, .i32⟩ : BufTy).Contents (Elt Ideal)) (r s : Fin 2048) :
    val_main_v35 (F := Ideal) x6 (ix2 r s) = if r < s ∧ lab x6 r = lab x6 s then 1#1 else 0#1 := by
  rw [val_main_v35_apply, v29_apply, v34_apply]
  by_cases h1 : r < s <;> by_cases h2 : lab x6 r = lab x6 s <;> simp only [h1, h2, if_true, if_false, and_self, and_true, and_false, true_and, false_and] <;> decide

/-- The negative-pair mask: row below column, different labels. -/
theorem v37_apply (x6 : (⟨S2x1024, .i32⟩ : BufTy).Contents (Elt Ideal)) (r s : Fin 2048) :
    val_main_v37 (F := Ideal) x6 (ix2 r s) = if r < s ∧ lab x6 r ≠ lab x6 s then 1#1 else 0#1 := by
  rw [val_main_v37_apply, val_main_v36_apply, v29_apply, v34_apply]
  by_cases h1 : r < s <;> by_cases h2 : lab x6 r = lab x6 s <;> simp only [h1, h2, ne_eq, not_true_eq_false, not_false_eq_true, if_true, if_false, and_self, and_true, and_false, true_and, false_and] <;> decide

/-! ## The two pair sums -/

/-- The positive-pair sum: the clamped squared distance over the pairs of rows r < s with equal labels. -/
def posSum (x0 x1 : S1024x512.Idx → EReal) (x6 : S2x1024.Idx → BitVec 32) : EReal :=
  ∑ r : Fin 2048, ∑ s : Fin 2048, if r < s ∧ lab x6 r = lab x6 s then d2 x0 x1 r s else 0

/-- The margin term of a pair: one (the f32 word of 1) less the distance, clamped below at zero. -/
def hinge (x0 x1 : S1024x512.Idx → EReal) (r s : Fin 2048) : EReal :=
  max (Ideal.ofBits .f32 0x3F800000#32 - Ideal.sqrt (d2 x0 x1 r s)) 0

/-- The negative-pair sum: the squared margin term over the pairs of rows r < s with different labels. -/
def negSum (x0 x1 : S1024x512.Idx → EReal) (x6 : S2x1024.Idx → BitVec 32) : EReal :=
  ∑ r : Fin 2048, ∑ s : Fin 2048,
    if r < s ∧ lab x6 r ≠ lab x6 s then hinge x0 x1 r s * hinge x0 x1 r s else 0

/-- The positive-pair summand, read at an entry. -/
theorem v38_apply (x0 x1 : (⟨S1024x512, .f32⟩ : BufTy).Contents (Elt Ideal))
    (x6 : (⟨S2x1024, .i32⟩ : BufTy).Contents (Elt Ideal)) (r s : Fin 2048) :
    val_main_v38 (F := Ideal) x0 x1 x6 (ix2 r s)
      = if r < s ∧ lab x6 r = lab x6 s then d2 x0 x1 r s else 0 := by
  rw [val_main_v38_apply, v35_apply, v27_apply]
  by_cases h : r < s ∧ lab x6 r = lab x6 s
  · rw [if_pos h, if_pos h, select_one]
  · rw [if_neg h, if_neg h, select_zero, val_main_call1_v1_apply, val_main_call1_v0_apply, val_main_cst_6_apply]
    simp only [Ideal.ofBits_def, Ideal.ofBits_zero_f32]

theorem v39_apply (x0 x1 : (⟨S1024x512, .f32⟩ : BufTy).Contents (Elt Ideal))
    (x6 : (⟨S2x1024, .i32⟩ : BufTy).Contents (Elt Ideal)) (i : S_.Idx) :
    val_main_v39 (F := Ideal) x0 x1 x6 i = posSum x0 x1 x6 := by
  rw [val_main_v39_apply, val_main_cst_7_apply, sum_idx2]
  simp only [v38_apply, Ideal.ofBits_def, Ideal.ofBits_zero_f32, zero_add]
  rfl

/-- The negative-pair summand, read at an entry. Where the mask is set the guarded distance is the distance itself,
    and where it is not the summand is zero whatever the guarded value. -/
theorem v47_apply (x0 x1 : (⟨S1024x512, .f32⟩ : BufTy).Contents (Elt Ideal))
    (x6 : (⟨S2x1024, .i32⟩ : BufTy).Contents (Elt Ideal)) (r s : Fin 2048) :
    val_main_v47 (F := Ideal) x0 x1 x6 (ix2 r s)
      = if r < s ∧ lab x6 r ≠ lab x6 s then hinge x0 x1 r s * hinge x0 x1 r s else 0 := by
  rw [val_main_v47_apply, v37_apply]
  by_cases h : r < s ∧ lab x6 r ≠ lab x6 s
  · rw [if_pos h, if_pos h, select_one, val_main_v46_apply, val_main_v45_apply, val_main_v43_apply,
      val_main_v42_apply, val_main_cst_9_apply, val_main_v41_apply, val_main_v40_apply, v37_apply, if_pos h,
      select_one, v27_apply, val_main_v44_apply, val_main_cst_10_apply]
    simp only [Ideal.mulf_def, Ideal.maximumf_def, Ideal.subf_def, Ideal.hostUnary_sqrt_def, Ideal.ofBits_def,
      Ideal.ofBits_zero_f32]
    rfl
  · rw [if_neg h, if_neg h, select_zero, val_main_call3_v1_apply, val_main_call3_v0_apply, val_main_cst_11_apply]
    simp only [Ideal.ofBits_def, Ideal.ofBits_zero_f32]

theorem v48_apply (x0 x1 : (⟨S1024x512, .f32⟩ : BufTy).Contents (Elt Ideal))
    (x6 : (⟨S2x1024, .i32⟩ : BufTy).Contents (Elt Ideal)) (i : S_.Idx) :
    val_main_v48 (F := Ideal) x0 x1 x6 i = negSum x0 x1 x6 := by
  rw [val_main_v48_apply, val_main_cst_12_apply, sum_idx2]
  simp only [v47_apply, Ideal.ofBits_def, Ideal.ofBits_zero_f32, zero_add]
  rfl

/-! ## The mean over the pairs and the total -/

/-- The pair loss: the two pair sums over the number of pairs. -/
theorem v57_apply (x0 x1 : (⟨S1024x512, .f32⟩ : BufTy).Contents (Elt Ideal))
    (x6 : (⟨S2x1024, .i32⟩ : BufTy).Contents (Elt Ideal)) (i : S_.Idx) :
    val_main_v57 (F := Ideal) x0 x1 x6 i
      = Ideal.div (posSum x0 x1 x6 + negSum x0 x1 x6) (val_main_v55 (F := Ideal) x6 i) := by
  rw [val_main_v57_apply, val_main_v56_apply, v39_apply, v48_apply]
  simp only [Ideal.hostDivf_def, Ideal.addf_def]

/-- The total: the pair loss plus half (division by the f32 word of 2) the sum of the two mean-squared errors. -/
theorem v60_apply (x0 x1 x2 x3 x4 x5 : (⟨S1024x512, .f32⟩ : BufTy).Contents (Elt Ideal))
    (x6 : (⟨S2x1024, .i32⟩ : BufTy).Contents (Elt Ideal)) (i : S_.Idx) :
    val_main_v60 (F := Ideal) x0 x1 x2 x3 x4 x5 x6 i
      = val_main_v57 (F := Ideal) x0 x1 x6 i
        + Ideal.div (mse x2 x4 + mse x3 x5) (Ideal.ofBits .f32 0x40000000#32) := by
  rw [val_main_v60_apply, val_main_v59_apply, val_main_v58_apply, loss1_apply, loss2_apply, val_main_cst_15_apply]
  simp only [Ideal.hostDivf_def, Ideal.addf_def, Ideal.ofBits_def]

end Cert.ReferenceIdeal.RefValue

end
-- ==== Proof.KBlocks.lean ====
/-
  The kernel program before its region, read at an index. Its host lines stack the two feature arrays into one
  2048 x 512 array and lay the label array's two rows end to end as one row of 2048 labels: the same stacked rows and
  labels the reference works with. The region's input windows then stage blocks of these arrays and of the four
  arrays of the mean-squared errors: a block's entry is the array's entry at block index times block size plus the
  coordinate inside the block.
-/
import proofs.«122987_g56341380989036_cont_9to1_m_1285_19_alg».proof.Proof.KShared
import proofs.«122987_g56341380989036_cont_9to1_m_1285_19_alg».proof.Proof.RefValue

set_option maxRecDepth 16384

noncomputable section

namespace Cert.KernelIdeal.Blocks

open Cert.KernelIdeal Cert.KernelIdeal.Gen Cert.KernelIdeal.Hand
open Idealize.ShloMosaic Idealize.ShloMosaic.TcCoe Idealize.SL.Sem Idealize.ShloMosaic.ValueIdx
open Cert.ReferenceIdeal.RefValue (E lab)

/-! ## The two concatenations, whatever proof of the shape fact they carry -/

/-- Two 1024 x 512 arrays stacked along the rows, read at an entry. -/
theorem concat_rows_apply (x0 x1 : S1024x512.Idx → EReal) (h : Shape.Concatenates [S1024x512, S1024x512] S2048x512 0)
    (r : Fin 2048) (k : Fin 512) :
    concatenate S2048x512 0 [⟨S1024x512, x0⟩, ⟨S1024x512, x1⟩] h (ix2 r k) = E x0 x1 r k := by
  unfold E
  by_cases hr : r.val < 1024
  · rw [dif_pos hr]
    exact concatenate_pair_apply_left (0 : Fin S2048x512.rank) x0 x1 h
      (ix2 r k) rfl (ix2 (⟨r.val, hr⟩ : Fin 1024) k) (fun b => match b with | ⟨0, _⟩ => rfl | ⟨1, _⟩ => rfl)
  · rw [dif_neg hr]
    refine concatenate_pair_apply_right (0 : Fin S2048x512.rank) x0 x1 h
      (ix2 r k) rfl rfl (ix2 (⟨r.val - 1024, by have := r.isLt; omega⟩ : Fin 1024) k) ?_ ?_
    · intro b hb
      match b with
      | ⟨0, _⟩ => exact absurd rfl hb
      | ⟨1, _⟩ => rfl
    · show r.val - 1024 + 1024 = r.val
      omega

/-- Row `q` of the label array as a vector of 1024 labels: the slice of one row, reshaped. -/
theorem label_row_apply (x6 : S2x1024.Idx → BitVec 32) (q : Fin 2) (off : Fin 2 → Nat) (hoff0 : off 0 = q.val)
    (hoff1 : off 1 = 0) (hs : S2x1024.Slices off S1x1024) (hc : S1x1024.ShapeCasts S1024) (j : Fin 1024) :
    shapeCast S1024 (extractStridedSlice S1x1024 off x6 hs) hc (ix1 j) = x6 (ix2 q j) := by
  rw [shapeCast_apply _ hc (ix1 j) (ix2 (⟨0, Nat.one_pos⟩ : Fin 1) j)
    (by rewrite [Shape.rowMajor_val_two, Shape.rowMajor_val_one]; show 0 * 1024 + j.val = j.val; omega)]
  refine extractStridedSlice_apply off x6 hs _ (ix2 q j) (fun a => ?_)
  match a with
  | ⟨0, _⟩ => show q.val = off 0 + 0; omega
  | ⟨1, _⟩ => show j.val = off 1 + j.val; omega

/-- Two vectors of 1024 labels laid end to end, read at an entry. -/
theorem concat_labels_apply (y0 y1 : S1024.Idx → BitVec 32) (h : Shape.Concatenates [S1024, S1024] S2048 0)
    (j : Fin 2048) :
    concatenate S2048 0 [⟨S1024, y0⟩, ⟨S1024, y1⟩] h (ix1 j)
      = if hj : j.val < 1024 then y0 (ix1 (⟨j.val, hj⟩ : Fin 1024))
        else y1 (ix1 (⟨j.val - 1024, by have := j.isLt; omega⟩ : Fin 1024)) := by
  by_cases hj : j.val < 1024
  · rw [dif_pos hj]
    exact concatenate_pair_apply_left (0 : Fin S2048.rank) y0 y1 h
      (ix1 j) rfl (ix1 (⟨j.val, hj⟩ : Fin 1024)) (fun b => match b with | ⟨0, _⟩ => rfl)
  · rw [dif_neg hj]
    refine concatenate_pair_apply_right (0 : Fin S2048.rank) y0 y1 h
      (ix1 j) rfl rfl (ix1 (⟨j.val - 1024, by have := j.isLt; omega⟩ : Fin 1024)) ?_ ?_
    · intro b hb
      match b with
      | ⟨0, _⟩ => exact absurd rfl hb
    · show j.val - 1024 + 1024 = j.val
      omega

/-! ## The host lines before the region -/

variable (m : (ℓ : Loc nD τ sig) → Buf (Elt Ideal) ℓ)

/-- No host line before the region writes `b` when `b` is none of the seven buffers they write. -/
theorem not_written (b : Ref sig .tc)
    (hb : b ≠ main_v0 ∧ b ≠ main_v1 ∧ b ≠ main_v2 ∧ b ≠ main_v3 ∧ b ≠ main_v4 ∧ b ≠ main_v5 ∧ b ≠ main_v6) :
    ∀ op ∈ List.flatten [(hostOps0 : List (HloOp τ sig (Elt Ideal)))], Proc.devRef .tc b ∉ op.writes := by
  obtain ⟨h0, h1, h2, h3, h4, h5, h6⟩ := hb
  intro op hop
  simp only [List.flatten_cons, List.flatten_nil, List.append_nil, List.mem_cons, List.mem_nil_iff, or_false] at hop
  rcases hop with rfl | rfl | rfl | rfl | rfl | rfl | rfl <;>
    simp only [StableHlo.unary_writes, StableHlo.binary_writes, StableHlo.reshape_writes, Finset.mem_singleton] <;>
    exact StableHlo.devRef_ne_of_ne ‹_›

/-- The four arrays of the mean-squared errors reach the region as launched. -/
theorem V_main_arg2 (c : Dev nD) : V m c main_arg2 = m ((c : Thread nD τ).loc main_arg2) :=
  StableHlo.after_of_forall_not_mem (b := Proc.devRef .tc main_arg2) _ _ (not_written main_arg2 (by decide))
theorem V_main_arg3 (c : Dev nD) : V m c main_arg3 = m ((c : Thread nD τ).loc main_arg3) :=
  StableHlo.after_of_forall_not_mem (b := Proc.devRef .tc main_arg3) _ _ (not_written main_arg3 (by decide))
theorem V_main_arg4 (c : Dev nD) : V m c main_arg4 = m ((c : Thread nD τ).loc main_arg4) :=
  StableHlo.after_of_forall_not_mem (b := Proc.devRef .tc main_arg4) _ _ (not_written main_arg4 (by decide))
theorem V_main_arg5 (c : Dev nD) : V m c main_arg5 = m ((c : Thread nD τ).loc main_arg5) :=
  StableHlo.after_of_forall_not_mem (b := Proc.devRef .tc main_arg5) _ _ (not_written main_arg5 (by decide))

/-- The stacked feature rows, as the region finds them. -/
theorem V_main_v0_apply (c : Dev nD) (r : Fin 2048) (k : Fin 512) :
    (V m c main_v0 : S2048x512.Idx → EReal) (ix2 r k)
      = E (m ((c : Thread nD τ).loc main_arg0)) (m ((c : Thread nD τ).loc main_arg1)) r k := by
  have e : (V m c main_v0 : S2048x512.Idx → EReal)
      = concatenate S2048x512 0 [⟨S1024x512, (m ((c : Thread nD τ).loc main_arg0) : S1024x512.Idx → EReal)⟩,
          ⟨S1024x512, (m ((c : Thread nD τ).loc main_arg1) : S1024x512.Idx → EReal)⟩]
          concatenates_S1024x512_S1024x512_S2048x512_d0 := by
    dsimp only [V, V0]
    simp only [hostOps0, List.flatten_cons, List.flatten_nil, List.append_nil]
    after_results
  rw [e, concat_rows_apply]

/-- The row of 2048 labels, as the region finds it. -/
theorem V_main_v6_apply (c : Dev nD) (j : Fin 2048) :
    (V m c main_v6 : S1x2048.Idx → BitVec 32) (ix2 (⟨0, Nat.one_pos⟩ : Fin 1) j)
      = lab (m ((c : Thread nD τ).loc main_arg6)) j := by
  have e : (V m c main_v6 : S1x2048.Idx → BitVec 32)
      = broadcastInDim S1x2048 ![1] bcast_S2048_S1x2048_1
          (concatenate S2048 0
            [⟨S1024, shapeCast S1024 (extractStridedSlice S1x1024 ![0, 0]
                (m ((c : Thread nD τ).loc main_arg6) : S2x1024.Idx → BitVec 32) slices_S2x1024_S1x1024_0_0)
                shapeCasts_S1x1024_S1024⟩,
             ⟨S1024, shapeCast S1024 (extractStridedSlice S1x1024 ![1, 0]
                (m ((c : Thread nD τ).loc main_arg6) : S2x1024.Idx → BitVec 32) slices_S2x1024_S1x1024_1_0)
                shapeCasts_S1x1024_S1024⟩]
            concatenates_S1024_S1024_S2048_d0) := by
    dsimp only [V, V0]
    simp only [hostOps0, List.flatten_cons, List.flatten_nil, List.append_nil]
    after_results
    rfl
  rw [e, broadcastInDim_apply _ bcast_S2048_S1x2048_1 _ _ (ix1 j)
    (fun a => match a with
      | ⟨0, _⟩ => by show j.val = if (2048 : Nat) = 1 then 0 else j.val; rw [if_neg (by decide)]),
    concat_labels_apply]
  unfold lab
  by_cases hj : j.val < 1024
  · rw [dif_pos hj, dif_pos hj]
    exact label_row_apply _ (⟨0, by decide⟩ : Fin 2) ![0, 0] rfl rfl _ _ _
  · rw [dif_neg hj, dif_neg hj]
    exact label_row_apply _ (⟨1, by decide⟩ : Fin 2) ![1, 0] rfl rfl _ _ _

/-! ## The windows' blocks -/

/-- The grid has eight points. -/
theorem t_lt (t : Fin cfg0.N) : t.val < 8 := Nat.lt_of_lt_of_eq t.isLt N_0

/-- The printed index maps, decided over the grid: windows 0, 4, 5, 6, 7 step along the rows with the grid point,
    window 3 along the columns, windows 1 and 2 stay at the whole array. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Window 0: rows 256 t … 256 t + 255 of the stacked features. -/
theorem iblk0_apply (c : Dev nD) (t : Fin cfg0.N) (p : Fin 256) (k : Fin 512) :
    (iblk m c 0 t : S256x512.Idx → EReal) (ix2 p k)
      = (V m c main_v0 : S2048x512.Idx → EReal)
          (ix2 (⟨256 * t.val + p.val, by have := t_lt t; have := p.isLt; omega⟩ : Fin 2048) k) := by
  obtain ⟨⟨h0, h1⟩, -⟩ := idx_facts t
  unfold iblk
  rw [View.read_apply]
  show (V m c main_v0 : S2048x512.Idx → EReal) (((cfg0.win 0).blk t).view.emb (ix2 p k)) = _
  refine congrArg _ (funext fun a => Fin.ext ?_)
  match a with
  | ⟨0, _⟩ => show win0_0.index t (0 : Fin 2) * 256 + 1 * p.val = 256 * t.val + p.val; rw [h0]; omega
  | ⟨1, _⟩ => show win0_0.index t (1 : Fin 2) * 512 + 1 * k.val = k.val; rw [h1]; omega

/-- Window 1: the whole array of stacked features, at every point. -/
theorem iblk1_apply (c : Dev nD) (t : Fin cfg0.N) (j : Fin 2048) (k : Fin 512) :
    (iblk m c 1 t : S2048x512.Idx → EReal) (ix2 j k) = (V m c main_v0 : S2048x512.Idx → EReal) (ix2 j k) := by
  obtain ⟨-, ⟨h0, h1⟩, -⟩ := idx_facts t
  unfold iblk
  rw [View.read_apply]
  show (V m c main_v0 : S2048x512.Idx → EReal) (((cfg0.win 1).blk t).view.emb (ix2 j k)) = _
  refine congrArg _ (funext fun a => Fin.ext ?_)
  match a with
  | ⟨0, _⟩ => show win0_1.index t (0 : Fin 2) * 2048 + 1 * j.val = j.val; rw [h0]; omega
  | ⟨1, _⟩ => show win0_1.index t (1 : Fin 2) * 512 + 1 * k.val = k.val; rw [h1]; omega

/-- Window 2: the whole row of labels, at every point. -/
theorem iblk2_apply (c : Dev nD) (t : Fin cfg0.N) (j : Fin 2048) :
    (iblk m c 2 t : S1x2048.Idx → BitVec 32) (ix2 (⟨0, Nat.one_pos⟩ : Fin 1) j)
      = (V m c main_v6 : S1x2048.Idx → BitVec 32) (ix2 (⟨0, Nat.one_pos⟩ : Fin 1) j) := by
  obtain ⟨-, -, ⟨h0, h1⟩, -⟩ := idx_facts t
  unfold iblk
  rw [View.read_apply]
  show (V m c main_v6 : S1x2048.Idx → BitVec 32)
    (((cfg0.win 2).blk t).view.emb (ix2 (⟨0, Nat.one_pos⟩ : Fin 1) j)) = _
  refine congrArg _ (funext fun a => Fin.ext ?_)
  match a with
  | ⟨0, _⟩ => show win0_2.index t (0 : Fin 2) * 1 + 1 * 0 = 0; rw [h0]
  | ⟨1, _⟩ => show win0_2.index t (1 : Fin 2) * 2048 + 1 * j.val = j.val; rw [h1]; omega

/-- Window 3: labels 256 t … 256 t + 255. -/
theorem iblk3_apply (c : Dev nD) (t : Fin cfg0.N) (p : Fin 256) :
    (iblk m c 3 t : S1x256.Idx → BitVec 32) (ix2 (⟨0, Nat.one_pos⟩ : Fin 1) p)
      = (V m c main_v6 : S1x2048.Idx → BitVec 32) (ix2 (⟨0, Nat.one_pos⟩ : Fin 1)
          (⟨256 * t.val + p.val, by have := t_lt t; have := p.isLt; omega⟩ : Fin 2048)) := by
  obtain ⟨-, -, -, ⟨h0, h1⟩, -⟩ := idx_facts t
  unfold iblk
  rw [View.read_apply]
  show (V m c main_v6 : S1x2048.Idx → BitVec 32)
    (((cfg0.win 3).blk t).view.emb (ix2 (⟨0, Nat.one_pos⟩ : Fin 1) p)) = _
  refine congrArg _ (funext fun a => Fin.ext ?_)
  match a with
  | ⟨0, _⟩ => show win0_3.index t (0 : Fin 2) * 1 + 1 * 0 = 0; rw [h0]
  | ⟨1, _⟩ => show win0_3.index t (1 : Fin 2) * 256 + 1 * p.val = 256 * t.val + p.val; rw [h1]; omega

/-- Window 4: rows 128 t … 128 t + 127 of the first prediction array. -/
theorem iblk4_apply (c : Dev nD) (t : Fin cfg0.N) (p : Fin 128) (k : Fin 512) :
    (iblk m c 4 t : S128x512.Idx → EReal) (ix2 p k)
      = (V m c main_arg2 : S1024x512.Idx → EReal)
          (ix2 (⟨128 * t.val + p.val, by have := t_lt t; have := p.isLt; omega⟩ : Fin 1024) k) := by
  obtain ⟨-, -, -, -, ⟨h0, h1⟩, -⟩ := idx_facts t
  unfold iblk
  rw [View.read_apply]
  show (V m c main_arg2 : S1024x512.Idx → EReal) (((cfg0.win 4).blk t).view.emb (ix2 p k)) = _
  refine congrArg _ (funext fun a => Fin.ext ?_)
  match a with
  | ⟨0, _⟩ => show win0_4.index t (0 : Fin 2) * 128 + 1 * p.val = 128 * t.val + p.val; rw [h0]; omega
  | ⟨1, _⟩ => show win0_4.index t (1 : Fin 2) * 512 + 1 * k.val = k.val; rw [h1]; omega

/-- The same block, read off the array as launched. -/
theorem iblk4_arg (c : Dev nD) (t : Fin cfg0.N) (p : Fin 128) (k : Fin 512) :
    (iblk m c 4 t : S128x512.Idx → EReal) (ix2 p k)
      = (m ((c : Thread nD τ).loc main_arg2) : S1024x512.Idx → EReal)
          (ix2 (⟨128 * t.val + p.val, by have := t_lt t; have := p.isLt; omega⟩ : Fin 1024) k) := by
  rw [iblk4_apply, V_main_arg2]

/-- Window 5: rows 128 t … 128 t + 127 of the first target array. -/
theorem iblk5_apply (c : Dev nD) (t : Fin cfg0.N) (p : Fin 128) (k : Fin 512) :
    (iblk m c 5 t : S128x512.Idx → EReal) (ix2 p k)
      = (V m c main_arg4 : S1024x512.Idx → EReal)
          (ix2 (⟨128 * t.val + p.val, by have := t_lt t; have := p.isLt; omega⟩ : Fin 1024) k) := by
  obtain ⟨-, -, -, -, -, ⟨h0, h1⟩, -⟩ := idx_facts t
  unfold iblk
  rw [View.read_apply]
  show (V m c main_arg4 : S1024x512.Idx → EReal) (((cfg0.win 5).blk t).view.emb (ix2 p k)) = _
  refine congrArg _ (funext fun a => Fin.ext ?_)
  match a with
  | ⟨0, _⟩ => show win0_5.index t (0 : Fin 2) * 128 + 1 * p.val = 128 * t.val + p.val; rw [h0]; omega
  | ⟨1, _⟩ => show win0_5.index t (1 : Fin 2) * 512 + 1 * k.val = k.val; rw [h1]; omega

/-- The same block, read off the array as launched. -/
theorem iblk5_arg (c : Dev nD) (t : Fin cfg0.N) (p : Fin 128) (k : Fin 512) :
    (iblk m c 5 t : S128x512.Idx → EReal) (ix2 p k)
      = (m ((c : Thread nD τ).loc main_arg4) : S1024x512.Idx → EReal)
          (ix2 (⟨128 * t.val + p.val, by have := t_lt t; have := p.isLt; omega⟩ : Fin 1024) k) := by
  rw [iblk5_apply, V_main_arg4]

/-- Window 6: rows 128 t … 128 t + 127 of the second prediction array. -/
theorem iblk6_apply (c : Dev nD) (t : Fin cfg0.N) (p : Fin 128) (k : Fin 512) :
    (iblk m c 6 t : S128x512.Idx → EReal) (ix2 p k)
      = (V m c main_arg3 : S1024x512.Idx → EReal)
          (ix2 (⟨128 * t.val + p.val, by have := t_lt t; have := p.isLt; omega⟩ : Fin 1024) k) := by
  obtain ⟨-, -, -, -, -, -, ⟨h0, h1⟩, -⟩ := idx_facts t
  unfold iblk
  rw [View.read_apply]
  show (V m c main_arg3 : S1024x512.Idx → EReal) (((cfg0.win 6).blk t).view.emb (ix2 p k)) = _
  refine congrArg _ (funext fun a => Fin.ext ?_)
  match a with
  | ⟨0, _⟩ => show win0_6.index t (0 : Fin 2) * 128 + 1 * p.val = 128 * t.val + p.val; rw [h0]; omega
  | ⟨1, _⟩ => show win0_6.index t (1 : Fin 2) * 512 + 1 * k.val = k.val; rw [h1]; omega

/-- The same block, read off the array as launched. -/
theorem iblk6_arg (c : Dev nD) (t : Fin cfg0.N) (p : Fin 128) (k : Fin 512) :
    (iblk m c 6 t : S128x512.Idx → EReal) (ix2 p k)
      = (m ((c : Thread nD τ).loc main_arg3) : S1024x512.Idx → EReal)
          (ix2 (⟨128 * t.val + p.val, by have := t_lt t; have := p.isLt; omega⟩ : Fin 1024) k) := by
  rw [iblk6_apply, V_main_arg3]

/-- Window 7: rows 128 t … 128 t + 127 of the second target array. -/
theorem iblk7_apply (c : Dev nD) (t : Fin cfg0.N) (p : Fin 128) (k : Fin 512) :
    (iblk m c 7 t : S128x512.Idx → EReal) (ix2 p k)
      = (V m c main_arg5 : S1024x512.Idx → EReal)
          (ix2 (⟨128 * t.val + p.val, by have := t_lt t; have := p.isLt; omega⟩ : Fin 1024) k) := by
  obtain ⟨-, -, -, -, -, -, -, ⟨h0, h1⟩⟩ := idx_facts t
  unfold iblk
  rw [View.read_apply]
  show (V m c main_arg5 : S1024x512.Idx → EReal) (((cfg0.win 7).blk t).view.emb (ix2 p k)) = _
  refine congrArg _ (funext fun a => Fin.ext ?_)
  match a with
  | ⟨0, _⟩ => show win0_7.index t (0 : Fin 2) * 128 + 1 * p.val = 128 * t.val + p.val; rw [h0]; omega
  | ⟨1, _⟩ => show win0_7.index t (1 : Fin 2) * 512 + 1 * k.val = k.val; rw [h1]; omega

/-- The same block, read off the array as launched. -/
theorem iblk7_arg (c : Dev nD) (t : Fin cfg0.N) (p : Fin 128) (k : Fin 512) :
    (iblk m c 7 t : S128x512.Idx → EReal) (ix2 p k)
      = (m ((c : Thread nD τ).loc main_arg5) : S1024x512.Idx → EReal)
          (ix2 (⟨128 * t.val + p.val, by have := t_lt t; have := p.isLt; omega⟩ : Fin 1024) k) := by
  rw [iblk7_apply, V_main_arg5]

/-! ## The blocks of the stacked rows and labels, in the reference's terms -/

/-- Window 0's block is rows 256 t … 256 t + 255 of the stacked rows `E`. -/
theorem iblk0_E (c : Dev nD) (t : Fin cfg0.N) (p : Fin 256) (k : Fin 512) :
    (iblk m c 0 t : S256x512.Idx → EReal) (ix2 p k)
      = E (m ((c : Thread nD τ).loc main_arg0)) (m ((c : Thread nD τ).loc main_arg1))
          (⟨256 * t.val + p.val, by have := t_lt t; have := p.isLt; omega⟩ : Fin 2048) k := by
  rw [iblk0_apply, V_main_v0_apply]

/-- Window 1's block is all the stacked rows `E`. -/
theorem iblk1_E (c : Dev nD) (t : Fin cfg0.N) (j : Fin 2048) (k : Fin 512) :
    (iblk m c 1 t : S2048x512.Idx → EReal) (ix2 j k)
      = E (m ((c : Thread nD τ).loc main_arg0)) (m ((c : Thread nD τ).loc main_arg1)) j k := by
  rw [iblk1_apply, V_main_v0_apply]

/-- Window 2's block is all the labels. -/
theorem iblk2_lab (c : Dev nD) (t : Fin cfg0.N) (j : Fin 2048) :
    (iblk m c 2 t : S1x2048.Idx → BitVec 32) (ix2 (⟨0, Nat.one_pos⟩ : Fin 1) j)
      = lab (m ((c : Thread nD τ).loc main_arg6)) j := by
  rw [iblk2_apply, V_main_v6_apply]

/-- Window 3's block is labels 256 t … 256 t + 255. -/
theorem iblk3_lab (c : Dev nD) (t : Fin cfg0.N) (p : Fin 256) :
    (iblk m c 3 t : S1x256.Idx → BitVec 32) (ix2 (⟨0, Nat.one_pos⟩ : Fin 1) p)
      = lab (m ((c : Thread nD τ).loc main_arg6))
          (⟨256 * t.val + p.val, by have := t_lt t; have := p.isLt; omega⟩ : Fin 2048) := by
  rw [iblk3_apply, V_main_v6_apply]

end Cert.KernelIdeal.Blocks

end
-- ==== Proof.LibRowBlocks.lean ====
import Mathlib

/-!
# Regrouping a sum over `a * b` consecutive indices into `a` blocks of `b`

A sum over the indices `0, …, a b - 1` can be taken block by block: the index
`b t + p` (`t < a`, `p < b`) runs through each index exactly once.  This is the
division-with-remainder bijection between `Fin a × Fin b` and `Fin (a * b)`.
The file also records that a left-nested sum of eight terms is the sum over `Fin 8`.
-/

namespace Cert.RowBlocks

open Finset

/-- Position `p` of block `t`, among `a` blocks of length `b`, is an index below `a * b`. -/
theorem block_lt {a b : ℕ} (t : Fin a) (p : Fin b) : b * t.val + p.val < a * b := by
  have h1 : b * t.val + p.val < b * t.val + b := Nat.add_lt_add_left p.isLt _
  have h2 : b * t.val + b = b * (t.val + 1) := by ring
  have h3 : b * (t.val + 1) ≤ b * a := Nat.mul_le_mul_left _ t.isLt
  calc b * t.val + p.val < b * (t.val + 1) := by rw [← h2]; exact h1
    _ ≤ b * a := h3
    _ = a * b := Nat.mul_comm _ _

/-- A sum over `a * b` consecutive indices is the sum over the `a` blocks of the sums over
the `b` positions inside each block (index `b t + p` for block `t`, position `p`). -/
theorem sum_blocks {M : Type*} [AddCommMonoid M] (a b : ℕ) (g : Fin (a * b) → M) :
    ∑ r : Fin (a * b), g r
      = ∑ t : Fin a, ∑ p : Fin b, g ⟨b * t.val + p.val, block_lt t p⟩ := by
  rw [← finProdFinEquiv.sum_comp g, Fintype.sum_prod_type]
  refine Finset.sum_congr rfl (fun t _ => Finset.sum_congr rfl (fun p _ => ?_))
  congr 1
  apply Fin.ext
  rw [finProdFinEquiv_apply_val]
  exact Nat.add_comm _ _

/-- `2048` indices as `8` blocks of `256`. -/
theorem sum_2048_blocks {M : Type*} [AddCommMonoid M] (g : Fin 2048 → M) :
    ∑ r : Fin 2048, g r
      = ∑ t : Fin 8, ∑ p : Fin 256, g ⟨256 * t.val + p.val, by omega⟩ :=
  sum_blocks 8 256 g

/-- `1024` indices as `8` blocks of `128`. -/
theorem sum_1024_blocks {M : Type*} [AddCommMonoid M] (g : Fin 1024 → M) :
    ∑ r : Fin 1024, g r
      = ∑ t : Fin 8, ∑ p : Fin 128, g ⟨128 * t.val + p.val, by omega⟩ :=
  sum_blocks 8 128 g

/-- Eight terms added one after the other, from the left, are the sum over `Fin 8`. -/
theorem acc8 {M : Type*} [AddCommMonoid M] (B : Fin 8 → M) :
    ((((((B 0 + B 1) + B 2) + B 3) + B 4) + B 5) + B 6) + B 7 = ∑ t, B t :=
  (Fin.sum_univ_eight B).symm

end Cert.RowBlocks
-- ==== Proof.KIdeal.lean ====
/-
  The accumulation read at the exact instance: each grid point's partial sums are sums over the point's rows of the pair
  terms and of the squared differences, and after the last point the accumulators hold the sums over all rows.
-/
import proofs.«122987_g56341380989036_cont_9to1_m_1285_19_alg».proof.Proof.KAccum
import proofs.«122987_g56341380989036_cont_9to1_m_1285_19_alg».proof.Proof.KFinalArr
import proofs.«122987_g56341380989036_cont_9to1_m_1285_19_alg».proof.Proof.KOwnRows
import proofs.«122987_g56341380989036_cont_9to1_m_1285_19_alg».proof.Proof.KPayloads
import proofs.«122987_g56341380989036_cont_9to1_m_1285_19_alg».proof.Proof.KBlocks
import proofs.«122987_g56341380989036_cont_9to1_m_1285_19_alg».proof.Proof.LibRowBlocks
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Payloads Cert.KernelIdeal.Blocks Cert.ReferenceIdeal.RefValue Cert.RowBlocks
open Idealize.ShloMosaic.ValueIdx

variable (m : (ℓ : Loc nD τ sig) → Buf (Elt Ideal) ℓ)

/-- The argument arrays, by name. -/
abbrev a0 (c : Dev nD) : S1024x512.Idx → EReal := m ((c : Thread nD τ).loc main_arg0)
abbrev a1 (c : Dev nD) : S1024x512.Idx → EReal := m ((c : Thread nD τ).loc main_arg1)
abbrev a2 (c : Dev nD) : S1024x512.Idx → EReal := m ((c : Thread nD τ).loc main_arg2)
abbrev a3 (c : Dev nD) : S1024x512.Idx → EReal := m ((c : Thread nD τ).loc main_arg3)
abbrev a4 (c : Dev nD) : S1024x512.Idx → EReal := m ((c : Thread nD τ).loc main_arg4)
abbrev a5 (c : Dev nD) : S1024x512.Idx → EReal := m ((c : Thread nD τ).loc main_arg5)
abbrev a6 (c : Dev nD) : S2x1024.Idx → BitVec 32 := m ((c : Thread nD τ).loc main_arg6)

/-- A pair's term of the kernel's sum: the squared distance for equal labels, the squared hinge otherwise. -/
def pairTerm (c : Dev nD) (r s : Fin 2048) : EReal :=
  if lab (a6 m c) r = lab (a6 m c) s then d2 (a0 m c) (a1 m c) r s else hinge (a0 m c) (a1 m c) r s * hinge (a0 m c) (a1 m c) r s

/-- A squared difference of the two matrices of a mean squared error. -/
def sqDiff (x y : S1024x512.Idx → EReal) (r : Fin 1024) (k : Fin 512) : EReal :=
  (x (ix2 r k) - y (ix2 r k)) * (x (ix2 r k) - y (ix2 r k))

/-! ## The kept row norms -/

theorem rowNorms_apply (c : Dev nD) (r : Fin 2048) :
    (rowNorms m c : S1x2048.Idx → EReal) (ix2 (0 : Fin 1) r) = Cert.ReferenceIdeal.RefValue.sq (a0 m c) (a1 m c) r := by
  unfold rowNorms Cert.ReferenceIdeal.RefValue.sq
  rw [pay11_eq]
  exact Finset.sum_congr rfl fun k _ => by rw [iblk1_E m c t0_0 r k]

/-! ## A grid point's partial sums -/

theorem part8_apply (c : Dev nD) (t : Fin cfg0.N) :
    (part8 m c t : S1.Idx → EReal) (ix1 0) = ∑ p : Fin 256, ∑ j : Fin 2048, pairTerm m c ⟨256 * t.val + p.val, by have := lt8 t; have := p.isLt; omega⟩ j := by
  unfold part8
  rw [pay12_eq]
  refine Finset.sum_congr rfl fun p _ => Finset.sum_congr rfl fun j _ => ?_
  have hD : Dk (iblk m c 0 t) (iblk m c 1 t) (rowNorms m c) (ownRows (grid0.coords t) (rowNorms m c)) p j
      = d2 (a0 m c) (a1 m c) ⟨256 * t.val + p.val, by have := lt8 t; have := p.isLt; omega⟩ j := by
    unfold Dk d2 Cert.ReferenceIdeal.RefValue.dot
    rw [ownRows_apply t (rowNorms m c) p, rowNorms_apply, rowNorms_apply]
    congr 2
    exact congrArg _ (Finset.sum_congr rfl fun k _ => by rw [iblk0_E m c t p k, iblk1_E m c t j k])
  have hH : Hk (iblk m c 0 t) (iblk m c 1 t) (rowNorms m c) (ownRows (grid0.coords t) (rowNorms m c)) p j
      = hinge (a0 m c) (a1 m c) ⟨256 * t.val + p.val, by have := lt8 t; have := p.isLt; omega⟩ j := by
    unfold Hk hinge
    rw [hD]
  unfold pairTerm
  rw [hD, hH]
  have e3 := iblk3_lab m c t p
  have e2 := iblk2_lab m c t j
  rw [show (⟨0, Nat.one_pos⟩ : Fin 1) = 0 from rfl] at e3 e2
  rw [e3, e2]

theorem part9_apply (c : Dev nD) (t : Fin cfg0.N) :
    k0_pay2 (F := Ideal) (iblk m c 4 t) (iblk m c 5 t) = ∑ p : Fin 128, ∑ k : Fin 512, sqDiff (a2 m c) (a4 m c) ⟨128 * t.val + p.val, by have := lt8 t; have := p.isLt; omega⟩ k := by
  rw [pay2_eq, sum_idx2]
  refine Finset.sum_congr rfl fun p _ => Finset.sum_congr rfl fun k _ => ?_
  unfold sqDiff
  rw [iblk4_arg m c t p k, iblk5_arg m c t p k]

theorem part10_apply (c : Dev nD) (t : Fin cfg0.N) :
    k0_pay3 (F := Ideal) (iblk m c 6 t) (iblk m c 7 t) = ∑ p : Fin 128, ∑ k : Fin 512, sqDiff (a3 m c) (a5 m c) ⟨128 * t.val + p.val, by have := lt8 t; have := p.isLt; omega⟩ k := by
  rw [pay3_eq, sum_idx2]
  refine Finset.sum_congr rfl fun p _ => Finset.sum_congr rfl fun k _ => ?_
  unfold sqDiff
  rw [iblk6_arg m c t p k, iblk7_arg m c t p k]

/-! ## The accumulators after each grid point -/

/-- The partial sum of position `k`, zero past the grid. -/
def P8 (c : Dev nD) (k : ℕ) : EReal := if h : k < cfg0.N then (part8 m c ⟨k, h⟩ : S1.Idx → EReal) (ix1 0) else 0
def P9 (c : Dev nD) (k : ℕ) : EReal := if h : k < cfg0.N then k0_pay2 (F := Ideal) (iblk m c 4 ⟨k, h⟩) (iblk m c 5 ⟨k, h⟩) else 0
def P10 (c : Dev nD) (k : ℕ) : EReal := if h : k < cfg0.N then k0_pay3 (F := Ideal) (iblk m c 6 ⟨k, h⟩) (iblk m c 7 ⟨k, h⟩) else 0

theorem P8_eq (c : Dev nD) (k : ℕ) (h : k < cfg0.N) : P8 m c k = (part8 m c ⟨k, h⟩ : S1.Idx → EReal) (ix1 0) := by
  unfold P8; rw [dif_pos h]
theorem P9_eq (c : Dev nD) (k : ℕ) (h : k < cfg0.N) : P9 m c k = k0_pay2 (F := Ideal) (iblk m c 4 ⟨k, h⟩) (iblk m c 5 ⟨k, h⟩) := by
  unfold P9; rw [dif_pos h]
theorem P10_eq (c : Dev nD) (k : ℕ) (h : k < cfg0.N) : P10 m c k = k0_pay3 (F := Ideal) (iblk m c 6 ⟨k, h⟩) (iblk m c 7 ⟨k, h⟩) := by
  unfold P10; rw [dif_pos h]

theorem acc8_sum (c : Dev nD) (i : S1x1.Idx) (n : ℕ) (hn : n < cfg0.N) :
    ((outsAt0 m c n hn).1 : S1x1.Idx → EReal) i = ∑ k ∈ Finset.range (n + 1), P8 m c k := by
  induction n with
  | zero => rw [acc8_zero, pay4_eq, Finset.sum_range_one, P8_eq m c 0 hn]
  | succ n ih => rw [acc8_succ, pay7_eq, ih (Nat.lt_of_succ_lt hn), Finset.sum_range_succ _ (n + 1), P8_eq m c (n + 1) hn]

theorem acc9_sum (c : Dev nD) (i : S1x1.Idx) (n : ℕ) (hn : n < cfg0.N) :
    ((outsAt0 m c n hn).2.1 : S1x1.Idx → EReal) i = ∑ k ∈ Finset.range (n + 1), P9 m c k := by
  induction n with
  | zero => rw [acc9_zero, pay5_eq, Finset.sum_range_one, P9_eq m c 0 hn]
  | succ n ih => rw [acc9_succ, pay8_eq, ih (Nat.lt_of_succ_lt hn), Finset.sum_range_succ _ (n + 1), P9_eq m c (n + 1) hn]

theorem acc10_sum (c : Dev nD) (i : S1x1.Idx) (n : ℕ) (hn : n < cfg0.N) :
    ((outsAt0 m c n hn).2.2.1 : S1x1.Idx → EReal) i = ∑ k ∈ Finset.range (n + 1), P10 m c k := by
  induction n with
  | zero => rw [acc10_zero, pay6_eq, Finset.sum_range_one, P10_eq m c 0 hn]
  | succ n ih => rw [acc10_succ, pay9_eq, ih (Nat.lt_of_succ_lt hn), Finset.sum_range_succ _ (n + 1), P10_eq m c (n + 1) hn]

/-! ## The totals after the last grid point -/

/-- The pair accumulator ends at the sum over ALL ordered pairs. -/
theorem total8 (c : Dev nD) (i : S1x1.Idx) :
    ((outsAt0 m c 7 h7).1 : S1x1.Idx → EReal) i = ∑ r : Fin 2048, ∑ s : Fin 2048, pairTerm m c r s := by
  rw [acc8_sum m c i 7 h7, Finset.sum_range, sum_2048_blocks]
  refine Finset.sum_congr rfl fun t _ => ?_
  rw [P8_eq m c t.val (lt_of_lt_of_eq t.isLt (show 8 = cfg0.N from N_0.symm)), part8_apply]

/-- The two squared-error accumulators end at the sums over the whole matrices. -/
theorem total9 (c : Dev nD) (i : S1x1.Idx) :
    ((outsAt0 m c 7 h7).2.1 : S1x1.Idx → EReal) i = ∑ j : S1024x512.Idx, (a2 m c j - a4 m c j) * (a2 m c j - a4 m c j) := by
  rw [acc9_sum m c i 7 h7, Finset.sum_range, sum_idx2, sum_1024_blocks]
  refine Finset.sum_congr rfl fun t _ => ?_
  rw [P9_eq m c t.val (lt_of_lt_of_eq t.isLt (show 8 = cfg0.N from N_0.symm)), part9_apply]
  rfl

theorem total10 (c : Dev nD) (i : S1x1.Idx) :
    ((outsAt0 m c 7 h7).2.2.1 : S1x1.Idx → EReal) i = ∑ j : S1024x512.Idx, (a3 m c j - a5 m c j) * (a3 m c j - a5 m c j) := by
  rw [acc10_sum m c i 7 h7, Finset.sum_range, sum_idx2, sum_1024_blocks]
  refine Finset.sum_congr rfl fun t _ => ?_
  rw [P10_eq m c t.val (lt_of_lt_of_eq t.isLt (show 8 = cfg0.N from N_0.symm)), part10_apply]
  rfl

end Cert.KernelIdeal.Hand

end
-- ==== Proof.KArrays.lean ====
/-
  The embedding matrix and the label row are each handed to the kernel through two windows. The whole buffers behind the
  windows' arrays are the proof data's arrays, a shared buffer split in two halves; and back.
-/
import proofs.«122987_g56341380989036_cont_9to1_m_1285_19_alg».proof.Proof.KDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nine distinct buffers behind the eleven windows, each whole at `Wb`. -/
theorem arrBufs0_eq (c : Dev nD) (Wb : (b : Ref sig .tc) → Buf (Elt F) ((c : Thread nD τ).loc b)) :
    (Pipeline.arrBufs spec0 c Wb : sProp 𝕄)
      = iprop((((c : Thread nD τ).loc main_v0) ↦{fullShare} Wb main_v0) ∗ (((c : Thread nD τ).loc main_v6) ↦{fullShare} Wb main_v6)
        ∗ (((c : Thread nD τ).loc main_arg2) ↦{fullShare} Wb main_arg2) ∗ (((c : Thread nD τ).loc main_arg4) ↦{fullShare} Wb main_arg4)
        ∗ (((c : Thread nD τ).loc main_arg3) ↦{fullShare} Wb main_arg3) ∗ (((c : Thread nD τ).loc main_arg5) ↦{fullShare} Wb main_arg5)
        ∗ (((c : Thread nD τ).loc main_v7_0) ↦{fullShare} Wb main_v7_0) ∗ (((c : Thread nD τ).loc main_v7_1) ↦{fullShare} Wb main_v7_1)
        ∗ (((c : Thread nD τ).loc main_v7_2) ↦{fullShare} Wb main_v7_2)) := by
  unfold Pipeline.arrBufs
  exact bigSep_eq_bigSepL_of_eq [main_v0, main_v6, main_arg2, main_arg4, main_arg3, main_arg5, main_v7_0, main_v7_1, main_v7_2] (by decide) (by decide) _

/-! The share each window holds of its array: the embedding matrix and the label row in two halves. -/
theorem share_0 (c : Dev nD) : (dats m 0 c).share 0 = fullShare.left := by
  unfold Dat.share; dsimp only [dats]; rfl
theorem share_1 (c : Dev nD) : (dats m 0 c).share 1 = fullShare.right := by
  unfold Dat.share; dsimp only [dats]; rfl
theorem share_2 (c : Dev nD) : (dats m 0 c).share 2 = fullShare.left := by
  unfold Dat.share; dsimp only [dats]; rfl
theorem share_3 (c : Dev nD) : (dats m 0 c).share 3 = fullShare.right := by
  unfold Dat.share; dsimp only [dats]; rfl
theorem share_4 (c : Dev nD) : (dats m 0 c).share 4 = fullShare := by
  unfold Dat.share; dsimp only [dats]; rfl
theorem share_5 (c : Dev nD) : (dats m 0 c).share 5 = fullShare := by
  unfold Dat.share; dsimp only [dats]; rfl
theorem share_6 (c : Dev nD) : (dats m 0 c).share 6 = fullShare := by
  unfold Dat.share; dsimp only [dats]; rfl
theorem share_7 (c : Dev nD) : (dats m 0 c).share 7 = fullShare := by
  unfold Dat.share; dsimp only [dats]; rfl
theorem share_8 (c : Dev nD) : (dats m 0 c).share 8 = fullShare := by
  unfold Dat.share; dsimp only [dats]; rfl
theorem share_9 (c : Dev nD) : (dats m 0 c).share 9 = fullShare := by
  unfold Dat.share; dsimp only [dats]; rfl
theorem share_10 (c : Dev nD) : (dats m 0 c).share 10 = fullShare := by
  unfold Dat.share; dsimp only [dats]; rfl

/-- The proof data's arrays, each a whole buffer at its window's share. -/
theorem arrays_whole (c : Dev nD) (Fa : (w : Fin cfg0.W) → Buf (Elt F) ((cfg0.win w).arr.view.loc (c : Thread nD τ))) :
    ((dats m 0 c).arrays Fa : sProp 𝕄)
      = bigSep Finset.univ fun w : Fin cfg0.W => (((c : Thread nD τ).loc (Pipeline.arrRef spec0 w)) ↦{(dats m 0 c).share w} Fa w : sProp 𝕄) := by
  unfold Dat.arrays
  exact bigSep_congr fun w _ => by rw [(arr_whole0 w).set_eq_univ]

/-- The buffers behind the arrays, whole, are the proof data's arrays: a buffer two windows stage is split in halves. -/
theorem arrays_iff (c : Dev nD) (Wb : (b : Ref sig .tc) → Buf (Elt F) ((c : Thread nD τ).loc b)) :
    (Pipeline.arrBufs spec0 c Wb : sProp 𝕄) ⊣⊢ (dats m 0 c).arrays (fun w => Wb (Pipeline.arrRef spec0 w)) := by
  rw [arrBufs0_eq, arrays_whole, bigSep_W0]
  rw [share_0, share_1, share_2, share_3, share_4, share_5, share_6, share_7, share_8, share_9, share_10]
  constructor
  · iintro ⟨H0, H6, H2, H4, H3, H5, H70, H71, H72⟩
    ihave H0 := (pointsTo_share (PosShare.mem_left_op_right fullShare)).1 $$ H0
    icases H0 with ⟨H0a, H0b⟩
    ihave H6 := (pointsTo_share (PosShare.mem_left_op_right fullShare)).1 $$ H6
    icases H6 with ⟨H6a, H6b⟩
    isplitl [H0a]; · iexact H0a
    isplitl [H0b]; · iexact H0b
    isplitl [H6a]; · iexact H6a
    isplitl [H6b]; · iexact H6b
    isplitl [H2]; · iexact H2
    isplitl [H4]; · iexact H4
    isplitl [H3]; · iexact H3
    isplitl [H5]; · iexact H5
    isplitl [H70]; · iexact H70
    isplitl [H71]; · iexact H71
    iexact H72
  · iintro ⟨H0a, H0b, H6a, H6b, H2, H4, H3, H5, H70, H71, H72⟩
    isplitl [H0a H0b]
    · iapply (pointsTo_share (PosShare.mem_left_op_right fullShare)).2
      isplitl [H0a] <;> iassumption
    isplitl [H6a H6b]
    · iapply (pointsTo_share (PosShare.mem_left_op_right fullShare)).2
      isplitl [H6a] <;> iassumption
    isplitl [H2]; · iexact H2
    isplitl [H4]; · iexact H4
    isplitl [H3]; · iexact H3
    isplitl [H5]; · iexact H5
    isplitl [H70]; · iexact H70
    isplitl [H71]; · iexact H71
    iexact H72

end Cert.KernelIdeal.Hand

end
-- ==== Proof.KExit.lean ====
/-
  What the buffers hold when the region is left and at the end of the program.
-/
import proofs.«122987_g56341380989036_cont_9to1_m_1285_19_alg».proof.Proof.KArrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The buffer contents at the region's exit and at the end -/

/-- The buffer contents when the region is left: the three results at what the last grid point wrote back, every
    other buffer as the region found it. -/
def Wmid (c : Dev nD) : Valuation τ sig (Elt F) :=
  Function.update (Function.update (Function.update (V0 m c) (Proc.devRef .tc main_v7_0) ((dats m 0 c).arrAt 8 cfg0.N))
    (Proc.devRef .tc main_v7_1) ((dats m 0 c).arrAt 9 cfg0.N)) (Proc.devRef .tc main_v7_2) ((dats m 0 c).arrAt 10 cfg0.N)

/-- The buffer contents at the end: the host lines after the region have run. -/
def Wfin (c : Dev nD) : Valuation τ sig (Elt F) := StableHlo.after (List.flatten [hostOps1]) (Wmid m c)

theorem Wmid_of_ne (c : Dev nD) (b : Ref sig .tc) (h0 : b ≠ main_v7_0) (h1 : b ≠ main_v7_1) (h2 : b ≠ main_v7_2) :
    Wmid m c (Proc.devRef .tc b) = V m c b := by
  unfold Wmid
  rw [Function.update_of_ne (fun e => h2 (Proc.devRef_injective _ e)), Function.update_of_ne (fun e => h1 (Proc.devRef_injective _ e)),
    Function.update_of_ne (fun e => h0 (Proc.devRef_injective _ e))]

theorem Wmid_8 (c : Dev nD) : Wmid m c (Proc.devRef .tc main_v7_0) = (dats m 0 c).arrAt 8 cfg0.N := by
  unfold Wmid
  rw [Function.update_of_ne (by decide), Function.update_of_ne (by decide), Function.update_self]
theorem Wmid_9 (c : Dev nD) : Wmid m c (Proc.devRef .tc main_v7_1) = (dats m 0 c).arrAt 9 cfg0.N := by
  unfold Wmid
  rw [Function.update_of_ne (by decide), Function.update_self]
theorem Wmid_10 (c : Dev nD) : Wmid m c (Proc.devRef .tc main_v7_2) = (dats m 0 c).arrAt 10 cfg0.N := by
  unfold Wmid
  rw [Function.update_self]

/-- Every array at the region's exit is the exit contents of the buffer behind it: an input array is unchanged. -/
theorem arrAt_Wmid (c : Dev nD) (w : Fin cfg0.W) :
    (dats m 0 c).arrAt w cfg0.N = Wmid m c (Proc.devRef .tc (Pipeline.arrRef spec0 w)) := by
  fin_cases w
  · exact ((dats m 0 c).arrAt_in 0 rfl _).trans ((A_eq m c 0).trans (Wmid_of_ne m c _ (by decide) (by decide) (by decide)).symm)
  · exact ((dats m 0 c).arrAt_in 1 rfl _).trans ((A_eq m c 1).trans (Wmid_of_ne m c _ (by decide) (by decide) (by decide)).symm)
  · exact ((dats m 0 c).arrAt_in 2 rfl _).trans ((A_eq m c 2).trans (Wmid_of_ne m c _ (by decide) (by decide) (by decide)).symm)
  · exact ((dats m 0 c).arrAt_in 3 rfl _).trans ((A_eq m c 3).trans (Wmid_of_ne m c _ (by decide) (by decide) (by decide)).symm)
  · exact ((dats m 0 c).arrAt_in 4 rfl _).trans ((A_eq m c 4).trans (Wmid_of_ne m c _ (by decide) (by decide) (by decide)).symm)
  · exact ((dats m 0 c).arrAt_in 5 rfl _).trans ((A_eq m c 5).trans (Wmid_of_ne m c _ (by decide) (by decide) (by decide)).symm)
  · exact ((dats m 0 c).arrAt_in 6 rfl _).trans ((A_eq m c 6).trans (Wmid_of_ne m c _ (by decide) (by decide) (by decide)).symm)
  · exact ((dats m 0 c).arrAt_in 7 rfl _).trans ((A_eq m c 7).trans (Wmid_of_ne m c _ (by decide) (by decide) (by decide)).symm)
  · exact (Wmid_8 m c).symm
  · exact (Wmid_9 m c).symm
  · exact (Wmid_10 m c).symm

/-- The host lines after the region write none of the arrays. -/
theorem hostOps1_keeps (w : Fin cfg0.W) : ∀ op ∈ (List.flatten [hostOps1] : List (HloOp τ sig (Elt F))),
    Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals fin_cases w <;> simp only [StableHlo.nullary_writes, StableHlo.unary_writes, StableHlo.binary_writes, StableHlo.reshape_writes, Finset.mem_singleton] <;> exact StableHlo.devRef_ne_of_ne (by decide)

theorem arrAt_Wfin (c : Dev nD) (w : Fin cfg0.W) :
    (dats m 0 c).arrAt w cfg0.N = Wfin m c (Proc.devRef .tc (Pipeline.arrRef spec0 w)) := by
  unfold Wfin
  rw [StableHlo.after_of_forall_not_mem _ _ (hostOps1_keeps w)]
  exact arrAt_Wmid m c w

end Cert.KernelIdeal.Hand

end
-- ==== Proof.KTail.lean ====
/-
  The kernel program after its region, read at the scalar index. The region leaves three 1 x 1 results: the pair
  loss's numerator (twice over: the kernel sums over all ordered pairs) and the two sums of squared differences. The
  host lines then divide the two sums of squares by 524288, halve the pair sum and divide it by 2096128, and add the
  pair loss to half the sum of the two mean-squared errors.
-/
import proofs.«122987_g56341380989036_cont_9to1_m_1285_19_alg».proof.Proof.KExit
import Idealize.ShloMosaic.Lib.StableHlo.Run
import Idealize.ShloMosaic.Lib.Pipeline.Value
import Idealize.ShloMosaic.PureOps.Ideal.Laws
import Idealize.ShloMosaic.Lib.ValueIdx

set_option maxRecDepth 16384

noncomputable section

namespace Cert.KernelIdeal.Tail

open Cert.KernelIdeal Cert.KernelIdeal.Gen Cert.KernelIdeal.Hand
open Idealize.ShloMosaic Idealize.ShloMosaic.TcCoe Idealize.SL.Sem Idealize.ShloMosaic.ValueIdx

/-- A 1 x 1 array reshaped to a scalar holds the array's one entry. -/
theorem scalar_of_1x1 (x : S1x1.Idx → EReal) (h : S1x1.ShapeCasts S_) (i : S_.Idx) :
    shapeCast S_ x h i = x (ix2 (0 : Fin 1) (0 : Fin 1)) :=
  shapeCast_apply x h i (ix2 (0 : Fin 1) (0 : Fin 1)) (by
    rewrite [Shape.rowMajor_val_two]
    have h2 : (S_.rowMajor i).val < 1 := (S_.rowMajor i).isLt
    show 0 * 1 + 0 = (S_.rowMajor i).val
    omega)

variable (m : (ℓ : Loc nD τ sig) → Buf (Elt Ideal) ℓ)

/-- The region's three results as it leaves them: the pair sum and the two sums of squared differences. -/
abbrev o8 (c : Dev nD) : EReal := (Wmid m c (Proc.devRef .tc main_v7_0) : S1x1.Idx → EReal) (ix2 (0 : Fin 1) (0 : Fin 1))
abbrev o9 (c : Dev nD) : EReal := (Wmid m c (Proc.devRef .tc main_v7_1) : S1x1.Idx → EReal) (ix2 (0 : Fin 1) (0 : Fin 1))
abbrev o10 (c : Dev nD) : EReal := (Wmid m c (Proc.devRef .tc main_v7_2) : S1x1.Idx → EReal) (ix2 (0 : Fin 1) (0 : Fin 1))

/-! ## The four results -/

/-- The first mean-squared error: the second result over 524288. -/
theorem Wfin_main_v9 (c : Dev nD) (i : S_.Idx) :
    (Wfin m c (Proc.devRef .tc main_v9) : S_.Idx → EReal) i
      = Ideal.div (o9 m c) (Ideal.ofBits .f32 0x49000000#32) := by
  have e : (Wfin m c (Proc.devRef .tc main_v9) : S_.Idx → EReal)
      = Host.divf (F := Ideal)
          (shapeCast S_ (Wmid m c (Proc.devRef .tc main_v7_1) : S1x1.Idx → EReal) shapeCasts_S1x1_S_)
          (constant (F := Ideal) S_ .f32 0x49000000#32) := by
    unfold Wfin
    simp only [hostOps1, List.flatten_cons, List.flatten_nil, List.append_nil]
    after_results
    rfl
  rw [e]
  show FloatOps.hostDivf (shapeCast S_ _ shapeCasts_S1x1_S_ i) (FloatOps.ofBits (F := Ideal) .f32 0x49000000#32) = _
  rw [scalar_of_1x1, Ideal.hostDivf_def, Ideal.ofBits_def]

/-- The second mean-squared error: the third result over 524288. -/
theorem Wfin_main_v11 (c : Dev nD) (i : S_.Idx) :
    (Wfin m c (Proc.devRef .tc main_v11) : S_.Idx → EReal) i
      = Ideal.div (o10 m c) (Ideal.ofBits .f32 0x49000000#32) := by
  have e : (Wfin m c (Proc.devRef .tc main_v11) : S_.Idx → EReal)
      = Host.divf (F := Ideal)
          (shapeCast S_ (Wmid m c (Proc.devRef .tc main_v7_2) : S1x1.Idx → EReal) shapeCasts_S1x1_S_)
          (constant (F := Ideal) S_ .f32 0x49000000#32) := by
    unfold Wfin
    simp only [hostOps1, List.flatten_cons, List.flatten_nil, List.append_nil]
    after_results
    rfl
  rw [e]
  show FloatOps.hostDivf (shapeCast S_ _ shapeCasts_S1x1_S_ i) (FloatOps.ofBits (F := Ideal) .f32 0x49000000#32) = _
  rw [scalar_of_1x1, Ideal.hostDivf_def, Ideal.ofBits_def]

/-- The pair loss: half (the f32 word of 0.5) the first result, over the f32 word of 2096128. -/
theorem Wfin_main_v14 (c : Dev nD) (i : S_.Idx) :
    (Wfin m c (Proc.devRef .tc main_v14) : S_.Idx → EReal) i
      = Ideal.div (Ideal.ofBits .f32 0x3F000000#32 * o8 m c) (Ideal.ofBits .f32 0x49FFE000#32) := by
  have e : (Wfin m c (Proc.devRef .tc main_v14) : S_.Idx → EReal)
      = Host.divf (F := Ideal)
          (mulf (constant (F := Ideal) S_ .f32 0x3F000000#32)
            (shapeCast S_ (Wmid m c (Proc.devRef .tc main_v7_0) : S1x1.Idx → EReal) shapeCasts_S1x1_S_))
          (constant (F := Ideal) S_ .f32 0x49FFE000#32) := by
    unfold Wfin
    simp only [hostOps1, List.flatten_cons, List.flatten_nil, List.append_nil]
    after_results
    rfl
  rw [e]
  show FloatOps.hostDivf (FloatOps.mulf (FloatOps.ofBits (F := Ideal) .f32 0x3F000000#32)
    (shapeCast S_ _ shapeCasts_S1x1_S_ i)) (FloatOps.ofBits (F := Ideal) .f32 0x49FFE000#32) = _
  rw [scalar_of_1x1, Ideal.hostDivf_def, Ideal.mulf_def, Ideal.ofBits_def, Ideal.ofBits_def]

/-- The total: the pair loss plus the sum of the two mean-squared errors over the f32 word of 2. -/
theorem Wfin_main_v17 (c : Dev nD) (i : S_.Idx) :
    (Wfin m c (Proc.devRef .tc main_v17) : S_.Idx → EReal) i
      = Ideal.div (Ideal.ofBits .f32 0x3F000000#32 * o8 m c) (Ideal.ofBits .f32 0x49FFE000#32)
        + Ideal.div (Ideal.div (o9 m c) (Ideal.ofBits .f32 0x49000000#32)
                      + Ideal.div (o10 m c) (Ideal.ofBits .f32 0x49000000#32))
            (Ideal.ofBits .f32 0x40000000#32) := by
  have e : (Wfin m c (Proc.devRef .tc main_v17) : S_.Idx → EReal)
      = addf
          (Host.divf (F := Ideal)
            (mulf (constant (F := Ideal) S_ .f32 0x3F000000#32)
              (shapeCast S_ (Wmid m c (Proc.devRef .tc main_v7_0) : S1x1.Idx → EReal) shapeCasts_S1x1_S_))
            (constant (F := Ideal) S_ .f32 0x49FFE000#32))
          (Host.divf (F := Ideal)
            (addf
              (Host.divf (F := Ideal)
                (shapeCast S_ (Wmid m c (Proc.devRef .tc main_v7_1) : S1x1.Idx → EReal) shapeCasts_S1x1_S_)
                (constant (F := Ideal) S_ .f32 0x49000000#32))
              (Host.divf (F := Ideal)
                (shapeCast S_ (Wmid m c (Proc.devRef .tc main_v7_2) : S1x1.Idx → EReal) shapeCasts_S1x1_S_)
                (constant (F := Ideal) S_ .f32 0x49000000#32)))
            (constant (F := Ideal) S_ .f32 0x40000000#32)) := by
    unfold Wfin
    simp only [hostOps1, List.flatten_cons, List.flatten_nil, List.append_nil]
    after_results
    rfl
  rw [e]
  show FloatOps.addf
    (FloatOps.hostDivf (FloatOps.mulf (FloatOps.ofBits (F := Ideal) .f32 0x3F000000#32)
      (shapeCast S_ _ shapeCasts_S1x1_S_ i)) (FloatOps.ofBits (F := Ideal) .f32 0x49FFE000#32))
    (FloatOps.hostDivf
      (FloatOps.addf
        (FloatOps.hostDivf (shapeCast S_ _ shapeCasts_S1x1_S_ i) (FloatOps.ofBits (F := Ideal) .f32 0x49000000#32))
        (FloatOps.hostDivf (shapeCast S_ _ shapeCasts_S1x1_S_ i) (FloatOps.ofBits (F := Ideal) .f32 0x49000000#32)))
      (FloatOps.ofBits (F := Ideal) .f32 0x40000000#32)) = _
  simp only [scalar_of_1x1, Ideal.hostDivf_def, Ideal.mulf_def, Ideal.addf_def, Ideal.ofBits_def]

/-! ## The arguments are never written -/

/-- No host line before the region writes `b` when `b` is none of the seven buffers they write. -/
theorem not_written0 (b : Ref sig .tc)
    (hb : b ≠ main_v0 ∧ b ≠ main_v1 ∧ b ≠ main_v2 ∧ b ≠ main_v3 ∧ b ≠ main_v4 ∧ b ≠ main_v5 ∧ b ≠ main_v6) :
    ∀ op ∈ List.flatten [(hostOps0 : List (HloOp τ sig (Elt Ideal)))], Proc.devRef .tc b ∉ op.writes := by
  obtain ⟨h0, h1, h2, h3, h4, h5, h6⟩ := hb
  intro op hop
  simp only [List.flatten_cons, List.flatten_nil, List.append_nil, List.mem_cons, List.mem_nil_iff, or_false] at hop
  rcases hop with rfl | rfl | rfl | rfl | rfl | rfl | rfl <;>
    simp only [StableHlo.unary_writes, StableHlo.binary_writes, StableHlo.reshape_writes, Finset.mem_singleton] <;>
    exact StableHlo.devRef_ne_of_ne ‹_›

/-- No host line after the region writes `b` when `b` is none of the fifteen buffers they write. -/
theorem not_written1 (b : Ref sig .tc)
    (hb : b ≠ main_v8 ∧ b ≠ main_cst ∧ b ≠ main_v9 ∧ b ≠ main_v10 ∧ b ≠ main_cst_0 ∧ b ≠ main_v11 ∧ b ≠ main_v12
      ∧ b ≠ main_cst_1 ∧ b ≠ main_v13 ∧ b ≠ main_cst_2 ∧ b ≠ main_v14 ∧ b ≠ main_v15 ∧ b ≠ main_cst_3
      ∧ b ≠ main_v16 ∧ b ≠ main_v17) :
    ∀ op ∈ List.flatten [(hostOps1 : List (HloOp τ sig (Elt Ideal)))], Proc.devRef .tc b ∉ op.writes := by
  obtain ⟨h0, h1, h2, h3, h4, h5, h6, h7, h8, h9, h10, h11, h12, h13, h14⟩ := hb
  intro op hop
  simp only [List.flatten_cons, List.flatten_nil, List.append_nil, List.mem_cons, List.mem_nil_iff, or_false] at hop
  rcases hop with rfl | rfl | rfl | rfl | rfl | rfl | rfl | rfl | rfl | rfl | rfl | rfl | rfl | rfl | rfl <;>
    simp only [StableHlo.nullary_writes, StableHlo.unary_writes, StableHlo.binary_writes, StableHlo.reshape_writes,
      Finset.mem_singleton] <;>
    exact StableHlo.devRef_ne_of_ne ‹_›

/-- A buffer that neither stretch of host lines writes and that is not one of the region's three results ends as
    launched. -/
theorem Wfin_of_untouched (c : Dev nD) (b : Ref sig .tc)
    (hb0 : b ≠ main_v0 ∧ b ≠ main_v1 ∧ b ≠ main_v2 ∧ b ≠ main_v3 ∧ b ≠ main_v4 ∧ b ≠ main_v5 ∧ b ≠ main_v6)
    (hb1 : b ≠ main_v8 ∧ b ≠ main_cst ∧ b ≠ main_v9 ∧ b ≠ main_v10 ∧ b ≠ main_cst_0 ∧ b ≠ main_v11 ∧ b ≠ main_v12
      ∧ b ≠ main_cst_1 ∧ b ≠ main_v13 ∧ b ≠ main_cst_2 ∧ b ≠ main_v14 ∧ b ≠ main_v15 ∧ b ≠ main_cst_3
      ∧ b ≠ main_v16 ∧ b ≠ main_v17)
    (h7 : b ≠ main_v7_0 ∧ b ≠ main_v7_1 ∧ b ≠ main_v7_2) :
    Wfin m c (Proc.devRef .tc b) = m ((c : Thread nD τ).loc b) := by
  unfold Wfin
  rw [StableHlo.after_of_forall_not_mem (b := Proc.devRef .tc b) _ _ (not_written1 b hb1),
    Wmid_of_ne m c b h7.1 h7.2.1 h7.2.2]
  exact StableHlo.after_of_forall_not_mem (b := Proc.devRef .tc b) _ _ (not_written0 b hb0)

theorem Wfin_main_arg0 (c : Dev nD) : Wfin m c (Proc.devRef .tc main_arg0) = m ((c : Thread nD τ).loc main_arg0) :=
  Wfin_of_untouched m c main_arg0 (by decide) (by decide) (by decide)
theorem Wfin_main_arg1 (c : Dev nD) : Wfin m c (Proc.devRef .tc main_arg1) = m ((c : Thread nD τ).loc main_arg1) :=
  Wfin_of_untouched m c main_arg1 (by decide) (by decide) (by decide)
theorem Wfin_main_arg6 (c : Dev nD) : Wfin m c (Proc.devRef .tc main_arg6) = m ((c : Thread nD τ).loc main_arg6) :=
  Wfin_of_untouched m c main_arg6 (by decide) (by decide) (by decide)

end Cert.KernelIdeal.Tail

end
-- ==== Proof.LibPairSums.lean ====
import Mathlib

/-!
# Sums over ordered pairs versus sums over the strict upper triangle

A symmetric quantity `f i j` that vanishes on the diagonal, summed over all ordered pairs
`(i, j)` of an `n`-point index set, equals twice its sum over the pairs with `i < j`.
This file records that fact, its specialisation to a "same class / different class"
split of a pairwise quantity, the number `n (n - 1) / 2` of strictly ordered pairs,
and two small transport facts (real sums read in the extended reals, and counting
with 32-bit machine integers).
-/

noncomputable section

namespace Cert.PairSums

open Finset

/-! ## (1) all ordered pairs = twice the strict upper triangle -/

/-- If `f` is symmetric (`f i j = f j i`) and vanishes on the diagonal, then the sum of
`f i j` over all ordered pairs `(i, j)` is twice the sum over the pairs with `i < j`:
every unordered pair `{i, j}`, `i ≠ j`, is met exactly twice, with equal values, and the
diagonal contributes nothing. -/
theorem sum_sym_offdiag {n : ℕ} (f : Fin n → Fin n → ℝ)
    (hsym : ∀ i j, f i j = f j i) (hdiag : ∀ i, f i i = 0) :
    ∑ i, ∑ j, f i j = 2 * ∑ i, ∑ j, (if i < j then f i j else 0) := by
  -- pointwise: f i j = [i < j] f i j + [j < i] f j i
  have hsplit : ∀ i j : Fin n,
      f i j = (if i < j then f i j else 0) + (if j < i then f j i else 0) := by
    intro i j
    rcases lt_trichotomy i j with h | h | h
    · simp [h, not_lt.mpr h.le]
    · subst h; simp [hdiag]
    · simp [h, not_lt.mpr h.le, hsym i j]
  -- exchanging the two summation variables turns the lower triangle into the upper one
  have hswap : ∑ i, ∑ j, (if j < i then f j i else 0)
      = ∑ i, ∑ j, (if i < j then f i j else 0) := by
    rw [Finset.sum_comm]
  calc ∑ i, ∑ j, f i j
      = ∑ i, ∑ j, ((if i < j then f i j else 0) + (if j < i then f j i else 0)) :=
        Finset.sum_congr rfl (fun i _ => Finset.sum_congr rfl (fun j _ => hsplit i j))
    _ = (∑ i, ∑ j, (if i < j then f i j else 0))
          + ∑ i, ∑ j, (if j < i then f j i else 0) := by
        simp only [Finset.sum_add_distrib]
    _ = 2 * ∑ i, ∑ j, (if i < j then f i j else 0) := by rw [hswap]; ring

/-! ## (2) same-class / different-class split of a pairwise quantity -/

/-- Let `d` be a symmetric pairwise quantity with `d i i = 0`, `same` a symmetric and
reflexive relation, and `g` any real function.  The sum over all ordered pairs of
"`d i j` if `same i j`, else `g (d i j)`" is twice the sum over the strict upper
triangle, and the latter splits into the same-class part and the different-class part. -/
theorem pair_split {n : ℕ} (d : Fin n → Fin n → ℝ) (g : ℝ → ℝ)
    (same : Fin n → Fin n → Prop) [DecidableRel same]
    (hd : ∀ i j, d i j = d j i) (hd0 : ∀ i, d i i = 0)
    (hs : ∀ i j, same i j ↔ same j i) (hr : ∀ i, same i i) :
    ∑ i, ∑ j, (if same i j then d i j else g (d i j)) =
      2 * ((∑ i, ∑ j, if (i < j ∧ same i j) then d i j else 0) +
           (∑ i, ∑ j, if (i < j ∧ ¬ same i j) then g (d i j) else 0)) := by
  have hsym : ∀ i j : Fin n, (if same i j then d i j else g (d i j))
      = (if same j i then d j i else g (d j i)) := by
    intro i j
    by_cases h : same i j
    · have h' : same j i := (hs i j).mp h
      simp [h, h', hd i j]
    · have h' : ¬ same j i := fun c => h ((hs i j).mpr c)
      simp [h, h', hd i j]
  have hdiag : ∀ i : Fin n, (if same i i then d i i else g (d i i)) = 0 := by
    intro i; simp [hr i, hd0 i]
  have key := sum_sym_offdiag (fun i j => if same i j then d i j else g (d i j)) hsym hdiag
  rw [key]
  congr 1
  rw [← Finset.sum_add_distrib]
  refine Finset.sum_congr rfl (fun i _ => ?_)
  rw [← Finset.sum_add_distrib]
  refine Finset.sum_congr rfl (fun j _ => ?_)
  by_cases h1 : i < j <;> by_cases h2 : same i j <;> simp [h1, h2]

/-- The same statement in the shape "half the all-pairs sum, divided by `c`, equals the
upper-triangle same-class sum plus the upper-triangle different-class sum, divided by `c`". -/
theorem pair_split_div {n : ℕ} (d : Fin n → Fin n → ℝ) (g : ℝ → ℝ)
    (same : Fin n → Fin n → Prop) [DecidableRel same]
    (hd : ∀ i j, d i j = d j i) (hd0 : ∀ i, d i i = 0)
    (hs : ∀ i j, same i j ↔ same j i) (hr : ∀ i, same i i) (c : ℝ) :
    (1 / 2 * ∑ i, ∑ j, (if same i j then d i j else g (d i j))) / c =
      ((∑ i, ∑ j, if (i < j ∧ same i j) then d i j else 0) +
       (∑ i, ∑ j, if (i < j ∧ ¬ same i j) then g (d i j) else 0)) / c := by
  rw [pair_split d g same hd hd0 hs hr]; ring

/-! ## (3) the number of strictly ordered pairs -/

/-- For a fixed `i` among `n` points there are `n - 1 - i` indices `j` with `i < j`. -/
theorem count_gt {n : ℕ} (i : Fin n) :
    ∑ j : Fin n, (if i < j then 1 else 0 : ℕ) = n - 1 - (i : ℕ) := by
  rw [← Finset.card_filter, Finset.filter_lt_eq_Ioi, Fin.card_Ioi]

/-- The number of pairs `(i, j)` of `n` points with `i < j` is `n (n - 1) / 2`
(Gauss' sum `0 + 1 + ⋯ + (n - 1)`, read backwards). -/
theorem count_upper (n : ℕ) :
    ∑ i : Fin n, ∑ j : Fin n, (if i < j then 1 else 0 : ℕ) = n * (n - 1) / 2 := by
  simp only [count_gt]
  rw [Fin.sum_univ_eq_sum_range (fun i => n - 1 - i) n,
    Finset.sum_range_reflect (fun i => i) n, Finset.sum_range_id]

/-- For `2048` points there are `2096128` strictly ordered pairs. -/
theorem count_upper_2048 :
    ∑ i : Fin 2048, ∑ j : Fin 2048, (if i < j then 1 else 0 : ℕ) = 2096128 := by
  rw [count_upper]

/-- The set of strictly ordered pairs of `n` points has `n (n - 1) / 2` elements. -/
theorem card_upper (n : ℕ) :
    (Finset.univ.filter (fun p : Fin n × Fin n => p.1 < p.2)).card = n * (n - 1) / 2 := by
  rw [Finset.card_filter, Fintype.sum_prod_type]
  exact count_upper n

/-- The set of strictly ordered pairs of `2048` points has `2096128` elements. -/
theorem card_upper_2048 :
    (Finset.univ.filter (fun p : Fin 2048 × Fin 2048 => p.1 < p.2)).card = 2096128 := by
  rw [card_upper]

/-- Any predicate `q` splits the strictly ordered pairs of `2048` points into those that
satisfy it and those that do not; the two counts add up to `2096128`. -/
theorem card_upper_partition_2048 (q : Fin 2048 × Fin 2048 → Prop) [DecidablePred q] :
    (Finset.univ.filter (fun p : Fin 2048 × Fin 2048 => p.1 < p.2 ∧ q p)).card
      + (Finset.univ.filter (fun p : Fin 2048 × Fin 2048 => p.1 < p.2 ∧ ¬ q p)).card
      = 2096128 := by
  rw [← card_upper_2048, ← Finset.filter_filter, ← Finset.filter_filter]
  exact Finset.card_filter_add_card_filter_not q

/-! ## (4) finite real sums read in the extended reals -/

/-- The inclusion of the reals into the extended reals commutes with finite sums. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The inclusion of the reals into the extended reals commutes with sums over a finite type. -/
theorem coe_sum {ι : Type*} [Fintype ι] (r : ι → ℝ) :
    ((∑ i, r i : ℝ) : EReal) = ∑ i, (r i : EReal) :=
  coe_finset_sum Finset.univ r

/-- The inclusion of the reals into the extended reals commutes with finite double sums. -/
theorem coe_sum_sum {ι κ : Type*} [Fintype ι] [Fintype κ] (r : ι → κ → ℝ) :
    ((∑ i, ∑ j, r i j : ℝ) : EReal) = ∑ i, ∑ j, (r i j : EReal) := by
  rw [coe_sum]
  exact Finset.sum_congr rfl (fun i _ => coe_sum (r i))

/-- The inclusion of the reals into the extended reals commutes with sums over a product
of two finite types. -/
theorem coe_sum_prod {ι κ : Type*} [Fintype ι] [Fintype κ] (r : ι × κ → ℝ) :
    ((∑ p, r p : ℝ) : EReal) = ∑ p, (r p : EReal) :=
  coe_sum r

/-! ## (5) counting with 32-bit machine integers -/

/-- Adding a `1` for every index that satisfies `p`, in 32-bit modular arithmetic, gives the
number of such indices reduced modulo `2 ^ 32`. -/
theorem bv_count {ι : Type*} [Fintype ι] (p : ι → Prop) [DecidablePred p] :
    (∑ i, (if p i then 1#32 else 0#32) : BitVec 32)
      = BitVec.ofNat 32 (Finset.univ.filter p).card := by
  have h : ∀ i, (if p i then 1#32 else 0#32 : BitVec 32)
      = (if p i then (1 : BitVec 32) else 0) := by
    intro i; rfl
  simp only [h]
  rw [Finset.sum_boole, BitVec.natCast_eq_ofNat]

/-- A natural number below `2 ^ 31`, stored as a 32-bit word and read back as a signed
integer, is unchanged. -/
theorem toInt_ofNat_small (k : ℕ) (hk : k < 2 ^ 31) :
    (BitVec.ofNat 32 k).toInt = (k : ℤ) := by
  rw [BitVec.toInt_ofNat']
  apply Int.bmod_eq_of_le <;> omega

/-- Over an index set with fewer than `2 ^ 31` elements the 32-bit count never wraps: read
as a signed integer it is the true number of indices that satisfy `p`. -/
theorem bv_count_toInt {ι : Type*} [Fintype ι] (p : ι → Prop) [DecidablePred p]
    (hcard : Fintype.card ι < 2 ^ 31) :
    (∑ i, (if p i then 1#32 else 0#32) : BitVec 32).toInt
      = ((Finset.univ.filter p).card : ℤ) := by
  rw [bv_count]
  apply toInt_ofNat_small
  exact lt_of_le_of_lt (Finset.card_filter_le _ _) (by simpa using hcard)

/-- The double-sum form of the 32-bit count: a nested sum over `i` and `j` counts the pairs
`(i, j)` that satisfy `p`, modulo `2 ^ 32`. -/
theorem bv_count_sum_sum {ι κ : Type*} [Fintype ι] [Fintype κ]
    (p : ι → κ → Prop) [∀ i j, Decidable (p i j)] :
    (∑ i, ∑ j, (if p i j then 1#32 else 0#32) : BitVec 32)
      = BitVec.ofNat 32 (Finset.univ.filter (fun q : ι × κ => p q.1 q.2)).card := by
  rw [← bv_count (fun q : ι × κ => p q.1 q.2), Fintype.sum_prod_type]

/-- The double-sum 32-bit count read as a signed integer is the true number of pairs, as long
as there are fewer than `2 ^ 31` pairs in all. -/
theorem bv_count_sum_sum_toInt {ι κ : Type*} [Fintype ι] [Fintype κ]
    (p : ι → κ → Prop) [∀ i j, Decidable (p i j)]
    (hcard : Fintype.card ι * Fintype.card κ < 2 ^ 31) :
    (∑ i, ∑ j, (if p i j then 1#32 else 0#32) : BitVec 32).toInt
      = ((Finset.univ.filter (fun q : ι × κ => p q.1 q.2)).card : ℤ) := by
  rw [bv_count_sum_sum]
  apply toInt_ofNat_small
  refine lt_of_le_of_lt (Finset.card_filter_le _ _) ?_
  rw [Finset.card_univ, Fintype.card_prod]
  exact hcard

/-- For `2048` points the `2048 * 2048 = 4194304` ordered pairs are far fewer than `2 ^ 31`,
so a 32-bit count of pairs is exact. -/
theorem bv_count_pairs_2048_toInt (p : Fin 2048 → Fin 2048 → Prop) [∀ i j, Decidable (p i j)] :
    (∑ i, ∑ j, (if p i j then 1#32 else 0#32) : BitVec 32).toInt
      = ((Finset.univ.filter (fun q : Fin 2048 × Fin 2048 => p q.1 q.2)).card : ℤ) := by
  apply bv_count_sum_sum_toInt
  simp only [Fintype.card_fin]
  norm_num

end Cert.PairSums
-- ==== Proof.PairBridge.lean ====
/-
  The bridge between the two shapes of the pairwise loss.

  One program sums, over ALL ordered pairs (r, s) of the 2048 stacked rows, the clamped squared distance d2 r s when
  the two rows carry the same label and the squared margin term otherwise, halves the total and divides by the number
  2096128 = 2048 * 2047 / 2 of unordered pairs.  The other sums the same quantities over the pairs r < s only.
  When every entry of the two feature arrays is a real number, every row norm, inner product, squared distance and
  margin term is a real number; the squared distance is symmetric and vanishes on the diagonal
  (|E r|^2 + |E r|^2 - 2 <E r, E r> = 0), equality of labels is symmetric and reflexive; so the all-pairs sum is twice
  the strict-upper-triangle sum and the two results agree.
-/
import proofs.«122987_g56341380989036_cont_9to1_m_1285_19_alg».proof.Proof.RefValue
import proofs.«122987_g56341380989036_cont_9to1_m_1285_19_alg».proof.Proof.LibPairSums
import Idealize.ShloMosaic.PureOps.Ideal.Laws

noncomputable section

namespace Cert.PairBridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.ReferenceIdeal.RefValue

/-! ## The four float constants as real numbers -/

/-- The f32 word `0x3F000000` denotes the real number 1/2. -/
theorem ofBits_half : Ideal.ofBits .f32 0x3F000000#32 = ((1 / 2 : ℝ) : EReal) := by
  simp [Ideal.ofBits, Ideal.ieee, -EReal.coe_mul]; norm_num

/-- The f32 word `0x3F800000` denotes the real number 1. -/
theorem ofBits_one : Ideal.ofBits .f32 0x3F800000#32 = ((1 : ℝ) : EReal) := by
  simp [Ideal.ofBits, Ideal.ieee, -EReal.coe_mul]; norm_num

/-- The f32 word `0x40000000` denotes the real number 2. -/
theorem ofBits_two : Ideal.ofBits .f32 0x40000000#32 = ((2 : ℝ) : EReal) := by
  simp [Ideal.ofBits, Ideal.ieee, -EReal.coe_mul]; norm_num

/-- The f32 word `0x49FFE000` denotes the real number 2096128 = (2^23 + 0x7FE000) / 8. -/
theorem ofBits_2096128 : Ideal.ofBits .f32 0x49FFE000#32 = ((2096128 : ℝ) : EReal) := by
  simp [Ideal.ofBits, Ideal.ieee, -EReal.coe_mul]; norm_num

/-- The inclusion of the reals into the extended reals is monotone, so it commutes with `max`. -/
theorem coe_max (a b : ℝ) : ((max a b : ℝ) : EReal) = max (a : EReal) (b : EReal) :=
  EReal.coe_strictMono.monotone.map_max

/-! ## Real-valued twins of the row quantities -/

/-- Row `r` of the stacked real arrays. -/
def Er (f0 f1 : S1024x512.Idx → ℝ) (r : Fin 2048) (k : Fin 512) : ℝ :=
  if h : r.val < 1024 then f0 (ix2 (⟨r.val, h⟩ : Fin 1024) k)
  else f1 (ix2 (⟨r.val - 1024, by have := r.isLt; omega⟩ : Fin 1024) k)

/-- The squared norm of real row `r`. -/
def sqr (f0 f1 : S1024x512.Idx → ℝ) (r : Fin 2048) : ℝ := ∑ k : Fin 512, Er f0 f1 r k * Er f0 f1 r k

/-- The inner product of real rows `r` and `s`. -/
def dotr (f0 f1 : S1024x512.Idx → ℝ) (r s : Fin 2048) : ℝ := ∑ k : Fin 512, Er f0 f1 r k * Er f0 f1 s k

/-- The clamped squared distance of real rows `r` and `s`. -/
def d2r (f0 f1 : S1024x512.Idx → ℝ) (r s : Fin 2048) : ℝ :=
  max (sqr f0 f1 r + sqr f0 f1 s - 2 * dotr f0 f1 r s) 0

/-- The margin term as a function of the squared distance. -/
def marg (t : ℝ) : ℝ := max (1 - Real.sqrt t) 0

variable (f0 f1 : S1024x512.Idx → ℝ)

theorem E_coe (r : Fin 2048) (k : Fin 512) :
    E (fun i => (f0 i : EReal)) (fun i => (f1 i : EReal)) r k = (Er f0 f1 r k : EReal) := by
  unfold E Er
  by_cases h : r.val < 1024
  · rw [dif_pos h, dif_pos h]
  · rw [dif_neg h, dif_neg h]

theorem sq_coe (r : Fin 2048) :
    RefValue.sq (fun i => (f0 i : EReal)) (fun i => (f1 i : EReal)) r = (sqr f0 f1 r : EReal) := by
  unfold RefValue.sq sqr
  rw [Cert.PairSums.coe_sum]
  refine Finset.sum_congr rfl (fun k _ => ?_)
  rw [E_coe, EReal.coe_mul]

theorem dot_coe (r s : Fin 2048) :
    dot (fun i => (f0 i : EReal)) (fun i => (f1 i : EReal)) r s = (dotr f0 f1 r s : EReal) := by
  unfold dot dotr
  rw [Cert.PairSums.coe_sum]
  refine Finset.sum_congr rfl (fun k _ => ?_)
  rw [E_coe, E_coe, EReal.coe_mul]

theorem d2_coe (r s : Fin 2048) :
    d2 (fun i => (f0 i : EReal)) (fun i => (f1 i : EReal)) r s = (d2r f0 f1 r s : EReal) := by
  unfold d2 d2r
  rw [sq_coe, sq_coe, dot_coe, ofBits_two, coe_max, EReal.coe_sub, EReal.coe_add, EReal.coe_mul, EReal.coe_zero]

theorem d2r_nonneg (r s : Fin 2048) : 0 ≤ d2r f0 f1 r s := le_max_right _ _

theorem hinge_coe (r s : Fin 2048) :
    hinge (fun i => (f0 i : EReal)) (fun i => (f1 i : EReal)) r s = (marg (d2r f0 f1 r s) : EReal) := by
  unfold hinge marg
  rw [d2_coe, ofBits_one, Ideal.sqrt_coe, if_neg (not_lt.mpr (d2r_nonneg f0 f1 r s)), coe_max, EReal.coe_sub,
    EReal.coe_zero]

/-- The squared distance does not depend on the order of the two rows. -/
theorem d2r_symm (r s : Fin 2048) : d2r f0 f1 r s = d2r f0 f1 s r := by
  have hdot : dotr f0 f1 r s = dotr f0 f1 s r := by
    unfold dotr
    exact Finset.sum_congr rfl (fun k _ => mul_comm _ _)
  unfold d2r
  rw [hdot, add_comm (sqr f0 f1 r)]

/-- A row is at squared distance zero from itself: |E r|^2 + |E r|^2 - 2 <E r, E r> = 0. -/
theorem d2r_self (r : Fin 2048) : d2r f0 f1 r r = 0 := by
  have hdot : dotr f0 f1 r r = sqr f0 f1 r := rfl
  unfold d2r
  rw [hdot]
  have h : sqr f0 f1 r + sqr f0 f1 r - 2 * sqr f0 f1 r = 0 := by ring
  rw [h, max_self]

/-! ## The bridge -/

/-- With real entries, half the all-pairs sum over 2096128 is the strict-upper-triangle sum over 2096128. -/
theorem pair_bridge (x0 x1 : S1024x512.Idx → EReal) (x6 : S2x1024.Idx → BitVec 32)
    (h0 : ∀ i, ∃ r : ℝ, x0 i = (r : EReal)) (h1 : ∀ i, ∃ r : ℝ, x1 i = (r : EReal)) :
    Ideal.div (Ideal.ofBits .f32 0x3F000000#32 * (∑ r : Fin 2048, ∑ s : Fin 2048,
        if lab x6 r = lab x6 s then d2 x0 x1 r s else hinge x0 x1 r s * hinge x0 x1 r s))
      (Ideal.ofBits .f32 0x49FFE000#32)
    = Ideal.div (posSum x0 x1 x6 + negSum x0 x1 x6) ((2096128 : ℝ) : EReal) := by
  obtain ⟨g0, rfl⟩ : ∃ g0 : S1024x512.Idx → ℝ, x0 = fun i => (g0 i : EReal) :=
    ⟨fun i => (h0 i).choose, funext fun i => (h0 i).choose_spec⟩
  obtain ⟨g1, rfl⟩ : ∃ g1 : S1024x512.Idx → ℝ, x1 = fun i => (g1 i : EReal) :=
    ⟨fun i => (h1 i).choose, funext fun i => (h1 i).choose_spec⟩
  -- the three double sums as real numbers
  have hall : (∑ r : Fin 2048, ∑ s : Fin 2048,
        if lab x6 r = lab x6 s then d2 (fun i => (g0 i : EReal)) (fun i => (g1 i : EReal)) r s
        else hinge (fun i => (g0 i : EReal)) (fun i => (g1 i : EReal)) r s
          * hinge (fun i => (g0 i : EReal)) (fun i => (g1 i : EReal)) r s)
      = ((∑ r : Fin 2048, ∑ s : Fin 2048,
          if lab x6 r = lab x6 s then d2r g0 g1 r s
          else marg (d2r g0 g1 r s) * marg (d2r g0 g1 r s) : ℝ) : EReal) := by
    rw [Cert.PairSums.coe_sum_sum]
    refine Finset.sum_congr rfl (fun r _ => Finset.sum_congr rfl (fun s _ => ?_))
    by_cases h : lab x6 r = lab x6 s
    · rw [if_pos h, if_pos h, d2_coe]
    · rw [if_neg h, if_neg h, hinge_coe, EReal.coe_mul]
  have hpos : posSum (fun i => (g0 i : EReal)) (fun i => (g1 i : EReal)) x6
      = ((∑ r : Fin 2048, ∑ s : Fin 2048,
          if r < s ∧ lab x6 r = lab x6 s then d2r g0 g1 r s else 0 : ℝ) : EReal) := by
    unfold posSum
    rw [Cert.PairSums.coe_sum_sum]
    refine Finset.sum_congr rfl (fun r _ => Finset.sum_congr rfl (fun s _ => ?_))
    by_cases h : r < s ∧ lab x6 r = lab x6 s
    · rw [if_pos h, if_pos h, d2_coe]
    · rw [if_neg h, if_neg h, EReal.coe_zero]
  have hneg : negSum (fun i => (g0 i : EReal)) (fun i => (g1 i : EReal)) x6
      = ((∑ r : Fin 2048, ∑ s : Fin 2048,
          if r < s ∧ ¬ lab x6 r = lab x6 s then marg (d2r g0 g1 r s) * marg (d2r g0 g1 r s) else 0 : ℝ) : EReal) := by
    unfold negSum
    rw [Cert.PairSums.coe_sum_sum]
    refine Finset.sum_congr rfl (fun r _ => Finset.sum_congr rfl (fun s _ => ?_))
    by_cases h : r < s ∧ lab x6 r ≠ lab x6 s
    · rw [if_pos h, if_pos h, hinge_coe, EReal.coe_mul]
    · rw [if_neg h, if_neg h, EReal.coe_zero]
  -- the identity between the real sums
  have hreal := Cert.PairSums.pair_split (d2r g0 g1) (fun t => marg t * marg t)
    (fun r s => lab x6 r = lab x6 s) (d2r_symm g0 g1) (d2r_self g0 g1)
    (fun r s => eq_comm) (fun r => rfl)
  have h2 : (2096128 : ℝ) ≠ 0 := by norm_num
  rw [hall, hpos, hneg, ofBits_half, ofBits_2096128, Ideal.div_coe h2, Ideal.div_coe h2,
    ← EReal.coe_mul, ← EReal.coe_mul, ← EReal.coe_add, ← EReal.coe_mul, EReal.coe_eq_coe_iff, hreal]
  ring

end Cert.PairBridge

end
-- ==== Proof.KRun.lean ====
/-
  The launch: the program is host lines, one kernel region whose windows share two arrays, host lines. The run of the
  whole program from the body's obligation, the arrays split among the windows at entry and joined again at exit.
-/
import proofs.«122987_g56341380989036_cont_9to1_m_1285_19_alg».proof.Proof.KExit
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-- The buffers no window stages, at the end of the program. -/
abbrev Wrest (c : Dev nD) (b : Ref sig .tc) : Buf (Elt F) ((c : Thread nD τ).loc b) := Wfin m c (Proc.devRef .tc b)
/-- The same at the region's exit. -/
abbrev Wexit (c : Dev nD) (b : Ref sig .tc) : Buf (Elt F) ((c : Thread nD τ).loc b) := Wmid m c (Proc.devRef .tc b)

theorem ops1_sub : ∀ ops ∈ ([hostOps1] : List (List (HloOp τ sig (Elt F)))), ∀ op ∈ ops, op.bufs ⊆ ucRefs τ sig := by
  intro ops hops op hop
  simp only [List.mem_cons, List.mem_nil_iff, or_false] at hops
  rcases hops with rfl
  exact Pipeline.sub_ucRefs op ((List.forall_iff_forall_mem.mp hostOps1_sub) op hop)
theorem ops1_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The arrays at any contents that are the buffers' contents behind them. -/
theorem arrays_iff' (c : Dev nD) (Wb : (b : Ref sig .tc) → Buf (Elt F) ((c : Thread nD τ).loc b))
    (Fa : (w : Fin cfg0.W) → Buf (Elt F) ((cfg0.win w).arr.view.loc (c : Thread nD τ))) (hF : ∀ w, Fa w = Wb (Pipeline.arrRef spec0 w)) :
    (Pipeline.arrBufs spec0 c Wb : sProp 𝕄) ⊣⊢ (dats m 0 c).arrays Fa := by
  have h : Fa = fun w => Wb (Pipeline.arrRef spec0 w) := funext hF
  subst h
  exact arrays_iff m c Wb

/-- The unscoped buffers at a valuation: the buffers behind the arrays and the rest. -/
theorem held_split (c : Dev nD) (Wv : Valuation τ sig (Elt F)) :
    (StableHlo.held (c : Thread nD τ) (ucRefs τ sig) Wv : sProp 𝕄)
      = iprop((Pipeline.arrBufs spec0 c (fun b => Wv (Proc.devRef .tc b)) : sProp 𝕄) ∗ Pipeline.unscopedRest spec0 c (fun b => Wv (Proc.devRef .tc b))) := by
  rw [← unscopedBufs_held (Ix := Unit) (Name := ℕ) (U := UR sig nD τ) (Lvl := ℕ) c Wv]
  exact Pipeline.unscopedBufs_split₀ cfgs 0 winFacts₀0.arr_unscoped c _

theorem rest_exit (c : Dev nD) :
    (Pipeline.unscopedRest spec0 c (V m c) : sProp 𝕄) = Pipeline.unscopedRest spec0 c (Wexit m c) := by
  unfold Pipeline.unscopedRest
  exact bigSep_congr fun b hb => by
    have hb' := (Finset.mem_sdiff.mp hb).2
    have e : Wexit m c b = V m c b :=
      Wmid_of_ne m c b (fun e => hb' (Finset.mem_image.mpr ⟨8, Finset.mem_univ _, e ▸ rfl⟩))
        (fun e => hb' (Finset.mem_image.mpr ⟨9, Finset.mem_univ _, e ▸ rfl⟩))
        (fun e => hb' (Finset.mem_image.mpr ⟨10, Finset.mem_univ _, e ▸ rfl⟩))
    rw [e]

/-- At the region's exit: the arrays at their exit contents and the other buffers as the region found them are all the
    unscoped buffers at the exit valuation. -/
theorem held_exit (c : Dev nD) :
    (StableHlo.held (c : Thread nD τ) (ucRefs τ sig) (Wmid m c) : sProp 𝕄)
      ⊣⊢ iprop((dats m 0 c).arrays ((dats m 0 c).arrAt · cfg0.N) ∗ Pipeline.unscopedRest spec0 c (V m c)) := by
  rw [held_split, rest_exit]
  exact ⟨sep_mono (arrays_iff' m c (Wexit m c) _ (arrAt_Wmid m c)).1 .rfl, sep_mono (arrays_iff' m c (Wexit m c) _ (arrAt_Wmid m c)).2 .rfl⟩

/-- At the end: all the unscoped buffers at the end valuation give back the arrays at their exit contents. -/
theorem held_end (c : Dev nD) :
    (StableHlo.held (c : Thread nD τ) (ucRefs τ sig) (Wfin m c) : sProp 𝕄)
      ⊢ iprop((dats m 0 c).arrays ((dats m 0 c).arrAt · cfg0.N) ∗ Pipeline.unscopedRest spec0 c (Wrest m c)) := by
  rw [held_split]
  exact sep_mono (arrays_iff' m c (Wrest m c) _ (arrAt_Wfin m c)).1 .rfl

set_option maxHeartbeats 1600000 in
/-- The lines after the region: from the arrays at their exit contents and the other buffers as the region found them,
    the lines run and hand back the arrays unchanged and the other buffers at the end contents. -/
theorem tail (c : Dev nD) (Q' : PUnit → sProp 𝕄) :
    iprop((iprop((dats m 0 c).arrays ((dats m 0 c).arrAt · cfg0.N) ∗ Pipeline.unscopedRest spec0 c (Wrest m c)) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q : Fin 1 => (cfgs q).toPCfg (Val := Elt F)) defs₀) (Variants.lift Variants.none) (c : Thread nD τ) none) Set.univ (Pipeline.chain [StableHlo.seq hostOps1]) Q' := by
  have hW := held_exit m c
  have hW' := held_end m c
  have hseq := wp_seqs_then (Ix := Unit) (Name := ℕ) (U := UR sig nD τ) (Lvl := ℕ) (fun q : Fin 1 => (cfgs q).toPCfg (Val := Elt F)) defs₀ Variants.none c (ucRefs τ sig) [] (K := Q') [hostOps1] ops1_sub ops1_fresh (Wmid m c)
  rw [List.map_cons, List.map_nil, List.append_nil] at hseq
  iintro ⟨Hk, Hb, Ha, Hr⟩
  ihave Hh := hW.2 $$ [Ha Hr]
  · isplitl [Ha] <;> iassumption
  iapply hseq $$ [Hb Hh]
  · isplitl [Hb] <;> iassumption
  iintro Hb
  rw [chain_nil, wp_pure]
  imodintro
  iapply Hk
  icases Hb with ⟨-, H⟩
  iapply hW'
  iexact H

set_option maxHeartbeats 1600000 in
set_option backward.isDefEq.respectTransparency.types false in
/-- THE RUN. At any float values, from any memory with zero counters: every weakly fair execution of the program
    terminates, nothing faulting, and every final state has each windowed array at what the write-backs leave in it and
    every other unscoped buffer at what the host lines after the region leave. -/
theorem run_main : θ_run defs (onTc (τ := τ) (main (F := F))) (s₀ m ρ) (fun r => ∀ c : Dev nD,
    (∀ w, r.2.mem ((cfg0.win w).arr.view.loc (c : Thread nD τ)) = (dats m 0 c).arrAt w cfg0.N)
      ∧ ∀ b ∈ restRefsP sig Prefetch.none spec0, r.2.mem ((c : Thread nD τ).loc b) = Wrest m c b) :=
  Pipeline.θ_run_region_pf_tail (fun q : Fin 1 => (cfgs q).toPCfg (Val := Elt F)) (fun q => (cfgs q).toPCfg_adm) (dats m) () cellOf_inj 0 winFacts₀0 (OwnSemFacts.none spec0) (PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c)).1)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Wrest m c))
    (hX := fun c => by
      rw [unscopedRestP_none]
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := fun c Q' => tail m c Q')
    (QY := fun c s => ∀ b ∈ restRefsP sig Prefetch.none spec0, s.mem ((c : Thread nD τ).loc b) = Wrest m c b)
    (hY := fun c s' => by
      rw [← unscopedRestP_none]
      unfold unscopedRestP
      iintro ⟨-, HU, HSI⟩
      imodintro
      iapply (pointsTo_read_all (restRefsP sig Prefetch.none spec0) (fun b => (c : Thread nD τ).loc b) (Wrest m c) s')
      isplitl [HU] <;> iassumption)
    (hQ := fun s h c => ⟨(h c).1, (h c).2.2⟩)

end Cert.KernelIdeal.Hand

end
-- ==== Proof.KFrame.lean ====
/-
  The frame claim from the run: no host line writes an argument, and the pipeline writes no input window's array.
-/
import proofs.«122987_g56341380989036_cont_9to1_m_1285_19_alg».proof.Proof.KRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## No host line writes an argument -/
theorem pre_keeps_arg0 : ∀ op ∈ (List.flatten [hostOps0] : List (HloOp τ sig (Elt F))), Proc.devRef .tc main_arg0 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg0 : ∀ op ∈ (List.flatten [hostOps1] : List (HloOp τ sig (Elt F))), Proc.devRef .tc main_arg0 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg0 (c : Dev nD) : V m c main_arg0 = m ((c : Thread nD τ).loc main_arg0) :=
  StableHlo.after_of_forall_not_mem (b := Proc.devRef .tc main_arg0) _ _ pre_keeps_arg0
theorem Wfin_arg0 (c : Dev nD) : Wfin m c (Proc.devRef .tc main_arg0) = m ((c : Thread nD τ).loc main_arg0) := by
  unfold Wfin
  rw [StableHlo.after_of_forall_not_mem _ _ post_keeps_arg0, Wmid_of_ne m c main_arg0 (by decide) (by decide) (by decide)]
  exact V_arg0 m c
theorem pre_keeps_arg1 : ∀ op ∈ (List.flatten [hostOps0] : List (HloOp τ sig (Elt F))), Proc.devRef .tc main_arg1 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg1 : ∀ op ∈ (List.flatten [hostOps1] : List (HloOp τ sig (Elt F))), Proc.devRef .tc main_arg1 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg1 (c : Dev nD) : V m c main_arg1 = m ((c : Thread nD τ).loc main_arg1) :=
  StableHlo.after_of_forall_not_mem (b := Proc.devRef .tc main_arg1) _ _ pre_keeps_arg1
theorem Wfin_arg1 (c : Dev nD) : Wfin m c (Proc.devRef .tc main_arg1) = m ((c : Thread nD τ).loc main_arg1) := by
  unfold Wfin
  rw [StableHlo.after_of_forall_not_mem _ _ post_keeps_arg1, Wmid_of_ne m c main_arg1 (by decide) (by decide) (by decide)]
  exact V_arg1 m c
theorem pre_keeps_arg2 : ∀ op ∈ (List.flatten [hostOps0] : List (HloOp τ sig (Elt F))), Proc.devRef .tc main_arg2 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg2 : ∀ op ∈ (List.flatten [hostOps1] : List (HloOp τ sig (Elt F))), Proc.devRef .tc main_arg2 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg2 (c : Dev nD) : V m c main_arg2 = m ((c : Thread nD τ).loc main_arg2) :=
  StableHlo.after_of_forall_not_mem (b := Proc.devRef .tc main_arg2) _ _ pre_keeps_arg2
theorem Wfin_arg2 (c : Dev nD) : Wfin m c (Proc.devRef .tc main_arg2) = m ((c : Thread nD τ).loc main_arg2) := by
  unfold Wfin
  rw [StableHlo.after_of_forall_not_mem _ _ post_keeps_arg2, Wmid_of_ne m c main_arg2 (by decide) (by decide) (by decide)]
  exact V_arg2 m c
theorem pre_keeps_arg3 : ∀ op ∈ (List.flatten [hostOps0] : List (HloOp τ sig (Elt F))), Proc.devRef .tc main_arg3 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg3 : ∀ op ∈ (List.flatten [hostOps1] : List (HloOp τ sig (Elt F))), Proc.devRef .tc main_arg3 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg3 (c : Dev nD) : V m c main_arg3 = m ((c : Thread nD τ).loc main_arg3) :=
  StableHlo.after_of_forall_not_mem (b := Proc.devRef .tc main_arg3) _ _ pre_keeps_arg3
theorem Wfin_arg3 (c : Dev nD) : Wfin m c (Proc.devRef .tc main_arg3) = m ((c : Thread nD τ).loc main_arg3) := by
  unfold Wfin
  rw [StableHlo.after_of_forall_not_mem _ _ post_keeps_arg3, Wmid_of_ne m c main_arg3 (by decide) (by decide) (by decide)]
  exact V_arg3 m c
theorem pre_keeps_arg4 : ∀ op ∈ (List.flatten [hostOps0] : List (HloOp τ sig (Elt F))), Proc.devRef .tc main_arg4 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg4 : ∀ op ∈ (List.flatten [hostOps1] : List (HloOp τ sig (Elt F))), Proc.devRef .tc main_arg4 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg4 (c : Dev nD) : V m c main_arg4 = m ((c : Thread nD τ).loc main_arg4) :=
  StableHlo.after_of_forall_not_mem (b := Proc.devRef .tc main_arg4) _ _ pre_keeps_arg4
theorem Wfin_arg4 (c : Dev nD) : Wfin m c (Proc.devRef .tc main_arg4) = m ((c : Thread nD τ).loc main_arg4) := by
  unfold Wfin
  rw [StableHlo.after_of_forall_not_mem _ _ post_keeps_arg4, Wmid_of_ne m c main_arg4 (by decide) (by decide) (by decide)]
  exact V_arg4 m c
theorem pre_keeps_arg5 : ∀ op ∈ (List.flatten [hostOps0] : List (HloOp τ sig (Elt F))), Proc.devRef .tc main_arg5 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg5 : ∀ op ∈ (List.flatten [hostOps1] : List (HloOp τ sig (Elt F))), Proc.devRef .tc main_arg5 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg5 (c : Dev nD) : V m c main_arg5 = m ((c : Thread nD τ).loc main_arg5) :=
  StableHlo.after_of_forall_not_mem (b := Proc.devRef .tc main_arg5) _ _ pre_keeps_arg5
theorem Wfin_arg5 (c : Dev nD) : Wfin m c (Proc.devRef .tc main_arg5) = m ((c : Thread nD τ).loc main_arg5) := by
  unfold Wfin
  rw [StableHlo.after_of_forall_not_mem _ _ post_keeps_arg5, Wmid_of_ne m c main_arg5 (by decide) (by decide) (by decide)]
  exact V_arg5 m c
theorem pre_keeps_arg6 : ∀ op ∈ (List.flatten [hostOps0] : List (HloOp τ sig (Elt F))), Proc.devRef .tc main_arg6 ∉ op.writes := by
  intro op hop
  simp only [List.flatten_cons, List.flatten_nil, List.append_nil, hostOps0, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem post_keeps_arg6 : ∀ op ∈ (List.flatten [hostOps1] : List (HloOp τ sig (Elt F))), Proc.devRef .tc main_arg6 ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)
theorem V_arg6 (c : Dev nD) : V m c main_arg6 = m ((c : Thread nD τ).loc main_arg6) :=
  StableHlo.after_of_forall_not_mem (b := Proc.devRef .tc main_arg6) _ _ pre_keeps_arg6
theorem Wfin_arg6 (c : Dev nD) : Wfin m c (Proc.devRef .tc main_arg6) = m ((c : Thread nD τ).loc main_arg6) := by
  unfold Wfin
  rw [StableHlo.after_of_forall_not_mem _ _ post_keeps_arg6, Wmid_of_ne m c main_arg6 (by decide) (by decide) (by decide)]
  exact V_arg6 m c

theorem mem_rest_arg0 : main_arg0 ∈ restRefsP sig Prefetch.none spec0 := by decide
theorem mem_rest_arg1 : main_arg1 ∈ restRefsP sig Prefetch.none spec0 := by decide
theorem mem_rest_arg6 : main_arg6 ∈ restRefsP sig Prefetch.none spec0 := by decide

/-- THE FRAME: the program runs, and its seven argument arrays end as they were — three of them no window's array, read
    off the buffers the region bypasses; four of them input windows' arrays, which the pipeline never writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 mem_rest_arg0).trans (Wfin_arg0 m c),
     ((h c).2 main_arg1 mem_rest_arg1).trans (Wfin_arg1 m c),
     ((h c).1 4).trans (((dats m 0 c).arrAt_in 4 rfl _).trans ((A_eq m c 4).trans (V_arg2 m c))),
     ((h c).1 6).trans (((dats m 0 c).arrAt_in 6 rfl _).trans ((A_eq m c 6).trans (V_arg3 m c))),
     ((h c).1 5).trans (((dats m 0 c).arrAt_in 5 rfl _).trans ((A_eq m c 5).trans (V_arg4 m c))),
     ((h c).1 7).trans (((dats m 0 c).arrAt_in 7 rfl _).trans ((A_eq m c 7).trans (V_arg5 m c))),
     ((h c).2 main_arg6 mem_rest_arg6).trans (Wfin_arg6 m c)⟩) (run_main m ρ)

end Cert.KernelIdeal.Hand

end
-- ==== Proof.KResults.lean ====
/-
  The kernel program's four results at the exact instance, as closed forms of the argument arrays.
-/
import proofs.«122987_g56341380989036_cont_9to1_m_1285_19_alg».proof.Proof.KIdeal
import proofs.«122987_g56341380989036_cont_9to1_m_1285_19_alg».proof.Proof.KFinalArr
import proofs.«122987_g56341380989036_cont_9to1_m_1285_19_alg».proof.Proof.KTail
import proofs.«122987_g56341380989036_cont_9to1_m_1285_19_alg».proof.Proof.PairBridge
import proofs.«122987_g56341380989036_cont_9to1_m_1285_19_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline
open Cert.KernelIdeal.Tail Cert.ReferenceIdeal.RefValue

variable (m : (ℓ : Loc nD τ sig) → Buf (Elt Ideal) ℓ) (ρ : Dev nD → PrngReg)

/-! ## The three accumulators' arrays at the region's exit -/

theorem o8_eq (c : Dev nD) : o8 m c = ∑ r : Fin 2048, ∑ s : Fin 2048, pairTerm m c r s := by
  unfold o8
  rw [Wmid_8, final8]
  exact total8 m c _
theorem o9_eq (c : Dev nD) : o9 m c = ∑ j : S1024x512.Idx, (a2 m c j - a4 m c j) * (a2 m c j - a4 m c j) := by
  unfold o9
  rw [Wmid_9, final9]
  exact total9 m c _
theorem o10_eq (c : Dev nD) : o10 m c = ∑ j : S1024x512.Idx, (a3 m c j - a5 m c j) * (a3 m c j - a5 m c j) := by
  unfold o10
  rw [Wmid_10, final10]
  exact total10 m c _

/-! ## The four results -/

/-- The first mean squared error. -/
theorem res_v9 (c : Dev nD) (i : S_.Idx) :
    (Wfin m c (Proc.devRef .tc main_v9) : S_.Idx → EReal) i = mse (a2 m c) (a4 m c) := by
  rw [Wfin_main_v9, o9_eq]; rfl
/-- The second mean squared error. -/
theorem res_v11 (c : Dev nD) (i : S_.Idx) :
    (Wfin m c (Proc.devRef .tc main_v11) : S_.Idx → EReal) i = mse (a3 m c) (a5 m c) := by
  rw [Wfin_main_v11, o10_eq]; rfl
/-- The contrastive mean: for real embeddings, half the sum over all ordered pairs over the number of pairs is the sum over
    the strict upper triangle over the same number — the pair terms are symmetric and vanish on the diagonal. -/
theorem res_v14 (c : Dev nD) (i : S_.Idx) (h0 : ∀ j, ∃ r : ℝ, a0 m c j = (r : EReal)) (h1 : ∀ j, ∃ r : ℝ, a1 m c j = (r : EReal)) :
    (Wfin m c (Proc.devRef .tc main_v14) : S_.Idx → EReal) i
      = Ideal.div (posSum (a0 m c) (a1 m c) (a6 m c) + negSum (a0 m c) (a1 m c) (a6 m c)) ((2096128 : ℝ) : EReal) := by
  rw [Wfin_main_v14, o8_eq]
  exact Cert.PairBridge.pair_bridge (a0 m c) (a1 m c) (a6 m c) h0 h1
/-- The total loss. -/
theorem res_v17 (c : Dev nD) (i : S_.Idx) (h0 : ∀ j, ∃ r : ℝ, a0 m c j = (r : EReal)) (h1 : ∀ j, ∃ r : ℝ, a1 m c j = (r : EReal)) :
    (Wfin m c (Proc.devRef .tc main_v17) : S_.Idx → EReal) i
      = Ideal.div (posSum (a0 m c) (a1 m c) (a6 m c) + negSum (a0 m c) (a1 m c) (a6 m c)) ((2096128 : ℝ) : EReal)
        + Ideal.div (mse (a2 m c) (a4 m c) + mse (a3 m c) (a5 m c)) (Ideal.ofBits .f32 0x40000000#32) := by
  rw [Wfin_main_v17, o8_eq, o9_eq, o10_eq]
  rw [show Ideal.div (Ideal.ofBits .f32 0x3F000000#32 * ∑ r : Fin 2048, ∑ s : Fin 2048, pairTerm m c r s) (Ideal.ofBits .f32 0x49FFE000#32)
      = Ideal.div (posSum (a0 m c) (a1 m c) (a6 m c) + negSum (a0 m c) (a1 m c) (a6 m c)) ((2096128 : ℝ) : EReal)
    from Cert.PairBridge.pair_bridge (a0 m c) (a1 m c) (a6 m c) h0 h1]
  rfl

theorem mem_rest_v17 : main_v17 ∈ restRefsP sig Prefetch.none spec0 := by decide
theorem mem_rest_v9 : main_v9 ∈ restRefsP sig Prefetch.none spec0 := by decide
theorem mem_rest_v11 : main_v11 ∈ restRefsP sig Prefetch.none spec0 := by decide
theorem mem_rest_v14 : main_v14 ∈ restRefsP sig Prefetch.none spec0 := by decide

end Cert.KernelIdeal.Hand

end
-- ==== Proof.KFinite.lean ====
/-
  Every entry of the first two argument arrays is a real number, from the precondition.

  The precondition says, of each of the six float arguments, that every entry has absolute value below the f32 word
  of +infinity, all six facts and-ed into one bit that is set.  At the exact instance the absolute value of `x` is
  `max x (-x)` and that word denotes the top element of the extended reals, so `max x (-x) < ⊤`: `x` is neither
  `⊤` nor `⊥`, hence the inclusion of a real number.
-/
import proofs.«122987_g56341380989036_cont_9to1_m_1285_19_alg».proof.Defs
import proofs.«122987_g56341380989036_cont_9to1_m_1285_19_alg».proof.Proof.Gen.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.KernelIdeal.Finite

open Idealize.ShloMosaic Idealize.SL.Sem

/-- The scalar shape has one index. -/
instance : Subsingleton Cert.Pre_finite_inputs.S_.Idx := ⟨fun a b => funext fun d => d.elim0⟩

/-- The f32 word `0x7F800000` (+infinity) denotes the top element of the extended reals. -/
theorem ofBits_inf : Ideal.ofBits .f32 0x7F800000#32 = ⊤ := by
  simp [Ideal.ofBits, Ideal.ieee]

/-- A one-bit word made from a Boolean is set exactly when the Boolean is true. -/
theorem ofBool_eq_one (b : Bool) : BitVec.ofBool b = 1#1 ↔ b = true := by cases b <;> decide

/-- An extended real whose absolute value `max x (-x)` compares below the word of +infinity is a real number:
`⊤` and `⊥` both have absolute value `⊤`. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    exact of_decide_eq_true ((ofBool_eq_one _).1 h)
  induction x using EReal.rec with
  | bot => simp at hlt
  | coe r => exact ⟨r, rfl⟩
  | top => simp at hlt

/-- If the and-reduction of "absolute value below +infinity" over a whole `[1024, 512]` array is set, every entry of the
array is a real number. -/
theorem entries_real [Cert.Pre_finite_inputs.Facts] (x : FVec Ideal Cert.Pre_finite_inputs.S1024x512 .f32)
    (bc : Cert.Pre_finite_inputs.S_.BroadcastsInDim Cert.Pre_finite_inputs.S1024x512
      (![] : Fin 0 → Fin Cert.Pre_finite_inputs.S1024x512.rank))
    (init : IVec Cert.Pre_finite_inputs.S_ 1)
    (red : Cert.Pre_finite_inputs.S1024x512.ReducesTo [0, 1] Cert.Pre_finite_inputs.S_)
    (hS : 0 < Cert.Pre_finite_inputs.S_.numel) (j : Cert.Pre_finite_inputs.S_.Idx)
    (e : Host.reduce IntOp.andi
        (cmpf .olt (Host.absf x)
          (broadcastInDim Cert.Pre_finite_inputs.S1024x512 ![] bc
            (constant (F := Ideal) Cert.Pre_finite_inputs.S_ .f32 0x7F800000#32)))
        init red hS j = 1#1)
    (i : Cert.Pre_finite_inputs.S1024x512.Idx) : ∃ r : ℝ, x i = (r : EReal) := by
  have hi := Host.reduce_andi_all _ init red hS j e i
  exact real_of_abs_lt (x i) hi

/-- The precondition makes every entry of arguments 0 and 1 a real number, on every device. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ,
        m ((c.tc : Thread Cert.KernelIdeal.nD Cert.KernelIdeal.τ).loc Cert.KernelIdeal.main_arg0) i = (r : EReal))
      ∧ (∀ i, ∃ r : ℝ,
        m ((c.tc : Thread Cert.KernelIdeal.nD Cert.KernelIdeal.τ).loc Cert.KernelIdeal.main_arg1) i = (r : EReal)) := by
  have e := congrFun (h c) ValueIdx.ix0
  unfold Cert.Pre_finite_inputs.fn Cert.Pre_finite_inputs.fn_part1 at e
  dsimp only at e
  have e1 := IntOp.andi_eq_one.1 e
  have e2 := IntOp.andi_eq_one.1 e1.1
  have e3 := IntOp.andi_eq_one.1 e2.1
  have e4 := IntOp.andi_eq_one.1 e3.1
  have e5 := IntOp.andi_eq_one.1 e4.1
  exact ⟨fun i => entries_real _ _ _ _ _ _ e5.1 i, fun i => entries_real _ _ _ _ _ _ e5.2 i⟩

end Cert.KernelIdeal.Finite

end
-- ==== Proof.RefValue2.lean ====
/-
  The number of pairs the reference program divides by. The program counts the positive pairs and the negative pairs
  separately, each as a sum of 0/1 words in 32-bit arithmetic, converts the two counts to reals and adds them. Every
  pair of rows r < s is either a positive or a negative pair, so the total is the number of such pairs,
  2048 * 2047 / 2 = 2096128, whatever the labels; both counts stay far below 2^31, so no word wraps.
-/
import proofs.«122987_g56341380989036_cont_9to1_m_1285_19_alg».proof.Proof.RefValue
import proofs.«122987_g56341380989036_cont_9to1_m_1285_19_alg».proof.Proof.LibPairSums

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The number of pairs: the two integer sums of the masks -/

/-- A fold of 32-bit addition over a finite set is the initial word plus the sum. -/
theorem fold_addi_eq_sum {ι : Type} [DecidableEq ι] (s : Finset ι) (f : ι → BitVec 32) (b : BitVec 32) :
    s.fold IntOp.addi b f = b + ∑ i ∈ s, f i := by
  induction s using Finset.induction_on with
  | empty => simp
  | insert a s ha ih =>
    rw [Finset.fold_insert ha, Finset.sum_insert ha, ih]
    show f a + (b + ∑ i ∈ s, f i) = b + (f a + ∑ i ∈ s, f i)
    rw [← add_assoc, add_comm (f a) b, add_assoc]

/-- A sum of 32-bit words over the whole 2048 x 2048 array into a scalar, from the zero word, is the double sum of the
    entries: every index reduces to the one index of the scalar. -/
theorem reduce_addi_total (y : S2048x2048.Idx → BitVec 32) (init : S_.Idx → BitVec 32) (h0 : ∀ i, init i = 0#32)
    (i : S_.Idx) :
    Host.reduce IntOp.addi y init reducesTo_S2048x2048_S_d0_1 h_S_ i
      = ∑ r : Fin 2048, ∑ s : Fin 2048, y (ix2 r s) := by
  rw [Host.reduce_eq_fold, Finset.filter_true_of_mem (fun j _ => funext fun a => a.elim0), fold_addi_eq_sum, h0,
    BitVec.zero_add, sum_idx2]

/-- The count of positive pairs, as a sum of 0/1 words. -/
theorem v50_apply (x6 : (⟨S2x1024, .i32⟩ : BufTy).Contents (Elt Ideal)) (i : S_.Idx) :
    val_main_v50 (F := Ideal) x6 i
      = ∑ r : Fin 2048, ∑ s : Fin 2048, (if r < s ∧ lab x6 r = lab x6 s then 1#32 else 0#32) := by
  unfold val_main_v50
  rw [reduce_addi_total _ _ (val_main_c_13_apply (F := Ideal))]
  refine Finset.sum_congr rfl fun r _ => Finset.sum_congr rfl fun s _ => ?_
  rw [val_main_v49_apply, v35_apply]
  by_cases h : r < s ∧ lab x6 r = lab x6 s
  · rw [if_pos h, if_pos h]; rfl
  · rw [if_neg h, if_neg h]; rfl

/-- The count of negative pairs, as a sum of 0/1 words. -/
theorem v53_apply (x6 : (⟨S2x1024, .i32⟩ : BufTy).Contents (Elt Ideal)) (i : S_.Idx) :
    val_main_v53 (F := Ideal) x6 i
      = ∑ r : Fin 2048, ∑ s : Fin 2048, (if r < s ∧ lab x6 r ≠ lab x6 s then 1#32 else 0#32) := by
  unfold val_main_v53
  rw [reduce_addi_total _ _ (val_main_c_14_apply (F := Ideal))]
  refine Finset.sum_congr rfl fun r _ => Finset.sum_congr rfl fun s _ => ?_
  rw [val_main_v52_apply, v37_apply]
  by_cases h : r < s ∧ lab x6 r ≠ lab x6 s
  · rw [if_pos h, if_pos h]; rfl
  · rw [if_neg h, if_neg h]; rfl

/-- The number of pairs as the program computes it: the two counts, each a 32-bit word read signed, added as reals. -/
theorem v55_apply (x6 : (⟨S2x1024, .i32⟩ : BufTy).Contents (Elt Ideal)) (i : S_.Idx) :
    val_main_v55 (F := Ideal) x6 i
      = (((∑ r : Fin 2048, ∑ s : Fin 2048,
            (if r < s ∧ lab x6 r = lab x6 s then 1#32 else 0#32) : BitVec 32).toInt : ℝ) : EReal)
        + (((∑ r : Fin 2048, ∑ s : Fin 2048,
            (if r < s ∧ lab x6 r ≠ lab x6 s then 1#32 else 0#32) : BitVec 32).toInt : ℝ) : EReal) := by
  rw [val_main_v55_apply, val_main_v51_apply, val_main_v54_apply, v50_apply, v53_apply]
  rfl

/-- The number of pairs is 2096128 for every label array. -/
theorem nPairs_apply (x6 : (⟨S2x1024, .i32⟩ : BufTy).Contents (Elt Ideal)) (i : S_.Idx) :
    val_main_v55 (F := Ideal) x6 i = ((2096128 : ℝ) : EReal) := by
  rw [v55_apply, Cert.PairSums.bv_count_pairs_2048_toInt, Cert.PairSums.bv_count_pairs_2048_toInt, ← EReal.coe_add]
  have h := Cert.PairSums.card_upper_partition_2048 (fun p : Fin 2048 × Fin 2048 => lab x6 p.1 = lab x6 p.2)
  refine congrArg (fun t : ℝ => (t : EReal)) ?_
  have hR := congrArg (fun n : ℕ => (n : ℝ)) h
  simp only [Nat.cast_add, Nat.cast_ofNat] at hR
  simp only [Int.cast_natCast, ne_eq]
  exact hR

/-! ## The four results in closed form -/

/-- The pair loss: the two pair sums over 2096128. -/
theorem lossMean_apply (x0 x1 : (⟨S1024x512, .f32⟩ : BufTy).Contents (Elt Ideal))
    (x6 : (⟨S2x1024, .i32⟩ : BufTy).Contents (Elt Ideal)) (i : S_.Idx) :
    val_main_v57 (F := Ideal) x0 x1 x6 i
      = Ideal.div (posSum x0 x1 x6 + negSum x0 x1 x6) ((2096128 : ℝ) : EReal) := by
  rw [v57_apply, nPairs_apply]

/-- The total loss: the pair loss plus half the sum of the two mean-squared errors. -/
theorem losses_apply (x0 x1 x2 x3 x4 x5 : (⟨S1024x512, .f32⟩ : BufTy).Contents (Elt Ideal))
    (x6 : (⟨S2x1024, .i32⟩ : BufTy).Contents (Elt Ideal)) (i : S_.Idx) :
    val_main_v60 (F := Ideal) x0 x1 x2 x3 x4 x5 x6 i
      = Ideal.div (posSum x0 x1 x6 + negSum x0 x1 x6) ((2096128 : ℝ) : EReal)
        + Ideal.div (mse x2 x4 + mse x3 x5) (Ideal.ofBits .f32 0x40000000#32) := by
  rw [v60_apply, lossMean_apply]

end Cert.ReferenceIdeal.RefValue

end
-- ==== Proof.RefRun.lean ====
/-
  The reference program's run with its four results in closed form, and its frame claim.

  The generated run states each result buffer as the operations' composed term of the arguments; read at the one
  index of a scalar, those terms are the two mean-squared errors, the pair loss (the positive-pair and negative-pair
  sums over the number of pairs, 2096128) and the total (the pair loss plus half the sum of the two errors).
-/
import proofs.«122987_g56341380989036_cont_9to1_m_1285_19_alg».proof.Defs
import proofs.«122987_g56341380989036_cont_9to1_m_1285_19_alg».proof.Proof.Gen.Pre_finite_inputs
import proofs.«122987_g56341380989036_cont_9to1_m_1285_19_alg».proof.Proof.Gen.ReferenceIdeal.Run
import proofs.«122987_g56341380989036_cont_9to1_m_1285_19_alg».proof.Proof.Gen.ReferenceIdeal.Read
import proofs.«122987_g56341380989036_cont_9to1_m_1285_19_alg».proof.Proof.RefValue2

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The four results as functions of the argument arrays -/

/-- The first mean-squared error. -/
def L3 (x2 x4 : S1024x512.Idx → EReal) : EReal := mse x2 x4

/-- The second mean-squared error. -/
def L7 (x3 x5 : S1024x512.Idx → EReal) : EReal := mse x3 x5

/-- The pair loss: the positive-pair sum plus the negative-pair sum, over the number of pairs. -/
def L57 (x0 x1 : S1024x512.Idx → EReal) (x6 : S2x1024.Idx → BitVec 32) : EReal :=
  Ideal.div (posSum x0 x1 x6 + negSum x0 x1 x6) ((2096128 : ℝ) : EReal)

/-- The total: the pair loss plus the sum of the two mean-squared errors over the f32 word of 2. -/
def L60 (x0 x1 x2 x3 x4 x5 : S1024x512.Idx → EReal) (x6 : S2x1024.Idx → BitVec 32) : EReal :=
  L57 x0 x1 x6 + Ideal.div (mse x2 x4 + mse x3 x5) (Ideal.ofBits .f32 0x40000000#32)

/-! ## The run -/

/-- Every weakly fair execution of the reference terminates with its four results at their closed forms and its
    arguments unchanged. -/
theorem ref_run [hR : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v60)
          = (fun _ => L60 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))
      ∧ r.2.mem ((c.tc : Thread Cert.ReferenceIdeal.nD Cert.ReferenceIdeal.τ).loc Cert.ReferenceIdeal.main_v3)
          = (fun _ => L3 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)))
      ∧ r.2.mem ((c.tc : Thread Cert.ReferenceIdeal.nD Cert.ReferenceIdeal.τ).loc Cert.ReferenceIdeal.main_v7)
          = (fun _ => L7 (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)))
      ∧ r.2.mem ((c.tc : Thread Cert.ReferenceIdeal.nD Cert.ReferenceIdeal.τ).loc Cert.ReferenceIdeal.main_v57)
          = (fun _ => L57 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono (fun _ h c =>
    ⟨(h c).1.trans ((Read.val_main_v60_eq m' c).trans (funext fun i => by
        rw [losses_apply]; rfl)),
     (h c).2.1.trans ((Read.val_main_v3_eq _ _).trans (funext fun i => by
        rw [loss1_apply]; rfl)),
     (h c).2.2.1.trans ((Read.val_main_v7_eq _ _).trans (funext fun i => by
        rw [loss2_apply]; rfl)),
     (h c).2.2.2.1.trans ((Read.val_main_v57_eq m' c).trans (funext fun i => by
        rw [lossMean_apply]; rfl)),
     (h c).2.2.2.2⟩)
    (Cert.ReferenceIdeal.Value.run (F := Ideal) m' g')

/-! ## The frame claim -/

/-- The reference runs and its arguments end unchanged: the generated run with the results dropped. -/
theorem frame_ri [hR : Cert.ReferenceIdeal.Facts] [hP : Cert.Pre_finite_inputs.Facts] :
    Cert.frame_ReferenceIdeal (hReferenceIdeal := hR) (hPre_finite_inputs := hP) := fun m ρ _ =>
  (θ_run Cert.ReferenceIdeal.defs _ _).mono (fun _ h c => (h c).2.2.2.2)
    (Cert.ReferenceIdeal.Value.run (F := Ideal) m ρ)

example : Cert.frame_ReferenceIdeal (hReferenceIdeal := Cert.ReferenceIdeal.Gen.facts)
    (hPre_finite_inputs := Cert.Pre_finite_inputs.Gen.facts) := frame_ri

end Cert.ReferenceIdeal.RefValue

end
-- ==== Proof.lean ====
/-
  The certificate of a fused contrastive-loss kernel against its jnp reference.

  The kernel concatenates the two embedding matrices into one of 2048 rows and walks its squared-distance matrix in eight
  blocks of 256 rows. At the first grid point it computes every row's squared norm and keeps them in a scratch row; at
  every point it forms the block's inner products with all rows, the clamped squared distances
  d(r, s) = max(|e_r|² + |e_s|² − 2 e_r·e_s, 0), and adds up, over ALL ordered pairs of the block, d(r, s) where the two
  labels agree and max(1 − √d(r, s), 0)² where they differ; three scalars are accumulated across the grid: that pair sum and
  the two sums of squared differences of the mean squared errors. The host lines after the region divide.
  The reference sums over the strict upper triangle r < s only and divides by the number of such pairs, which it counts.

  Over the extended reals, for real (finite) embeddings: the pair term is symmetric in (r, s), and on the diagonal it is
  d(r, r) = max(q + q − 2q, 0) = 0; so the sum over all ordered pairs is twice the sum over the upper triangle, and half of
  it over 2096128 = 2048·2047/2 is the reference's quotient, the counted number of pairs being that number for every
  label array. The sums of squared differences are regrouped from eight row blocks to the whole matrix, which holds in
  any commutative monoid. Finiteness is used for the pair sum only (doubling and the diagonal need real arithmetic).

  The kernel hands the embedding matrix and the label row to two windows each. Its run is proved against the launch
  theorem for windows that may share arrays: a shared buffer is split in two halves at entry and joined again at exit.
-/
import proofs.«122987_g56341380989036_cont_9to1_m_1285_19_alg».proof.Defs
import proofs.«122987_g56341380989036_cont_9to1_m_1285_19_alg».proof.Proof.Gen.Kernel
import proofs.«122987_g56341380989036_cont_9to1_m_1285_19_alg».proof.Proof.Gen.KernelIdeal
import proofs.«122987_g56341380989036_cont_9to1_m_1285_19_alg».proof.Proof.Gen.ReferenceIdeal
import proofs.«122987_g56341380989036_cont_9to1_m_1285_19_alg».proof.Proof.Gen.Pre_finite_inputs
import proofs.«122987_g56341380989036_cont_9to1_m_1285_19_alg».proof.Proof.Gen.ReferenceIdeal.Run
import proofs.«122987_g56341380989036_cont_9to1_m_1285_19_alg».proof.Proof.Gen.ReferenceIdeal.Read
import proofs.«122987_g56341380989036_cont_9to1_m_1285_19_alg».proof.Proof.BFrame
import proofs.«122987_g56341380989036_cont_9to1_m_1285_19_alg».proof.Proof.KResults
import proofs.«122987_g56341380989036_cont_9to1_m_1285_19_alg».proof.Proof.KFinite
import proofs.«122987_g56341380989036_cont_9to1_m_1285_19_alg».proof.Proof.RefRun
import Idealize.ShloMosaic.Adequacy
import Idealize.ShloMosaic.Init

noncomputable section

namespace Cert.Proof

open Idealize.ShloMosaic Idealize.SL.Sem
open Cert.KernelIdeal Cert.KernelIdeal.Hand Cert.ReferenceIdeal.RefValue

/-- The word-level kernel program runs and leaves its arguments unchanged. -/
theorem frame_p : Cert.frame_Kernel := fun m ρ _ => Cert.Kernel.Hand.frame (F := Bits) m ρ
/-- So does its idealization, -/
theorem frame_pi : Cert.frame_KernelIdeal := fun m ρ _ => Cert.KernelIdeal.Hand.frame (F := Ideal) m ρ
/-- and the reference. -/
theorem frame_r : Cert.frame_ReferenceIdeal := Cert.ReferenceIdeal.RefValue.frame_ri

/-- The ideal pass rewrote nothing. -/
theorem preserves : Cert.preserves_Kernel_KernelIdeal := trivial

set_option maxHeartbeats 1600000 in
/-- From memories agreeing on the arguments, both idealized programs end with the same four results: the two mean squared
    errors, the contrastive mean over the pairs r < s, and their combination. -/
theorem algebraic : Cert.algebraic_KernelIdeal_ReferenceIdeal := by
  intro m ρ m' ρ' hpre hagree
  refine ⟨fun c _ => L60 (a0 m c) (a1 m c) (a2 m c) (a3 m c) (a4 m c) (a5 m c) (a6 m c), fun c _ => L3 (a2 m c) (a4 m c),
    fun c _ => L7 (a3 m c) (a5 m c), fun c _ => L57 (a0 m c) (a1 m c) (a6 m c), ?_, ?_⟩
  · refine (θ_run (Cert.KernelIdeal.defs (F := Ideal)) _ _).mono (fun r h c => ?_) (Cert.KernelIdeal.Hand.run_main m ρ)
    obtain ⟨h0, h1⟩ := Cert.KernelIdeal.Finite.real_of_pre m hpre c
    exact ⟨((h c).2 main_v17 mem_rest_v17).trans (funext fun i => res_v17 m c i h0 h1),
      ((h c).2 main_v9 mem_rest_v9).trans (funext fun i => res_v9 m c i),
      ((h c).2 main_v11 mem_rest_v11).trans (funext fun i => res_v11 m c i),
      ((h c).2 main_v14 mem_rest_v14).trans (funext fun i => res_v14 m c i h0 h1),
      ((h c).2 main_arg0 mem_rest_arg0).trans (Wfin_arg0 m c),
      ((h c).2 main_arg1 mem_rest_arg1).trans (Wfin_arg1 m c),
      ((h c).1 4).trans (((dats m 0 c).arrAt_in 4 rfl _).trans ((A_eq m c 4).trans (V_arg2 m c))),
      ((h c).1 6).trans (((dats m 0 c).arrAt_in 6 rfl _).trans ((A_eq m c 6).trans (V_arg3 m c))),
      ((h c).1 5).trans (((dats m 0 c).arrAt_in 5 rfl _).trans ((A_eq m c 5).trans (V_arg4 m c))),
      ((h c).1 7).trans (((dats m 0 c).arrAt_in 7 rfl _).trans ((A_eq m c 7).trans (V_arg5 m c))),
      ((h c).2 main_arg6 mem_rest_arg6).trans (Wfin_arg6 m c)⟩
  · refine (θ_run (Cert.ReferenceIdeal.defs (F := Ideal)) _ _).mono (fun r h c => ?_) (Cert.ReferenceIdeal.RefValue.ref_run m' ρ')
    obtain ⟨e0, e1, e2, e3, e4, e5, e6⟩ := hagree c
    obtain ⟨r60, r3, r7, r57, ra⟩ := h c
    rw [e0, e1, e2, e3, e4, e5, e6] at r60
    rw [e2, e4] at r3
    rw [e3, e5] at r7
    rw [e0, e1, e6] at r57
    exact ⟨r60, r3, r7, r57, ra⟩

theorem claim : Cert.Claim := ⟨Cert.Kernel.Gen.facts, Cert.KernelIdeal.Gen.facts, Cert.ReferenceIdeal.Gen.facts, Cert.Pre_finite_inputs.Gen.facts,
  frame_p, frame_pi, frame_r, preserves, algebraic⟩

end Cert.Proof

end
